-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x80 : Shape := ⟨3, ![32, 8192, 80]⟩
abbrev S10 : Shape := ⟨1, ![10]⟩
abbrev S_ : Shape := ⟨0, ![]⟩

class Facts : Prop where
  bcast_S_S32x8192x80 : S_.BroadcastsInDim S32x8192x80 (![] : Fin 0 → Fin S32x8192x80.rank)
  reducesTo_S32x8192x80_S_d0_1_2 : S32x8192x80.ReducesTo [0, 1, 2] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S32x8192x80 .f32) (main_arg1 : IVec S32x8192x80 32) (main_arg2 : FVec F S10 .f32) : IVec S_ 1 :=
  let main_v0 : FVec F S32x8192x80 .f32 := Host.absf main_arg0
  let main_cst : FVec F S_ .f32 := constant S_ .f32 0x7F800000#32
  let main_v1 : FVec F S32x8192x80 .f32 := broadcastInDim S32x8192x80 ![] bcast_S_S32x8192x80 main_cst
  let main_v2 : IVec S32x8192x80 1 := cmpf .olt main_v0 main_v1
  let main_c : IVec S_ 1 := constantI S_ 1 1#1
  let main_v3 : IVec S_ 1 := (fun x v => Host.reduce IntOp.andi x v reducesTo_S32x8192x80_S_d0_1_2 h_S_) main_v2 main_c
  let main_v4 : FVec F S10 .f32 := Host.absf main_arg2
  let main_cst_0 : FVec F S_ .f32 := constant S_ .f32 0x7F800000#32
  let main_v5 : FVec F S10 .f32 := broadcastInDim S10 ![] bcast_S_S10 main_cst_0
  let main_v6 : IVec S10 1 := cmpf .olt main_v4 main_v5
  let main_c_1 : IVec S_ 1 := constantI S_ 1 1#1
  let main_v7 : IVec S_ 1 := (fun x v => Host.reduce IntOp.andi x v reducesTo_S10_S_d0 h_S_) main_v6 main_c_1
  let main_v8 : IVec S_ 1 := andi main_v3 main_v7
  let main_v9 : FVec F S32x8192x80 .f32 := sitofp .f32 main_arg1
  let main_v10 : FVec F S32x8192x80 .f32 := subf main_arg0 main_v9
  let main_v11 : FVec F S32x8192x80 .f32 := Host.absf main_v10
  let main_cst_2 : FVec F S_ .f32 := constant S_ .f32 0x3F800000#32
  let main_v12 : FVec F S32x8192x80 .f32 := broadcastInDim S32x8192x80 ![] bcast_S_S32x8192x80 main_cst_2
  let main_v13 : IVec S32x8192x80 1 := cmpf .ole main_v11 main_v12
  let main_c_3 : IVec S_ 1 := constantI S_ 1 1#1
  let main_v14 : IVec S_ 1 := (fun x v => Host.reduce IntOp.andi x v reducesTo_S32x8192x80_S_d0_1_2 h_S_) main_v13 main_c_3
  let main_v15 : IVec S_ 1 := andi main_v8 main_v14
  main_v15
-- ==== Kernel.lean ====
abbrev S32x8192x80 : Shape := ⟨3, ![32, 8192, 80]⟩
abbrev S10 : Shape := ⟨1, ![10]⟩
abbrev S16 : Shape := ⟨1, ![16]⟩
abbrev S1x8192x80 : Shape := ⟨3, ![1, 8192, 80]⟩
abbrev S8192x80 : Shape := ⟨2, ![8192, 80]⟩
abbrev S8192 : Shape := ⟨1, ![8192]⟩
abbrev S8192x1 : Shape := ⟨2, ![8192, 1]⟩
abbrev S1 : Shape := ⟨1, ![1]⟩
abbrev S6 : Shape := ⟨1, ![6]⟩
abbrev S_ : Shape := ⟨0, ![]⟩

abbrev nBuf : Space → Nat
  | .hbm => 39
  | .vmem => 12
  | .smem => 0
  | _ => 0

abbrev bufTy : (tb : Table) → Fin (tcTables nBuf tb) → BufTy
  | .hbm, ⟨0, _⟩ => ⟨S32x8192x80, .f32⟩
  | .hbm, ⟨1, _⟩ => ⟨S32x8192x80, .i32⟩
  | .hbm, ⟨2, _⟩ => ⟨S10, .f32⟩
  | .hbm, ⟨3, _⟩ => ⟨S16, .f32⟩
  | .hbm, ⟨4, _⟩ => ⟨S10, .f32⟩
  | .hbm, ⟨5, _⟩ => ⟨S_, .f32⟩
  | .hbm, ⟨6, _⟩ => ⟨S10, .f32⟩
  | .hbm, ⟨7, _⟩ => ⟨S10, .i1⟩
  | .hbm, ⟨8, _⟩ => ⟨S_, .f32⟩
  | .hbm, ⟨9, _⟩ => ⟨S10, .f32⟩
  | .hbm, ⟨10, _⟩ => ⟨S10, .f32⟩
  | .hbm, ⟨11, _⟩ => ⟨S_, .f32⟩
  | .hbm, ⟨12, _⟩ => ⟨S10, .f32⟩
  | .hbm, ⟨13, _⟩ => ⟨S10, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S_, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S_, .f32⟩
  | .hbm, ⟨24, _⟩ => ⟨S_, .f32⟩
  | .hbm, ⟨25, _⟩ => ⟨S10, .f32⟩
  | .hbm, ⟨26, _⟩ => ⟨S10, .f32⟩
  | .hbm, ⟨27, _⟩ => ⟨S10, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S6, .f32⟩
  | .hbm, ⟨37, _⟩ => ⟨S16, .f32⟩
  | .hbm, ⟨38, _⟩ => ⟨S32x8192x80, .f32⟩
  | .local _ .vmem, ⟨0, _⟩ => ⟨S1x8192x80, .f32⟩
  | .local _ .vmem, ⟨1, _⟩ => ⟨S1x8192x80, .f32⟩
  | .local _ .vmem, ⟨2, _⟩ => ⟨S1x8192x80, .i32⟩
  | .local _ .vmem, ⟨3, _⟩ => ⟨S1x8192x80, .i32⟩
  | .local _ .vmem, ⟨4, _⟩ => ⟨S16, .f32⟩
  | .local _ .vmem, ⟨5, _⟩ => ⟨S1x8192x80, .f32⟩
  | .local _ .vmem, ⟨6, _⟩ => ⟨S1x8192x80, .f32⟩
  | .local _ .vmem, ⟨7, _⟩ => ⟨S1x8192x80, .i32⟩
  | .local _ .vmem, ⟨8, _⟩ => ⟨S1x8192x80, .i32⟩
  | .local _ .vmem, ⟨9, _⟩ => ⟨S16, .f32⟩
  | .local _ .vmem, ⟨10, _⟩ => ⟨S1x8192x80, .f32⟩
  | .local _ .vmem, ⟨11, _⟩ => ⟨S1x8192x80, .f32⟩
  | _, _ => ⟨S32x8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_call2_v0 : Ref sig .tc := ⟨.hbm, 24, rfl⟩
abbrev main_call2_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x80 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x80 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x8192x80 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S16_S16_0 : ∀ a, (![0] : Fin 1 → Nat) a + S16.size a ≤ S16.size a
  h_S16 : 0 < S16.numel
  inb_S1x8192x80_S1x8192x80_0_0_0 : ∀ a, (![0, 0, 0] : Fin 3 → Nat) a + S1x8192x80.size a ≤ S1x8192x80.size a
  h_S1x8192x80 : 0 < S1x8192x80.numel
  shapeCasts_S1x8192x80_S8192x80 : S1x8192x80.ShapeCasts S8192x80
  natLt_1_32 : 1 < 32
  reduces_S8192x80_S8192 : S8192x80.Reduces [1] S8192
  shapeCasts_S8192_S8192x1 : S8192.ShapeCasts S8192x1
  reduces_S8192x1_S1 : S8192x1.Reduces [0] S1
  concatenates_S1_S1_S1_S1_S1_S1_S1_S1_S1_S1_S10_d0 : Shape.Concatenates [S1, S1, S1, S1, S1, S1, S1, S1, S1, S1] S10 0
  concatenates_S10_S6_S16_d0 : Shape.Concatenates [S10, S6] S16 0
  shapeCasts_S16_S16 : S16.ShapeCasts S16
  slices_S16_S10_0 : S16.Slices ![0] S10
  bcast_S_S10 : S_.BroadcastsInDim S10 (![] : Fin 0 → Fin S10.rank)
  reducesTo_S10_S_d0 : S10.ReducesTo [0] S_
  h_S_ : 0 < S_.numel
  bcast_S_S6 : S_.BroadcastsInDim S6 (![] : Fin 0 → Fin S6.rank)
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  shapeCasts_S8192x80_S1x8192x80 : S8192x80.ShapeCasts S1x8192x80
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x80.size a ≤ S32x8192x80.size a
  hwx0_0 : ∀ i : grid0.Coords, EltTy.bits .f32 = 32 ∨ (Rect.block (s := S32x8192x80) S1x8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x80.size a ≤ S32x8192x80.size a
  hwx0_1 : ∀ i : grid0.Coords, EltTy.bits .i32 = 32 ∨ (Rect.block (s := S32x8192x80) S1x8192x80.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x80.size a ≤ S32x8192x80.size a
  hwx1_0 : ∀ i : grid1.Coords, EltTy.bits .f32 = 32 ∨ (Rect.block (s := S32x8192x80) S1x8192x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x80.size a ≤ S32x8192x80.size a
  hwx1_1 : ∀ i : grid1.Coords, EltTy.bits .i32 = 32 ∨ (Rect.block (s := S32x8192x80) S1x8192x80.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16.size a ≤ S16.size a
  hwx1_2 : ∀ i : grid1.Coords, EltTy.bits .f32 = 32 ∨ (Rect.block (s := S16) S16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x80.size a ≤ S32x8192x80.size a
  hwx1_3 : ∀ i : grid1.Coords, EltTy.bits .f32 = 32 ∨ (Rect.block (s := S32x8192x80) S1x8192x80.size (cc1_transform_3 i) (hinb1_3 i)).WholeWords (EltTy.packing .f32)

variable [Facts₀]

abbrev win0_0 : Pipeline.Window sig grid0 :=
  Pipeline.Window.ofSpec (Memref.whole main_arg0) S1x8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x8192x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x8192x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x8192x80.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x8192x80 : Shape := ⟨3, ![32, 8192, 80]⟩
abbrev S10 : Shape := ⟨1, ![10]⟩
abbrev S_ : Shape := ⟨0, ![]⟩
abbrev S20971520 : Shape := ⟨1, ![20971520]⟩
abbrev S11 : Shape := ⟨1, ![11]⟩
abbrev S20971520x1 : Shape := ⟨2, ![20971520, 1]⟩
abbrev S1 : Shape := ⟨1, ![1]⟩
abbrev S32x8192x80x1 : Shape := ⟨4, ![32, 8192, 80, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x8192x80, .f32⟩
  | .hbm, ⟨1, _⟩ => ⟨S32x8192x80, .i32⟩
  | .hbm, ⟨2, _⟩ => ⟨S10, .f32⟩
  | .hbm, ⟨3, _⟩ => ⟨S32x8192x80, .f32⟩
  | .hbm, ⟨4, _⟩ => ⟨S32x8192x80, .f32⟩
  | .hbm, ⟨5, _⟩ => ⟨S32x8192x80, .f32⟩
  | .hbm, ⟨6, _⟩ => ⟨S_, .f32⟩
  | .hbm, ⟨7, _⟩ => ⟨S32x8192x80, .f32⟩
  | .hbm, ⟨8, _⟩ => ⟨S32x8192x80, .f32⟩
  | .hbm, ⟨9, _⟩ => ⟨S32x8192x80, .f32⟩
  | .hbm, ⟨10, _⟩ => ⟨S32x8192x80, .i32⟩
  | .hbm, ⟨11, _⟩ => ⟨S_, .f32⟩
  | .hbm, ⟨12, _⟩ => ⟨S32x8192x80, .f32⟩
  | .hbm, ⟨13, _⟩ => ⟨S32x8192x80, .i1⟩
  | .hbm, ⟨14, _⟩ => ⟨S_, .i32⟩
  | .hbm, ⟨15, _⟩ => ⟨S32x8192x80, .i32⟩
  | .hbm, ⟨16, _⟩ => ⟨S32x8192x80, .i32⟩
  | .hbm, ⟨17, _⟩ => ⟨S_, .i32⟩
  | .hbm, ⟨18, _⟩ => ⟨S_, .i32⟩
  | .hbm, ⟨19, _⟩ => ⟨S32x8192x80, .i32⟩
  | .hbm, ⟨20, _⟩ => ⟨S32x8192x80, .i32⟩
  | .hbm, ⟨21, _⟩ => ⟨S20971520, .i32⟩
  | .hbm, ⟨22, _⟩ => ⟨S_, .i32⟩
  | .hbm, ⟨23, _⟩ => ⟨S20971520, .i32⟩
  | .hbm, ⟨24, _⟩ => ⟨S_, .i32⟩
  | .hbm, ⟨25, _⟩ => ⟨S11, .i32⟩
  | .hbm, ⟨26, _⟩ => ⟨S20971520x1, .i32⟩
  | .hbm, ⟨27, _⟩ => ⟨S11, .i32⟩
  | .hbm, ⟨28, _⟩ => ⟨S10, .i32⟩
  | .hbm, ⟨29, _⟩ => ⟨S_, .i32⟩
  | .hbm, ⟨30, _⟩ => ⟨S10, .i32⟩
  | .hbm, ⟨31, _⟩ => ⟨S10, .i1⟩
  | .hbm, ⟨32, _⟩ => ⟨S10, .f32⟩
  | .hbm, ⟨33, _⟩ => ⟨S_, .f32⟩
  | .hbm, ⟨34, _⟩ => ⟨S10, .f32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S1, .f32⟩
  | .hbm, ⟨54, _⟩ => ⟨S11, .f32⟩
  | .hbm, ⟨55, _⟩ => ⟨S10, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .i32⟩
  | .hbm, ⟨60, _⟩ => ⟨S32x8192x80, .i32⟩
  | .hbm, ⟨61, _⟩ => ⟨S32x8192x80, .i1⟩
  | .hbm, ⟨62, _⟩ => ⟨S_, .i32⟩
  | .hbm, ⟨63, _⟩ => ⟨S32x8192x80, .i32⟩
  | .hbm, ⟨64, _⟩ => ⟨S32x8192x80, .i32⟩
  | .hbm, ⟨65, _⟩ => ⟨S32x8192x80, .i32⟩
  | .hbm, ⟨66, _⟩ => ⟨S32x8192x80x1, .i32⟩
  | .hbm, ⟨67, _⟩ => ⟨S32x8192x80, .f32⟩
  | .hbm, ⟨68, _⟩ => ⟨S_, .f32⟩
  | .hbm, ⟨69, _⟩ => ⟨S_, .f32⟩
  | .hbm, ⟨70, _⟩ => ⟨S32x8192x80, .f32⟩
  | .hbm, ⟨71, _⟩ => ⟨S32x8192x80, .f32⟩
  | _, _ => ⟨S32x8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_11 : Ref sig .tc := ⟨.hbm, 56, rfl⟩
abbrev main_v34 : Ref sig .tc := ⟨.hbm, 57, rfl⟩
abbrev main_v35 : Ref sig .tc := ⟨.hbm, 58, rfl⟩
abbrev main_c_12 : Ref sig .tc := ⟨.hbm, 59, rfl⟩
abbrev main_v36 : Ref sig .tc := ⟨.hbm, 60, rfl⟩
abbrev main_v37 : Ref sig .tc := ⟨.hbm, 61, rfl⟩
abbrev main_c_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S_S32x8192x80 : S_.BroadcastsInDim S32x8192x80 (![] : Fin 0 → Fin S32x8192x80.rank)
  shapeCasts_S32x8192x80_S20971520 : S32x8192x80.ShapeCasts S20971520
  bcast_S_S20971520 : S_.BroadcastsInDim S20971520 (![] : Fin 0 → Fin S20971520.rank)
  bcast_S_S11 : S_.BroadcastsInDim S11 (![] : Fin 0 → Fin S11.rank)
  bcast_S20971520_S20971520x1_0 : S20971520.BroadcastsInDim S20971520x1 (![0] : Fin 1 → Fin S20971520x1.rank)
  slices_S11_S10_0 : S11.Slices ![0] S10
  bcast_S_S10 : S_.BroadcastsInDim S10 (![] : Fin 0 → Fin S10.rank)
  bcast_S_S1 : S_.BroadcastsInDim S1 (![] : Fin 0 → Fin S1.rank)
  concatenates_S10_S1_S11_d0 : Shape.Concatenates [S10, S1] S11 0
  natLt_1_32 : 1 < 32
  reducesTo_S10_S_d0 : S10.ReducesTo [0] S_
  h_S_ : 0 < S_.numel
  bcast_S32x8192x80_S32x8192x80x1_0_1_2 : S32x8192x80.BroadcastsInDim S32x8192x80x1 (![0, 1, 2] : Fin 3 → Fin S32x8192x80x1.rank)
  scatter_S11_S20971520x1_S20971520_n_0_0_1_wf : ScatterDims.WF S11 S20971520x1 S20971520 [] [0] [0] 1
  gather_S11_S32x8192x80x1_S32x8192x80_n_0_n_n_0_3_1_wf : GatherDims.WF S11 S32x8192x80x1 S32x8192x80 [] [0] [] [0] [] 3 ![1]

variable [Facts₀]

def scatter_S11_S20971520x1_S20971520_n_0_0_1 : ScatterDims S11 S20971520x1 S20971520 where
  updateWindowDims := []
  insertedWindowDims := [0]
  scatterDimsToOperandDims := [0]
  indexVectorDim := 1
  wf := scatter_S11_S20971520x1_S20971520_n_0_0_1_wf
def gather_S11_S32x8192x80x1_S32x8192x80_n_0_n_n_0_3_1 : GatherDims S11 S32x8192x80x1 S32x8192x80 where
  offsetDims := []
  collapsedSliceDims := [0]
  operandBatchingDims := []
  startIndicesBatchingDims := []
  startIndexMap := [0]
  indexVectorDim := 3
  sliceSizes := ![1]
  wf := gather_S11_S32x8192x80x1_S32x8192x80_n_0_n_n_0_3_1_wf

class Facts : Prop extends Facts₀ where

variable [Facts]
-- ==== Proof.KernelRun.lean ====
/-
  The idealized kernel's run with its result array named.

  The program is two pipelined regions with a stretch of host operations between them. Its run passes through ten
  boundaries; the contents of every buffer at the last boundary are the fold `W9` of the regions' write-backs and the
  host operations from the launch memory. This module restates the run so that its postcondition also says what the
  result array holds: the last boundary's contents at that array.
-/
import proofs.«136895_j1932735283877_2_alg».proof.Proof.Gen.KernelIdeal.Frame

-- membership in a rectangle of production extents (`View.cover_of_tiled`): the elaborator's structural look
-- recurses once per coordinate of the long axes
set_option maxRecDepth 16384

noncomputable section

namespace Cert.KernelIdeal.KValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- THE RUN WITH THE RESULT NAMED: from any memory with zero counters every weakly fair execution of @main terminates,
    nothing faulting, and every final state holds, in the result array, what the last boundary's contents hold there,
    and the argument arrays as launched. -/
theorem run_named : θ_run defs (onTc (τ := τ) (main (F := F))) ⟨m, fun _ => 0, ρ⟩ (fun r => ∀ c : Dev nD,
      r.2.mem ((c.tc : Thread nD τ).loc main_v22) = W9 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v22 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.KValue

end
-- ==== Proof.KStep.lean ====
/-
  Region 0 (the histogram kernel), one grid point at a time.

  At a grid point the kernel loads the point's block of predictions and of targets, computes the ten bin counts of that
  block, pads them with six zeros to a 16-vector, and adds that vector to the 16-vector its output buffer holds. At the
  first point it stores a zero 16-vector into the output buffer before reading it. So, writing `step x0 x1 acc` for
  "acc plus the padded bin counts of the blocks x0, x1", the output buffer holds `step x0 x1 0` after the first point
  and `step x0 x1 (what the point before left)` after every other point.
-/
import proofs.«136895_j1932735283877_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]

theorem hz1 : (![0] : Fin 1 → Nat) = fun _ => 0 := funext fun a => by fin_cases a <;> rfl
theorem hz3 : (![0, 0, 0] : Fin 3 → Nat) = fun _ => 0 := funext fun a => by fin_cases a <;> rfl

/-- The bins of a block's elements: the body's bin index, computed once per point. -/
abbrev binsOf (x0 : Vec F S1x8192x80 .f32) (x1 : Vec F S1x8192x80 .i32) : IVec S8192x80 32 := k0_pay3 x0 x1

/-- What the output buffer holds after a point whose blocks are `x0`, `x1` when it held `acc` before the body's
    final addition: `acc` plus the ten bin counts of the block padded to sixteen entries. -/
def step (x0 : Vec F S1x8192x80 .f32) (x1 : Vec F S1x8192x80 .i32) (acc : Vec F S16 .f32) : FVec F S16 .f32 :=
  k0_pay1 (binsOf x0 x1) (k0_pay4 x0 x1) (k0_pay5 x0 x1) (k0_pay6 x0 x1) (k0_pay8 (binsOf x0 x1) k0_pay7)
    (k0_pay9 (binsOf x0 x1)) (k0_pay10 (binsOf x0 x1)) (k0_pay11 (binsOf x0 x1)) (k0_pay12 (binsOf x0 x1))
    (k0_pay13 (binsOf x0 x1)) k0_pay14 acc

/-- Every point but the first: the body's one covering store writes `step` of the blocks and of what the buffer held. -/
theorem out_B (c : Dev nD) (i : grid0.Coords) (a1 : Memref sig .tc .vmem S1x8192x80 .f32) (h1 : a1.IsWhole)
    (a2 : Memref sig .tc .vmem S1x8192x80 .i32) (h2 : a2.IsWhole) (a3 : Memref sig .tc .vmem S16 .f32) (h3 : a3.IsWhole)
    (hc : ¬cond0_0 i) (x0 : Vec F S1x8192x80 .f32) (x1 : Vec F S1x8192x80 .i32) (xo : Vec F S16 .f32) :
    out0_B_2 c i a1 h1 a2 h2 a3 h3 hc x0 x1 xo = step x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz1]
  simp only [View.readAt_eq_ld, h1.read_unread, h2.read_unread, h3.read_unread, View.ld_unit_zero (S := S1x8192x80) hz3,
    View.ld_unit_zero (S := S16) hz1]
  rfl

/-- The first point: the body first stores the zero vector, reads it back, and its last store writes `step` of the
    blocks and of that zero vector. -/
theorem out_A (c : Dev nD) (i : grid0.Coords) (a1 : Memref sig .tc .vmem S1x8192x80 .f32) (h1 : a1.IsWhole)
    (a2 : Memref sig .tc .vmem S1x8192x80 .i32) (h2 : a2.IsWhole) (a3 : Memref sig .tc .vmem S16 .f32) (h3 : a3.IsWhole)
    (hc : cond0_0 i) (x0 : Vec F S1x8192x80 .f32) (x1 : Vec F S1x8192x80 .i32) :
    out0_A_2 c i a1 h1 a2 h2 a3 h3 hc x0 x1 = step x0 x1 k0_pay2 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S16) hz1, View.readCov_unit_zero (S := S16) _ hz1]
  simp only [View.readAt_eq_ld, h1.read_unread, h2.read_unread, View.ld_unit_zero (S := S1x8192x80) hz3]
  rfl

end Cert.KernelIdeal.KValue

end
-- ==== Proof.KChain.lean ====
/-
  Region 0 across the grid: the output buffer's contents point by point, and the array the region leaves.

  The output window's block index never moves, so its buffer is carried from point to point and written back once,
  after the last of the 32 points. Its contents after point `n` are the `step`s of points 0 … n applied in order to the
  zero vector (`chain`), by induction on the point; and the 16-entry result array the region leaves is the buffer's
  contents after point 31, because that one write-back covers the whole array.
-/
import proofs.«136895_j1932735283877_2_alg».proof.Proof.KStep

set_option maxRecDepth 16384

noncomputable section

open Idealize.ShloMosaic Idealize.ShloMosaic.TcCoe Idealize.SL.Sem Idealize.ShloMosaic.Tactic
open Idealize.ShloMosaic.Pipeline (Dat)

namespace Cert.KernelIdeal.KValue

open Cert.KernelIdeal Cert.KernelIdeal.Gen

variable {F : FTy → Type} [FloatOps F]
variable (V : (c : Dev nD) → (b : Ref sig .tc) → Buf (Elt F) ((c : Thread nD τ).loc b))

/-- The output buffer after point `n`: the points' `step`s applied in order, from the zero vector. -/
def chain (c : Dev nD) : (n : ℕ) → n < cfg0.N → Vec F S16 .f32
  | 0, h => step (iblk0 V c 0 ⟨0, h⟩) (iblk0 V c 1 ⟨0, h⟩) k0_pay2
  | n + 1, h => step (iblk0 V c 0 ⟨n + 1, h⟩) (iblk0 V c 1 ⟨n + 1, h⟩) (chain c n (Nat.lt_of_succ_lt h))

/-- What the output's staging buffer holds after point `n` is the chain — by induction on the point. -/
theorem outsAt_eq (c : Dev nD) : ∀ (n : ℕ) (h : n < cfg0.N), outsAt0 V c n h = chain V c n h
  | 0, h => (outsAt0_A V c ⟨0, h⟩ rfl).trans (out_A ..)
  | n + 1, h => by
    have hN : cfg0.N = 32 := N_0
    have hB : ¬(⟨n + 1, h⟩ : Fin cfg0.N).val % 32 = 0 := by dsimp only; omega
    rw [outsAt0_B V c ⟨n + 1, h⟩ hB, out_B]
    show step _ _ (outsAt0 V c n _) = step _ _ (chain V c n _)
    rw [outsAt_eq c n]

/-- The last grid point. -/
abbrev tLast : Fin cfg0.N := ⟨31, by rw [show cfg0.N = 32 from N_0]; decide⟩

/-- What the region leaves in the result array: the chain after the last point. -/
abbrev counts16 (c : Dev nD) : Buf (Elt F) ((c : Thread nD τ).loc main_v0) := chain V c 31 (by rw [show cfg0.N = 32 from N_0]; decide)

/-- The one write-back, at the last point, writes the chain's end: the block at offset zero of the 16-entry array is
    the array. -/
theorem flushed0_eq (c : Dev nD) (t : Fin cfg0.N) (hf : (cfg0.win 2).flush t = true) :
    (dat0 V c).flushed 2 t = ((cfg0.win 2).blk t).view.read (Elt F) (counts16 V c) := by
  have hN : cfg0.N = 32 := N_0
  have h31 : t.val = 31 := by have := (flush0_2 t).mp hf; have := t.isLt; omega
  obtain rfl : t = tLast := Fin.ext h31
  show (cfg0.win 2).cut (grid0.coords tLast) ((dat0 V c).after 2 tLast) = _
  rw [after0_2, outsAt_eq]
  have hz' : (fun a => win0_2.index tLast a * main_v0.ty.shape.size a) = fun _ => 0 := funext fun a => by fin_cases a <;> decide
  exact (Memref.read_access_unit_zero (Elt F) main_v0 hz' (fun a => by rw [congrFun hz' a]; simp) (counts16 V c)).symm

/-- So the result array of region 0 ends holding the chain after point 31. -/
theorem final0 (c : Dev nD) : (dat0 V c).arrAt 2 cfg0.N = counts16 V c :=
  (dat0 V c).arrAt_eq_of_cover 2 (counts16 V c) (flushed0_eq V c) fun i =>
    ⟨tLast, (flush0_2 tLast).mpr rfl, by
      show i ∈ ((View.whole main_v0).slice (win0_2.rect tLast)).set
      rw [View.set_slice_whole, Rect.mem_set_unit]
      intro a
      have h0 : (i 0 : Nat) < 16 := (i 0).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 16 from by decide +kernel]; omega⟩

end Cert.KernelIdeal.KValue

end
-- ==== Proof.KTable.lean ====
/-
  The host operations between the two regions: the 16-entry table region 1 reads.

  Between the histogram kernel and the weighting kernel the program runs, on ten-element vectors, the occupancy test of
  the first ten counts, the accumulator update, the per-bin weight, the count of occupied bins and the division by it,
  and pads the ten results with six zeros. Read back from the buffers' contents at region 0's exit, the table is the
  concatenation of `glue` — those operations as one composed term of the counts and of the accumulator argument — with
  six zeros.
-/
import proofs.«136895_j1932735283877_2_alg».proof.Proof.KChain
import Idealize.ShloMosaic.Lib.StableHlo.Run

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.KernelIdeal.KValue

open Cert.KernelIdeal Cert.KernelIdeal.Gen

variable {F : FTy → Type} [FloatOps F]

/-- A two-piece concatenation depends only on its two pieces. -/
theorem concat2_congr {α : Type} (t : Shape) (ax : Fin t.rank) (s1 s2 : Shape) {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by
  subst ha hb; rfl

/-- The ten weights the host operations between the two regions compute from region 0's 16-entry counts `cnt` and
    the accumulator argument `acc`. -/
def glue (cnt : FVec F S16 .f32) (acc : FVec F S10 .f32) : FVec F S10 .f32 :=
  let v1 : FVec F S10 .f32 := extractStridedSlice S10 ![0] cnt slices_S16_S10_0
  let v3 : IVec S10 1 := cmpf .ogt v1 (broadcastInDim S10 ![] bcast_S_S10 (constant S_ .f32 0x00000000#32))
  let v8 : FVec F S10 .f32 := addf (mulf (broadcastInDim S10 ![] bcast_S_S10 (constant S_ .f32 0x3DCCCCCD#32)) acc)
    (mulf (broadcastInDim S10 ![] bcast_S_S10 (constant S_ .f32 0x3F666666#32)) v1)
  let v9 : FVec F S10 .f32 := select v3 v8 acc
  let v10 : FVec F S10 .f32 := select v3 v9 (broadcastInDim S10 ![] bcast_S_S10 (id (constant S_ .f32 0x3F800000#32)))
  let v12 : FVec F S10 .f32 := Host.divf (broadcastInDim S10 ![] bcast_S_S10 (constant S_ .f32 0x49200000#32)) v10
  let v13 : FVec F S10 .f32 := select v3 v12 (broadcastInDim S10 ![] bcast_S_S10 (id (constant S_ .f32 0x00000000#32)))
  let v15 : IVec S_ 32 := Host.reduce IntOp.addi (extui 32 v3 natLt_1_32) (constantI S_ 32 0#32) reducesTo_S10_S_d0 h_S_
  let v17 : FVec F S_ .f32 := maximumf (sitofp .f32 v15) (constant S_ .f32 0x3F800000#32)
  Host.divf v13 (broadcastInDim S10 ![] bcast_S_S10 v17)

variable (m : (ℓ : Loc nD τ sig) → Buf (Elt F) ℓ) (ρ : Dev nD → PrngReg)

/-- THE TABLE at region 1's entry, as a term of the buffers' contents at region 0's exit. -/
theorem W8_table (c : Dev nD) : W8 m ρ c (Proc.devRef .tc main_v21)
    = concatenate S16 0 [⟨S10, glue (W1 m ρ c (Proc.devRef .tc main_v0)) (W1 m ρ c (Proc.devRef .tc main_arg2))⟩,
        ⟨S6, broadcastInDim S6 ![] bcast_S_S6 (constant S_ .f32 0x00000000#32)⟩] concatenates_S10_S6_S16_d0 := by
  show StableHlo.after hostOps1_6 (StableHlo.after hostOps1_5 (StableHlo.after hostOps1_4 (StableHlo.after hostOps1_3
    (StableHlo.after hostOps1_2 (StableHlo.after hostOps1_1 (StableHlo.after hostOps1 (W1 m ρ c))))))) (Proc.devRef .tc main_v21) = _
  generalize W1 m ρ c = U
  after_results_simp
  refine concat2_congr S16 0 S10 S6 concatenates_S10_S6_S16_d0 ?_ ?_
  · after_results_simp <;> rfl
  · after_results_simp <;> rfl

end Cert.KernelIdeal.KValue

end
-- ==== Proof.Spec.lean ====
/-
  The function both programs compute, at the ideal instance (floats are extended reals).

  For an element with prediction `p` and integer target `t` the gap is `g = |p - t|` and its bin is
  `min (⌊10 g⌋ as a 32-bit integer) 9`. The histogram counts the elements of each of the ten bins over the whole
  array. A bin is occupied when its count is positive; an occupied bin's accumulator becomes
  `0.1 * acc + 0.9 * count`, an empty bin's stays; an occupied bin's weight is `655360 / accumulator`, an empty
  bin's is `0`; and every weight is divided by `max (number of occupied bins) 1`. The result at an element is the
  weight of its bin. The literals are kept as the bit patterns both programs carry.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-- The shape of the prediction and target arrays, and of the result. -/
abbrev SA : Shape := ⟨3, ![32, 8192, 80]⟩
/-- The ten bins. -/
abbrev SB : Shape := ⟨1, ![10]⟩
/-- A single value. -/
abbrev S0 : Shape := ⟨0, ![]⟩

theorem redB : SB.ReducesTo [0] S0 := by decide
theorem posS0 : 0 < S0.numel := by decide

/-- The gap `|p - t|` of one element. -/
def gap (p : Ideal .f32) (t : BitVec 32) : Ideal .f32 :=
  FloatOps.absf (FloatOps.subf p (FloatOps.sitofp .f32 t))

/-- The bin of one element: `⌊10 |p - t|⌋` converted to a 32-bit integer, capped at 9. -/
def bin (p : Ideal .f32) (t : BitVec 32) : BitVec 32 :=
  IntOp.minsi (FloatOps.fptosi 32 (FloatOps.floor (FloatOps.mulf (gap p t) (FloatOps.ofBits .f32 0x41200000#32)))) 9#32

/-- The bin of the element at an index of the arrays. -/
def binAt (x0 : FVec Ideal SA .f32) (x1 : IVec SA 32) (i : SA.Idx) : BitVec 32 := bin (x0 i) (x1 i)

/-- How many elements fall in bin `k`. -/
def count (x0 : FVec Ideal SA .f32) (x1 : IVec SA 32) (k : ℕ) : ℕ :=
  (Finset.univ.filter fun i : SA.Idx => binAt x0 x1 i = BitVec.ofNat 32 k).card

/-- The counts as extended reals, one per bin. -/
def countF (x0 : FVec Ideal SA .f32) (x1 : IVec SA 32) : FVec Ideal SB .f32 :=
  fun k => (((count x0 x1 (k 0).val : ℕ) : ℝ) : EReal)

/-- Which bins are occupied, as a mask of one-bit words. -/
def occupied (x0 : FVec Ideal SA .f32) (x1 : IVec SA 32) : IVec SB 1 :=
  fun k => if 0 < count x0 x1 (k 0).val then 1#1 else 0#1

/-- The updated accumulator of a bin: `0.1 * acc + 0.9 * count` where occupied, the old one elsewhere. -/
def newAcc (H : IVec SB 1) (C acc : FVec Ideal SB .f32) (k : SB.Idx) : Ideal .f32 :=
  Scalar.select (H k)
    (FloatOps.addf (FloatOps.mulf (FloatOps.ofBits .f32 0x3DCCCCCD#32) (acc k)) (FloatOps.mulf (FloatOps.ofBits .f32 0x3F666666#32) (C k)))
    (acc k)

/-- The weight of a bin before the division by the number of occupied bins. -/
def binW (H : IVec SB 1) (C acc : FVec Ideal SB .f32) (k : SB.Idx) : Ideal .f32 :=
  Scalar.select (H k)
    (FloatOps.hostDivf (FloatOps.ofBits .f32 0x49200000#32)
      (Scalar.select (H k) (newAcc H C acc k) (FloatOps.ofBits .f32 0x3F800000#32)))
    (FloatOps.ofBits .f32 0x00000000#32)

/-- The number of occupied bins, at least one: the mask's bits summed as 32-bit integers, converted, and the
    maximum with 1 taken. -/
def nOcc (H : IVec SB 1) : Ideal .f32 :=
  FloatOps.maximumf
    (FloatOps.sitofp .f32 (Host.reduce IntOp.addi (extui 32 H (by decide)) (constantI S0 32 0#32) redB posS0 ix0))
    (FloatOps.ofBits .f32 0x3F800000#32)

/-- The weight of a bin. -/
def weight (H : IVec SB 1) (C acc : FVec Ideal SB .f32) (k : SB.Idx) : Ideal .f32 :=
  FloatOps.hostDivf (binW H C acc k) (nOcc H)

/-- A table of ten values read at a 32-bit word: the entry at the word's value when that is below ten. -/
def lookup (W : SB.Idx → Ideal .f32) (z : BitVec 32) : Ideal .f32 :=
  if h : z.toNat < 10 then W (ix1 ⟨z.toNat, h⟩) else FloatOps.ofBits .f32 0x00000000#32

/-- THE RESULT: at every element, the weight of its bin. -/
def result (x0 : FVec Ideal SA .f32) (x1 : IVec SA 32) (x2 : FVec Ideal SB .f32) : FVec Ideal SA .f32 :=
  fun i => lookup (weight (occupied x0 x1) (countF x0 x1) x2) (binAt x0 x1 i)

/-- THE DOMAIN both programs are compared on: every gap is at most 1. -/
def InDomain (x0 : FVec Ideal SA .f32) (x1 : IVec SA 32) : Prop :=
  ∀ i : SA.Idx, gap (x0 i) (x1 i) ≤ ((1 : ℝ) : EReal)

end Cert.Spec

end
-- ==== Proof.KWBlock.lean ====
/-
  Region 1 (the weighting kernel), one block: the names of what the body stores and of its value at one element.

  The body recomputes each element's bin from the block of predictions and targets, and builds the element's weight
  as a sum of ten terms, term `b` being the table's entry `b` where the bin is `b` and zero elsewhere; the sum starts
  from zero and adds the terms in order.
-/
import proofs.«136895_j1932735283877_2_alg».proof.Proof.Gen.KernelIdeal.Skeleton
import proofs.«136895_j1932735283877_2_alg».proof.Proof.Spec

noncomputable section

open Idealize.ShloMosaic Idealize.ShloMosaic.ValueIdx

namespace Cert.KernelIdeal.KValue

open Cert.KernelIdeal Cert.KernelIdeal.Gen

/-- What the body stores into the output block, from the blocks of predictions `x0` and targets `x1` and the
    16-entry table `x2` (any float instance). -/
def wblock {F : FTy → Type} [FloatOps F] (x0 : Vec F S1x8192x80 .f32) (x1 : Vec F S1x8192x80 .i32) (x2 : Vec F S16 .f32) :
    FVec F S1x8192x80 .f32 :=
  k1_pay1 (k1_pay3 x2) (k1_pay6 (k1_pay2 x0 x1) (k1_pay3 x2) (k1_pay4 x0 x1 x2) (k1_pay5 x0 x1)) (k1_pay7 (k1_pay2 x0 x1))

/-- One term of an element's weight: the table's entry `b` where the element's bin `z` is `b`, zero elsewhere. -/
def term (T : FVec Ideal S16 .f32) (z : BitVec 32) (b : Fin 16) : Ideal .f32 :=
  Scalar.select (IntOp.cmpi .eq z (BitVec.ofNat 32 b.val)) (T (ix1 b)) (FloatOps.ofBits .f32 0x00000000#32)

/-- An element's weight as the body computes it: zero plus the ten terms, added in order. -/
def wAt (T : FVec Ideal S16 .f32) (p : Ideal .f32) (t : BitVec 32) : Ideal .f32 :=
  let z := Cert.Spec.bin p t
  FloatOps.addf (FloatOps.addf (FloatOps.addf (FloatOps.addf (FloatOps.addf (FloatOps.addf (FloatOps.addf (FloatOps.addf
    (FloatOps.addf (FloatOps.addf (FloatOps.ofBits .f32 0x00000000#32) (term T z 0)) (term T z 1)) (term T z 2)) (term T z 3))
    (term T z 4)) (term T z 5)) (term T z 6)) (term T z 7)) (term T z 8)) (term T z 9)

end Cert.KernelIdeal.KValue

end
-- ==== Proof.KWAt.lean ====
/-
  Region 1 (the weighting kernel): the stored block read at one element. The body's value at element `(0, r, l)` is the
  element's weight `wAt` of the table, the prediction and the target at that element: the leading unit axis is added and
  dropped by shape casts that keep row-major positions, every other operation acts element by element, and the ten
  table entries are read by one-element slices.
-/
import proofs.«136895_j1932735283877_2_alg».proof.Proof.KWBlock
import Idealize.ShloMosaic.Lib.ValueLayout

noncomputable section

open Idealize.ShloMosaic Idealize.ShloMosaic.ValueIdx

namespace Cert.KernelIdeal.KValue

open Cert.KernelIdeal Cert.KernelIdeal.Gen

/-- A one-element slice at offset `b` of a rank-1 array, extracted at its only position, is the array's entry `b`. -/
theorem table_read {α : Type} {n : ℕ} (v : (⟨1, ![n]⟩ : Shape).Idx → α) (b : ℕ) (hb : b < n)
    (hs : (⟨1, ![n]⟩ : Shape).Slices ![b] ⟨1, ![1]⟩)
    (hp : ∀ a, (![0] : Fin 1 → ℕ) a < (⟨1, ![1]⟩ : Shape).size a) :
    extractAt ![0] (extractStridedSlice ⟨1, ![1]⟩ ![b] v hs) hp = v (ix1 ⟨b, hb⟩) := by
  unfold extractAt extractStridedSlice
  exact congrArg v (funext fun a => Fin.ext (by match a with | ⟨0, _⟩ => rfl))

/-- The body's bin array at `(r, l)` is the bin of the element `(0, r, l)`. -/
theorem k1_pay2_apply (x0 : Vec Ideal S1x8192x80 .f32) (x1 : Vec Ideal S1x8192x80 .i32) (r : Fin 8192) (l : Fin 80) :
    k1_pay2 x0 x1 (ix2 r l) = Cert.Spec.bin (x0 (ix3 (0 : Fin 1) r l)) (x1 (ix3 (0 : Fin 1) r l)) := by
  have e0 := shapeCast_1ab_ab_apply x0 shapeCasts_S1x8192x80_S8192x80 r l
  have e1 := shapeCast_1ab_ab_apply x1 shapeCasts_S1x8192x80_S8192x80 r l
  rw [← e0, ← e1]
  rfl

/-- THE STORED BLOCK AT AN ELEMENT: the element's weight. -/
theorem wblock_apply (x0 : Vec Ideal S1x8192x80 .f32) (x1 : Vec Ideal S1x8192x80 .i32) (x2 : Vec Ideal S16 .f32)
    (r : Fin 8192) (l : Fin 80) :
    wblock x0 x1 x2 (ix3 (0 : Fin 1) r l) = wAt x2 (x0 (ix3 (0 : Fin 1) r l)) (x1 (ix3 (0 : Fin 1) r l)) := by
  unfold wblock k1_pay1
  refine (shapeCast_ab_1ab_apply _ shapeCasts_S8192x80_S1x8192x80 (0 : Fin 1) r l).trans ?_
  have hz := (k1_pay2_apply x0 x1 r l).symm
  have hT : k1_pay3 x2 = x2 := shapeCast_self x2 shapeCasts_S16_S16
  have ht0 : x2 (ix1 (0 : Fin 16)) = extractAt ![0] (extractStridedSlice S1 ![0] (k1_pay3 x2) slices_S16_o0_S1) inpos_S1_p0 := by
    rw [hT]; exact (table_read x2 0 (by norm_num) slices_S16_o0_S1 inpos_S1_p0).symm
  have ht1 : x2 (ix1 (1 : Fin 16)) = extractAt ![0] (extractStridedSlice S1 ![1] (k1_pay3 x2) slices_S16_o1_S1) inpos_S1_p0 := by
    rw [hT]; exact (table_read x2 1 (by norm_num) slices_S16_o1_S1 inpos_S1_p0).symm
  have ht2 : x2 (ix1 (2 : Fin 16)) = extractAt ![0] (extractStridedSlice S1 ![2] (k1_pay3 x2) slices_S16_o2_S1) inpos_S1_p0 := by
    rw [hT]; exact (table_read x2 2 (by norm_num) slices_S16_o2_S1 inpos_S1_p0).symm
  have ht3 : x2 (ix1 (3 : Fin 16)) = extractAt ![0] (extractStridedSlice S1 ![3] (k1_pay3 x2) slices_S16_o3_S1) inpos_S1_p0 := by
    rw [hT]; exact (table_read x2 3 (by norm_num) slices_S16_o3_S1 inpos_S1_p0).symm
  have ht4 : x2 (ix1 (4 : Fin 16)) = extractAt ![0] (extractStridedSlice S1 ![4] (k1_pay3 x2) slices_S16_o4_S1) inpos_S1_p0 := by
    rw [hT]; exact (table_read x2 4 (by norm_num) slices_S16_o4_S1 inpos_S1_p0).symm
  have ht5 : x2 (ix1 (5 : Fin 16)) = extractAt ![0] (extractStridedSlice S1 ![5] (k1_pay3 x2) slices_S16_o5_S1) inpos_S1_p0 := by
    rw [hT]; exact (table_read x2 5 (by norm_num) slices_S16_o5_S1 inpos_S1_p0).symm
  have ht6 : x2 (ix1 (6 : Fin 16)) = extractAt ![0] (extractStridedSlice S1 ![6] (k1_pay3 x2) slices_S16_o6_S1) inpos_S1_p0 := by
    rw [hT]; exact (table_read x2 6 (by norm_num) slices_S16_o6_S1 inpos_S1_p0).symm
  have ht7 : x2 (ix1 (7 : Fin 16)) = extractAt ![0] (extractStridedSlice S1 ![7] (k1_pay3 x2) slices_S16_o7_S1) inpos_S1_p0 := by
    rw [hT]; exact (table_read x2 7 (by norm_num) slices_S16_o7_S1 inpos_S1_p0).symm
  have ht8 : x2 (ix1 (8 : Fin 16)) = extractAt ![0] (extractStridedSlice S1 ![8] (k1_pay3 x2) slices_S16_o8_S1) inpos_S1_p0 := by
    rw [hT]; exact (table_read x2 8 (by norm_num) slices_S16_o8_S1 inpos_S1_p0).symm
  have ht9 : x2 (ix1 (9 : Fin 16)) = extractAt ![0] (extractStridedSlice S1 ![9] (k1_pay3 x2) slices_S16_o9_S1) inpos_S1_p0 := by
    rw [hT]; exact (table_read x2 9 (by norm_num) slices_S16_o9_S1 inpos_S1_p0).symm
  unfold wAt term
  dsimp only
  rw [hz, ht0, ht1, ht2, ht3, ht4, ht5, ht6, ht7, ht8, ht9]
  rfl

end Cert.KernelIdeal.KValue

end
-- ==== Proof.KWeights.lean ====
/-
  Region 1 (the weighting kernel) across the grid: the result array the region leaves.

  Grid point `t` stores into block `t` of the result — the plane `[t, :, :]` — the body's value `wblock` of block `t`
  of the predictions, block `t` of the targets and the whole 16-entry table. Element by element that value is `wAt`
  of the table and of the prediction and target AT THE SAME POSITION, so every block is the restriction of one
  whole-array function, `weights`; the 32 planes cover the array; hence the array ends at `weights`.
-/
import proofs.«136895_j1932735283877_2_alg».proof.Proof.Gen.KernelIdeal.Frame
import proofs.«136895_j1932735283877_2_alg».proof.Proof.KWBlock
import proofs.«136895_j1932735283877_2_alg».proof.Proof.KWAt
import proofs.«136895_j1932735283877_2_alg».proof.Proof.KStep
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.KValue

open Cert.KernelIdeal Cert.KernelIdeal.Gen

/-- The body's one store covers the output block and writes `wblock` of the three loaded blocks. -/
theorem out1_eq {F : FTy → Type} [FloatOps F] (x0 : Vec F S1x8192x80 .f32) (x1 : Vec F S1x8192x80 .i32) (x2 : Vec F S16 .f32) :
    out1_3 x0 x1 x2 = wblock x0 x1 x2 := by
  unfold out1_3
  rw [View.canon_unit_zero hz3]
  simp only [View.ld_unit_zero (S := S1x8192x80) hz3, View.ld_unit_zero (S := S16) hz1]
  rfl

variable (V : (c : Dev nD) → (b : Ref sig .tc) → Buf (Elt Ideal) ((c : Thread nD τ).loc b))

/-- The result as one function of the whole arrays: at every element, `wAt` of the table and of the prediction and
    target there. -/
def weights (a0 : S32x8192x80.Idx → Ideal .f32) (a1 : S32x8192x80.Idx → BitVec 32) (T : FVec Ideal S16 .f32) :
    S32x8192x80.Idx → Ideal .f32 := fun i => wAt T (a0 i) (a1 i)

/-- The printed index maps, decided once over the grid: the two input windows move with the output window, the
    table's window stays at block 0, and the output's block index is `(t, 0, 0)`. -/
theorem idx_facts1 : ∀ t : Fin cfg1.N, win1_0.index t (0 : Fin 3) = win1_3.index t (0 : Fin 3)
    ∧ win1_0.index t (1 : Fin 3) = win1_3.index t (1 : Fin 3) ∧ win1_0.index t (2 : Fin 3) = win1_3.index t (2 : Fin 3)
    ∧ win1_1.index t (0 : Fin 3) = win1_3.index t (0 : Fin 3)
    ∧ win1_1.index t (1 : Fin 3) = win1_3.index t (1 : Fin 3) ∧ win1_1.index t (2 : Fin 3) = win1_3.index t (2 : Fin 3)
    ∧ win1_2.index t (0 : Fin 1) = 0
    ∧ win1_3.index t (0 : Fin 3) = t.val ∧ win1_3.index t (1 : Fin 3) = 0 ∧ win1_3.index t (2 : Fin 3) = 0 :=
  (by decide +kernel : ∀ t : Fin grid1.N, _)

/-- WHAT POINT `t` WRITES BACK is block `t` of `weights` of the arrays as the region finds them. -/
theorem flushed1_eq (c : Dev nD) (t : Fin cfg1.N) :
    (dat1 V c).flushed 3 t = ((cfg1.win 3).blk t).view.read (Elt Ideal) (weights (V c main_arg0) (V c main_arg1) (V c main_v21)) := by
  show (cfg1.win 3).cut (grid1.coords t) ((dat1 V c).after 3 t) = _
  rw [after1_3, out1_eq]
  obtain ⟨e00, e01, e02, e10, e11, e12, e2, e30, e31, e32⟩ := idx_facts1 t
  funext j
  obtain ⟨u, r, l, rfl⟩ : ∃ (u : Fin 1) (r : Fin 8192) (l : Fin 80), j = ix3 u r l := ⟨j 0, j 1, j 2, eq_ix3 j⟩
  obtain rfl : u = 0 := Subsingleton.elim _ _
  show wblock (iblk1 V c 0 t) (iblk1 V c 1 t) (iblk1 V c 2 t) (ix3 0 r l)
    = weights (V c main_arg0) (V c main_arg1) (V c main_v21) (((cfg1.win 3).blk t).view.emb (ix3 0 r l))
  refine (wblock_apply _ _ _ r l).trans ?_
  unfold weights
  have h2 : (iblk1 V c 2 t : Vec Ideal S16 .f32) = V c main_v21 := by
    funext y
    show V c main_v21 (((cfg1.win 2).blk t).view.emb y) = V c main_v21 y
    refine congrArg _ ?_
    funext a; apply Fin.ext
    match a with
    | ⟨0, _⟩ => show win1_2.index t (0 : Fin 1) * 16 + 1 * (y 0).val = (y 0).val; omega
  have h0 : ((cfg1.win 0).blk t).view.emb (ix3 (0 : Fin 1) r l) = ((cfg1.win 3).blk t).view.emb (ix3 (0 : Fin 1) r l) := by
    funext a; apply Fin.ext
    match a with
    | ⟨0, _⟩ => show win1_0.index t (0 : Fin 3) * 1 + 1 * ((ix3 (0 : Fin 1) r l) 0).val = win1_3.index t (0 : Fin 3) * 1 + 1 * ((ix3 (0 : Fin 1) r l) 0).val; rw [e00]
    | ⟨1, _⟩ => show win1_0.index t (1 : Fin 3) * 8192 + 1 * ((ix3 (0 : Fin 1) r l) 1).val = win1_3.index t (1 : Fin 3) * 8192 + 1 * ((ix3 (0 : Fin 1) r l) 1).val; rw [e01]
    | ⟨2, _⟩ => show win1_0.index t (2 : Fin 3) * 80 + 1 * ((ix3 (0 : Fin 1) r l) 2).val = win1_3.index t (2 : Fin 3) * 80 + 1 * ((ix3 (0 : Fin 1) r l) 2).val; rw [e02]
  have h1 : ((cfg1.win 1).blk t).view.emb (ix3 (0 : Fin 1) r l) = ((cfg1.win 3).blk t).view.emb (ix3 (0 : Fin 1) r l) := by
    funext a; apply Fin.ext
    match a with
    | ⟨0, _⟩ => show win1_1.index t (0 : Fin 3) * 1 + 1 * ((ix3 (0 : Fin 1) r l) 0).val = win1_3.index t (0 : Fin 3) * 1 + 1 * ((ix3 (0 : Fin 1) r l) 0).val; rw [e10]
    | ⟨1, _⟩ => show win1_1.index t (1 : Fin 3) * 8192 + 1 * ((ix3 (0 : Fin 1) r l) 1).val = win1_3.index t (1 : Fin 3) * 8192 + 1 * ((ix3 (0 : Fin 1) r l) 1).val; rw [e11]
    | ⟨2, _⟩ => show win1_1.index t (2 : Fin 3) * 80 + 1 * ((ix3 (0 : Fin 1) r l) 2).val = win1_3.index t (2 : Fin 3) * 80 + 1 * ((ix3 (0 : Fin 1) r l) 2).val; rw [e12]
  show wAt (iblk1 V c 2 t) (V c main_arg0 (((cfg1.win 0).blk t).view.emb (ix3 (0 : Fin 1) r l))) (V c main_arg1 (((cfg1.win 1).blk t).view.emb (ix3 (0 : Fin 1) r l)))
    = wAt (V c main_v21) (V c main_arg0 (((cfg1.win 3).blk t).view.emb (ix3 (0 : Fin 1) r l))) (V c main_arg1 (((cfg1.win 3).blk t).view.emb (ix3 (0 : Fin 1) r l)))
  rw [h2, h0, h1]

/-- An index of the result array is in point `t`'s block iff each coordinate is in the block's range on its axis. -/
theorem mem_blk1 (t : Fin cfg1.N) (i : S32x8192x80.Idx) :
    i ∈ ((cfg1.win 3).blk t).view.set ↔ ∀ a : Fin 3, win1_3.index t a * S1x8192x80.size a ≤ (i a).val ∧ (i a).val < win1_3.index t a * S1x8192x80.size a + S1x8192x80.size a := by
  show i ∈ ((View.whole main_v22).slice (win1_3.rect t)).set ↔ _
  rw [View.set_slice_whole, Rect.mem_set_unit]
  exact Iff.rfl

/-- THE RESULT ARRAY after region 1: every element at the weight of its bin in the table the region found. -/
theorem final1 (c : Dev nD) :
    (dat1 V c).arrAt 3 cfg1.N = weights (V c main_arg0) (V c main_arg1) (V c main_v21) :=
  (dat1 V c).arrAt_eq_of_cover 3 _ (fun t _ => flushed1_eq V c t) fun i => by
    have hN : cfg1.N = 32 := N_1
    have hi0 : (i 0).val < 32 := (i 0).isLt
    have hi1 : (i 1).val < 8192 := (i 1).isLt
    have hi2 : (i 2).val < 80 := (i 2).isLt
    refine ⟨⟨(i 0).val, by omega⟩, flush1_3 _, ?_⟩
    obtain ⟨-, -, -, -, -, -, -, e30, e31, e32⟩ := idx_facts1 ⟨(i 0).val, by omega⟩
    rw [mem_blk1]
    intro a
    match a with
    | ⟨0, _⟩ => show win1_3.index ⟨(i 0).val, _⟩ (0 : Fin 3) * 1 ≤ (i 0).val ∧ (i 0).val < win1_3.index ⟨(i 0).val, _⟩ (0 : Fin 3) * 1 + 1; rw [e30]; dsimp only; omega
    | ⟨1, _⟩ => show win1_3.index ⟨(i 0).val, _⟩ (1 : Fin 3) * 8192 ≤ (i 1).val ∧ (i 1).val < win1_3.index ⟨(i 0).val, _⟩ (1 : Fin 3) * 8192 + 8192; rw [e31]; omega
    | ⟨2, _⟩ => show win1_3.index ⟨(i 0).val, _⟩ (2 : Fin 3) * 80 ≤ (i 2).val ∧ (i 2).val < win1_3.index ⟨(i 0).val, _⟩ (2 : Fin 3) * 80 + 80; rw [e32]; omega

end Cert.KernelIdeal.KValue

end
-- ==== Proof.KResult.lean ====
/-
  The idealized kernel's result array as a function of its arguments.

  The last boundary's contents at the result array are what region 1 leaves there: `weights` of the prediction and
  target arrays and of the table, the arrays being those launched (no host operation and no region writes an
  argument) and the table being the host operations' `glue` of region 0's counts and of the accumulator argument,
  followed by six zeros.
-/
import proofs.«136895_j1932735283877_2_alg».proof.Proof.KernelRun
import proofs.«136895_j1932735283877_2_alg».proof.Proof.KTable
import proofs.«136895_j1932735283877_2_alg».proof.Proof.KWeights

set_option maxRecDepth 16384

noncomputable section

open Idealize.ShloMosaic Idealize.ShloMosaic.TcCoe Idealize.SL.Sem Idealize.ShloMosaic.Tactic Idealize.ShloMosaic.StableHlo
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- At region 0's exit its result array holds the chain of the 32 points' steps. -/
theorem W1_counts (c : Dev nD) : W1 m ρ c (Proc.devRef .tc main_v0) = counts16 (V0 m ρ) c :=
  (W1_arr m ρ c 2).trans (final0 (V0 m ρ) c)

/-- No region-0 array is the accumulator argument, so at region 0's exit it holds its launch contents. -/
theorem W1_arg2 (c : Dev nD) : W1 m ρ c (Proc.devRef .tc main_arg2) = m ((c : Thread nD τ).loc main_arg2) :=
  (W1_of_ne m ρ c main_arg2 (fun w => by fin_cases w <;> decide)).trans rfl

/-- Region 1 finds the prediction array as launched. -/
theorem W8_arg0 (c : Dev nD) : W8 m ρ c (Proc.devRef .tc main_arg0) = m ((c : Thread nD τ).loc main_arg0) :=
  ((W9_arr m ρ c 0).trans (((dat1 (V8 m ρ) c).arrAt_in 0 rfl _).trans (A_eq1 (V8 m ρ) c 0))).symm.trans (W9_main_arg0 m ρ c)

/-- Region 1 finds the target array as launched. -/
theorem W8_arg1 (c : Dev nD) : W8 m ρ c (Proc.devRef .tc main_arg1) = m ((c : Thread nD τ).loc main_arg1) :=
  ((W9_arr m ρ c 1).trans (((dat1 (V8 m ρ) c).arrAt_in 1 rfl _).trans (A_eq1 (V8 m ρ) c 1))).symm.trans (W9_main_arg1 m ρ c)

/-- The 16-entry table region 1 reads: the host operations' ten weights of the counts and the accumulator, then six zeros. -/
def table (c : Dev nD) : FVec Ideal S16 .f32 :=
  concatenate S16 0 [⟨S10, glue (counts16 (V0 m ρ) c) (m ((c : Thread nD τ).loc main_arg2))⟩,
    ⟨S6, broadcastInDim S6 ![] bcast_S_S6 (constant S_ .f32 0x00000000#32)⟩] concatenates_S10_S6_S16_d0

/-- THE KERNEL'S RESULT ARRAY at the last boundary. -/
theorem W9_result (c : Dev nD) : W9 m ρ c (Proc.devRef .tc main_v22)
    = weights (m ((c : Thread nD τ).loc main_arg0)) (m ((c : Thread nD τ).loc main_arg1)) (table m ρ c) := by
  refine ((W9_arr m ρ c 3).trans (final1 (V8 m ρ) c)).trans ?_
  show weights (W8 m ρ c (Proc.devRef .tc main_arg0)) (W8 m ρ c (Proc.devRef .tc main_arg1)) (W8 m ρ c (Proc.devRef .tc main_v21)) = _
  rw [W8_arg0, W8_arg1, W8_table, W1_counts, W1_arg2]
  rfl

/-- The kernel's run with its result array at `weights` of the arguments and the table. -/
theorem run_weights : θ_run defs (onTc (τ := τ) (main (F := Ideal))) ⟨m, fun _ => 0, ρ⟩ (fun r => ∀ c : Dev nD,
      r.2.mem ((c.tc : Thread nD τ).loc main_v22) = weights (m ((c : Thread nD τ).loc main_arg0)) (m ((c : Thread nD τ).loc main_arg1)) (table m ρ c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (W9_result m ρ c), (h c).2⟩) (run_named m ρ)

end Cert.KernelIdeal.KValue

end
-- ==== Proof.LibIndicator.lean ====
/-
  Indicators and counts at the ideal instance, where every float is an extended real.

  A one-bit word widened to 32 bits and read as a signed integer is the indicator 0 or 1; a sum of indicators is the
  cardinality of the set where the property holds; a 32-bit word `ofNat n` below `2^31` reads, signed, as `n`; and the
  signed word comparison and the ordered float comparison of a count against zero both ask whether the count is positive.
  Natural numbers enter the extended reals through the reals, `((n : ℝ) : EReal)`; `natCast_eq` says this is the direct cast.
-/
import Idealize.ShloMosaic.PureOps.Ideal.Laws

noncomputable section

namespace Cert.Lib.Hist

open Idealize.ShloMosaic
open scoped BigOperators

/-- The cast of a natural number through the reals is its direct cast into the extended reals. -/
theorem natCast_eq (n : ℕ) : ((n : ℝ) : EReal) = (n : EReal) := EReal.coe_natCast

/-- A one-bit word is 0 or 1. -/
theorem bit_cases (b : BitVec 1) : b = 0#1 ∨ b = 1#1 := by
  have h := b.isLt
  rcases Nat.lt_or_ge b.toNat 1 with h0 | h1
  · left; apply BitVec.eq_of_toNat_eq; simp; omega
  · right; apply BitVec.eq_of_toNat_eq; simp; omega

/-- A one-bit word, zero-extended to 32 bits and read signed as a float, is the indicator of the bit. -/
theorem sitofp_bit (b : BitVec 1) :
    FloatOps.sitofp (F := Ideal) .f32 (b.setWidth 32) = if b = 1#1 then (1 : EReal) else 0 := by
  show (((b.setWidth 32).toInt : ℝ) : EReal) = _
  rcases bit_cases b with rfl | rfl
  · have e : ((0#1 : BitVec 1).setWidth 32).toInt = 0 := by decide
    rw [e, if_neg (by decide)]; simp
  · have e : ((1#1 : BitVec 1).setWidth 32).toInt = 1 := by decide
    rw [e, if_pos rfl]; simp

/-- A sum of indicators over a finite set is the number of its elements with the property. -/
theorem sum_indicator {ι : Type} [DecidableEq ι] (s : Finset ι) (p : ι → Prop) [DecidablePred p] :
    ∑ i ∈ s, (if p i then (1 : EReal) else 0) = (((s.filter p).card : ℝ) : EReal) := by
  induction s using Finset.induction_on with
  | empty => simp
  | insert a s ha ih =>
    rw [Finset.sum_insert ha, ih, Finset.filter_insert]
    by_cases hp : p a
    · have hna : a ∉ s.filter p := fun h => ha (Finset.mem_filter.mp h).1
      rw [if_pos hp, if_pos hp, Finset.card_insert_of_notMem hna]
      push_cast
      rw [add_comm]
    · rw [if_neg hp, if_neg hp, zero_add]

/-- A 32-bit word `ofNat n` below `2^31` reads, signed, as `n`. -/
theorem toInt_ofNat_small (n : ℕ) (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split <;> omega

/-- The float of a small count word is the count. -/
theorem sitofp_ofNat (n : ℕ) (h : n < 2 ^ 31) :
    FloatOps.sitofp (F := Ideal) .f32 (BitVec.ofNat 32 n) = ((n : ℝ) : EReal) := by
  show ((((BitVec.ofNat 32 n).toInt : ℤ) : ℝ) : EReal) = _
  rw [toInt_ofNat_small n h]; simp

/-- The signed comparison of a small count word against zero asks whether the count is positive. -/
theorem sgt_ofNat (n : ℕ) (h : n < 2 ^ 31) :
    IntOp.cmpi .sgt (BitVec.ofNat 32 n) 0#32 = if 0 < n then 1#1 else 0#1 := by
  show BitVec.ofBool ((0#32 : BitVec 32).slt (BitVec.ofNat 32 n)) = _
  rw [BitVec.slt, toInt_ofNat_small n h]
  have e0 : (0#32 : BitVec 32).toInt = 0 := by decide
  rw [e0]
  by_cases hn : 0 < n
  · rw [if_pos hn]
    have : decide ((0 : Int) < (n : Int)) = true := by simpa using hn
    rw [this]; rfl
  · rw [if_neg hn]
    have : decide ((0 : Int) < (n : Int)) = false := by simpa using hn
    rw [this]; rfl

/-- The ordered comparison of a count against the float zero asks whether the count is positive. -/
theorem ogt_natCast (n : ℕ) :
    FloatOps.cmpf (F := Ideal) (φ := .f32) .ogt ((n : ℝ) : EReal) (Ideal.ofBits .f32 0x00000000#32)
      = if 0 < n then 1#1 else 0#1 := by
  show BitVec.ofBool (decide (Ideal.ofBits .f32 0x00000000#32 < ((n : ℝ) : EReal))) = _
  rw [Ideal.ofBits_zero_f32]
  by_cases hn : 0 < n
  · rw [if_pos hn]
    have : decide ((0 : EReal) < ((n : ℝ) : EReal)) = true := by
      rw [decide_eq_true_eq]; exact_mod_cast hn
    rw [this]; rfl
  · rw [if_neg hn]
    have hz : n = 0 := by omega
    subst hz
    have : decide ((0 : EReal) < (((0 : ℕ) : ℝ) : EReal)) = false := by
      rw [decide_eq_false_iff_not]; simp
    rw [this]; rfl

end Cert.Lib.Hist

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibBinSum.lean ====
/-
  Counting a bin in a tile: the 0/1 mask `v = cb` of a word array `[A, B]`, widened, converted to float, summed along the
  lanes (axis 1), recast as a column `[A, 1]` and summed down the rows (axis 0), is, at the ideal instance, the number of
  indices `j` with `v j = cb`. The lane sum and the row sum are exact sums of extended reals, each summand is the indicator
  of `v j = cb`, and the double sum over the coordinates is the sum over the index set. Any extents; side conditions
  enter as hypotheses.
-/
import proofs.«136895_j1932735283877_2_alg».proof.Proof.LibIndicator
import proofs.«136895_j1932735283877_2_alg».proof.Proof.LibPlainMatmul
import proofs.«136895_j1932735283877_2_alg».proof.Proof.LibColSum
import proofs.«136895_j1932735283877_2_alg».proof.Proof.LibColumnReads

noncomputable section

open scoped BigOperators

open Idealize.ShloMosaic Idealize.ShloMosaic.ValueIdx

namespace Cert.Lib.Hist.BinSum

/-- The word comparison for equality is the word 1 exactly at equal words. -/
theorem cmpi_eq_one {w : ℕ} (x y : BitVec w) : IntOp.cmpi .eq x y = 1#1 ↔ x = y := by
  show BitVec.ofBool (x == y) = 1#1 ↔ x = y
  by_cases h : x = y
  · subst h; simp
  · have : (x == y) = false := by simpa using h
    rw [this]; simp [h]

/-- The mask element, widened and converted, is the indicator of equality. -/
theorem mask_elem (x cb : BitVec 32) :
    FloatOps.sitofp (F := Ideal) .f32 ((IntOp.cmpi .eq x cb).setWidth 32) = if x = cb then (1 : EReal) else 0 := by
  rw [Cert.Lib.Hist.sitofp_bit]
  by_cases h : x = cb
  · rw [if_pos ((cmpi_eq_one x cb).2 h), if_pos h]
  · rw [if_neg (fun e => h ((cmpi_eq_one x cb).1 e)), if_neg h]

/-- THE BIN COUNT of a tile: lane sum, then row sum, of the converted mask is the number of matching indices. -/
theorem bin_sum {A B : ℕ} (v : IVec ⟨2, ![A, B]⟩ 32) (cb : BitVec 32)
    (hr1 : (⟨2, ![A, B]⟩ : Shape).Reduces [1] ⟨1, ![A]⟩) (hsc : (⟨1, ![A]⟩ : Shape).ShapeCasts ⟨2, ![A, 1]⟩)
    (hr0 : (⟨2, ![A, 1]⟩ : Shape).Reduces [0] ⟨1, ![1]⟩) (h32 : 1 < 32) :
    multiReduction (F := Ideal) .add [0] ⟨1, ![1]⟩
        (shapeCast ⟨2, ![A, 1]⟩
          (multiReduction (F := Ideal) .add [1] ⟨1, ![A]⟩
            (sitofp .f32 (extui 32 (cmpi .eq v (broadcast ⟨2, ![A, B]⟩ cb)) h32)) 0x00000000#32 hr1 (.inl rfl) rfl) hsc)
        0x00000000#32 hr0 (.inl rfl) rfl (ix1 (0 : Fin 1))
      = (((Finset.univ.filter fun j : (⟨2, ![A, B]⟩ : Shape).Idx => v j = cb).card : ℝ) : EReal) := by
  refine (Cert.Lib.ColSum.colSum_apply _ _ hr0 _ _ (0 : Fin 1)).trans ?_
  have e : ∀ k : Fin A,
      shapeCast ⟨2, ![A, 1]⟩
          (multiReduction (F := Ideal) .add [1] ⟨1, ![A]⟩
            (sitofp .f32 (extui 32 (cmpi .eq v (broadcast ⟨2, ![A, B]⟩ cb)) h32)) 0x00000000#32 hr1 (.inl rfl) rfl) hsc
          (ix2 k (0 : Fin 1))
        = ∑ l : Fin B, (if v (ix2 k l) = cb then (1 : EReal) else 0) := fun k => by
    rw [Cert.Lib.ColumnReads.shapeCast_a_a1_apply]
    refine (Cert.Lib.PlainMatmul.rowSum_apply _ _ hr1 _ _ k).trans ?_
    exact Finset.sum_congr rfl fun l _ => mask_elem (v (ix2 k l)) cb
  rw [Finset.sum_congr rfl (fun k _ => e k), ← sum_idx2 (fun j => if v j = cb then (1 : EReal) else 0)]
  exact Cert.Lib.Hist.sum_indicator Finset.univ (fun j => v j = cb)

end Cert.Lib.Hist.BinSum

end
-- ==== Proof.LibConcatReads.lean ====
/-
  Rank-1 concatenations read at an index, for any element type. Two pieces of extents `n1` and `n2` laid end to end
  read, at position `k`, the first piece at `k` when `k < n1` and the second at `k − n1` otherwise. Ten one-element
  pieces laid end to end read, at position `k`, piece `k` at its only position.
-/
import Idealize.ShloMosaic.Lib.Pipeline.Value
import Idealize.ShloMosaic.Lib.ValueIdx

noncomputable section

open Idealize.ShloMosaic Idealize.ShloMosaic.ValueIdx

namespace Cert.Lib.Hist.Concat

variable {α : Type}

/-- The extents of a two-piece rank-1 concatenation add up. -/
theorem extents_add {n1 n2 n : ℕ}
    (h : Shape.Concatenates [(⟨1, ![n1]⟩ : Shape), (⟨1, ![n2]⟩ : Shape)] ⟨1, ![n]⟩ (0 : Fin 1)) : n1 + n2 = n := by
  have e : n1 + (n2 + 0) = n := h.2.2
  omega

/-- TWO PIECES: position `k` reads the first piece below `n1`, the second piece at `k − n1` from `n1` on. -/
theorem concat2_apply {n1 n2 n : ℕ} (a : (⟨1, ![n1]⟩ : Shape).Idx → α) (b : (⟨1, ![n2]⟩ : Shape).Idx → α)
    (h : Shape.Concatenates [(⟨1, ![n1]⟩ : Shape), (⟨1, ![n2]⟩ : Shape)] ⟨1, ![n]⟩ (0 : Fin 1)) (k : Fin n) :
    concatenate ⟨1, ![n]⟩ (0 : Fin 1) [⟨⟨1, ![n1]⟩, a⟩, ⟨⟨1, ![n2]⟩, b⟩] h (ix1 k)
      = if hk : k.val < n1 then a (ix1 ⟨k.val, hk⟩)
        else b (ix1 ⟨k.val - n1, by have := extents_add h; have := k.isLt; omega⟩) := by
  by_cases hk : k.val < n1
  · rw [dif_pos hk]
    exact concatenate_pair_apply_left (0 : Fin 1) a b h (ix1 k) rfl (ix1 ⟨k.val, hk⟩)
      (fun c => by match c with | ⟨0, _⟩ => rfl)
  · rw [dif_neg hk]
    refine concatenate_pair_apply_right (0 : Fin 1) a b h (ix1 k) rfl rfl
      (ix1 ⟨k.val - n1, by have := extents_add h; have := k.isLt; omega⟩)
      (fun c hc => absurd (Subsingleton.elim _ _) hc) ?_
    show k.val - n1 + n1 = k.val
    omega

/-- The first piece's part, as an equation without the case split. -/
theorem concat2_apply_left {n1 n2 n : ℕ} (a : (⟨1, ![n1]⟩ : Shape).Idx → α) (b : (⟨1, ![n2]⟩ : Shape).Idx → α)
    (h : Shape.Concatenates [(⟨1, ![n1]⟩ : Shape), (⟨1, ![n2]⟩ : Shape)] ⟨1, ![n]⟩ (0 : Fin 1)) (k : Fin n)
    (hk : k.val < n1) :
    concatenate ⟨1, ![n]⟩ (0 : Fin 1) [⟨⟨1, ![n1]⟩, a⟩, ⟨⟨1, ![n2]⟩, b⟩] h (ix1 k) = a (ix1 ⟨k.val, hk⟩) := by
  rw [concat2_apply, dif_pos hk]

/-- The second piece's part, as an equation without the case split. -/
theorem concat2_apply_right {n1 n2 n : ℕ} (a : (⟨1, ![n1]⟩ : Shape).Idx → α) (b : (⟨1, ![n2]⟩ : Shape).Idx → α)
    (h : Shape.Concatenates [(⟨1, ![n1]⟩ : Shape), (⟨1, ![n2]⟩ : Shape)] ⟨1, ![n]⟩ (0 : Fin 1)) (k : Fin n)
    (hk : n1 ≤ k.val) (hk2 : k.val - n1 < n2) :
    concatenate ⟨1, ![n]⟩ (0 : Fin 1) [⟨⟨1, ![n1]⟩, a⟩, ⟨⟨1, ![n2]⟩, b⟩] h (ix1 k) = b (ix1 ⟨k.val - n1, hk2⟩) := by
  rw [concat2_apply, dif_neg (by omega)]

/-- TEN ONE-ELEMENT PIECES: position `k` reads piece `k`. -/
theorem concat10_apply (v0 v1 v2 v3 v4 v5 v6 v7 v8 v9 : (⟨1, ![1]⟩ : Shape).Idx → α)
    (h : Shape.Concatenates [(⟨1, ![1]⟩ : Shape), (⟨1, ![1]⟩ : Shape), (⟨1, ![1]⟩ : Shape), (⟨1, ![1]⟩ : Shape), (⟨1, ![1]⟩ : Shape), (⟨1, ![1]⟩ : Shape), (⟨1, ![1]⟩ : Shape), (⟨1, ![1]⟩ : Shape), (⟨1, ![1]⟩ : Shape), (⟨1, ![1]⟩ : Shape)] ⟨1, ![10]⟩ (0 : Fin 1)) (k : Fin 10) :
    concatenate ⟨1, ![10]⟩ (0 : Fin 1) [⟨⟨1, ![1]⟩, v0⟩, ⟨⟨1, ![1]⟩, v1⟩, ⟨⟨1, ![1]⟩, v2⟩, ⟨⟨1, ![1]⟩, v3⟩, ⟨⟨1, ![1]⟩, v4⟩, ⟨⟨1, ![1]⟩, v5⟩, ⟨⟨1, ![1]⟩, v6⟩, ⟨⟨1, ![1]⟩, v7⟩, ⟨⟨1, ![1]⟩, v8⟩, ⟨⟨1, ![1]⟩, v9⟩] h (ix1 k)
      = (![v0, v1, v2, v3, v4, v5, v6, v7, v8, v9] : Fin 10 → (⟨1, ![1]⟩ : Shape).Idx → α) k (ix1 (0 : Fin 1)) :=
  concatenate_ofFn_unit_apply (t := ⟨1, ![10]⟩) (s₁ := ⟨1, ![1]⟩) (0 : Fin 1)
    (![v0, v1, v2, v3, v4, v5, v6, v7, v8, v9] : Fin 10 → (⟨1, ![1]⟩ : Shape).Idx → α) h rfl rfl (ix1 k) k rfl (ix1 (0 : Fin 1))
    (fun c hc => absurd (Subsingleton.elim _ _) hc)

end Cert.Lib.Hist.Concat

end
-- ==== Proof.KStepAt.lean ====
/-
  Region 0 (the histogram kernel): one step read at an entry. The body adds to the 16-vector it holds the ten bin counts
  of the block padded with six zeros; entry `k` of the result is the held entry plus, for `k < 10`, the number of
  elements of the block whose bin is `k`. Each count is a lane sum then a row sum of a 0/1 mask; the ten counts are laid
  end to end as one-element pieces, and the padding is a second piece of six zeros.
-/
import proofs.«136895_j1932735283877_2_alg».proof.Proof.KStep
import proofs.«136895_j1932735283877_2_alg».proof.Proof.Spec
import proofs.«136895_j1932735283877_2_alg».proof.Proof.LibBinSum
import proofs.«136895_j1932735283877_2_alg».proof.Proof.LibConcatReads
import Idealize.ShloMosaic.Lib.ValueLayout

noncomputable section

open Idealize.ShloMosaic Idealize.ShloMosaic.ValueIdx

namespace Cert.KernelIdeal.KValue

open Cert.KernelIdeal Cert.KernelIdeal.Gen

/-- The body's bin array at `(r, l)` is the bin of the element `(0, r, l)`. -/
theorem binsOf_apply (x0 : Vec Ideal S1x8192x80 .f32) (x1 : Vec Ideal S1x8192x80 .i32) (r : Fin 8192) (l : Fin 80) :
    binsOf x0 x1 (ix2 r l) = Cert.Spec.bin (x0 (ix3 (0 : Fin 1) r l)) (x1 (ix3 (0 : Fin 1) r l)) := by
  have e0 := shapeCast_1ab_ab_apply x0 shapeCasts_S1x8192x80_S8192x80 r l
  have e1 := shapeCast_1ab_ab_apply x1 shapeCasts_S1x8192x80_S8192x80 r l
  rw [← e0, ← e1]
  rfl

section Counts
variable (x0 : Vec Ideal S1x8192x80 .f32) (x1 : Vec Ideal S1x8192x80 .i32)

/-- The count of bin 0. -/
theorem count0_eq : k0_pay4 (F := Ideal) x0 x1 (ix1 (0 : Fin 1)) = (((Finset.univ.filter fun j : S8192x80.Idx => binsOf x0 x1 j = 0#32).card : ℝ) : EReal) :=
  Cert.Lib.Hist.BinSum.bin_sum (binsOf x0 x1) 0#32 reduces_S8192x80_S8192 shapeCasts_S8192_S8192x1 reduces_S8192x1_S1 natLt_1_32

/-- The count of bin 1. -/
theorem count1_eq : k0_pay5 (F := Ideal) x0 x1 (ix1 (0 : Fin 1)) = (((Finset.univ.filter fun j : S8192x80.Idx => binsOf x0 x1 j = 1#32).card : ℝ) : EReal) :=
  Cert.Lib.Hist.BinSum.bin_sum (binsOf x0 x1) 1#32 reduces_S8192x80_S8192 shapeCasts_S8192_S8192x1 reduces_S8192x1_S1 natLt_1_32

/-- The count of bin 2. -/
theorem count2_eq : k0_pay6 (F := Ideal) x0 x1 (ix1 (0 : Fin 1)) = (((Finset.univ.filter fun j : S8192x80.Idx => binsOf x0 x1 j = 2#32).card : ℝ) : EReal) :=
  Cert.Lib.Hist.BinSum.bin_sum (binsOf x0 x1) 2#32 reduces_S8192x80_S8192 shapeCasts_S8192_S8192x1 reduces_S8192x1_S1 natLt_1_32

/-- The count of bin 3. -/
theorem count3_eq : k0_pay8 (F := Ideal) (binsOf x0 x1) k0_pay7 (ix1 (0 : Fin 1)) = (((Finset.univ.filter fun j : S8192x80.Idx => binsOf x0 x1 j = 3#32).card : ℝ) : EReal) :=
  Cert.Lib.Hist.BinSum.bin_sum (binsOf x0 x1) 3#32 reduces_S8192x80_S8192 shapeCasts_S8192_S8192x1 reduces_S8192x1_S1 natLt_1_32

/-- The count of bin 4. -/
theorem count4_eq : k0_pay9 (F := Ideal) (binsOf x0 x1) (ix1 (0 : Fin 1)) = (((Finset.univ.filter fun j : S8192x80.Idx => binsOf x0 x1 j = 4#32).card : ℝ) : EReal) :=
  Cert.Lib.Hist.BinSum.bin_sum (binsOf x0 x1) 4#32 reduces_S8192x80_S8192 shapeCasts_S8192_S8192x1 reduces_S8192x1_S1 natLt_1_32

/-- The count of bin 5. -/
theorem count5_eq : k0_pay10 (F := Ideal) (binsOf x0 x1) (ix1 (0 : Fin 1)) = (((Finset.univ.filter fun j : S8192x80.Idx => binsOf x0 x1 j = 5#32).card : ℝ) : EReal) :=
  Cert.Lib.Hist.BinSum.bin_sum (binsOf x0 x1) 5#32 reduces_S8192x80_S8192 shapeCasts_S8192_S8192x1 reduces_S8192x1_S1 natLt_1_32

/-- The count of bin 6. -/
theorem count6_eq : k0_pay11 (F := Ideal) (binsOf x0 x1) (ix1 (0 : Fin 1)) = (((Finset.univ.filter fun j : S8192x80.Idx => binsOf x0 x1 j = 6#32).card : ℝ) : EReal) :=
  Cert.Lib.Hist.BinSum.bin_sum (binsOf x0 x1) 6#32 reduces_S8192x80_S8192 shapeCasts_S8192_S8192x1 reduces_S8192x1_S1 natLt_1_32

/-- The count of bin 7. -/
theorem count7_eq : k0_pay12 (F := Ideal) (binsOf x0 x1) (ix1 (0 : Fin 1)) = (((Finset.univ.filter fun j : S8192x80.Idx => binsOf x0 x1 j = 7#32).card : ℝ) : EReal) :=
  Cert.Lib.Hist.BinSum.bin_sum (binsOf x0 x1) 7#32 reduces_S8192x80_S8192 shapeCasts_S8192_S8192x1 reduces_S8192x1_S1 natLt_1_32

/-- The count of bin 8. -/
theorem count8_eq : k0_pay13 (F := Ideal) (binsOf x0 x1) (ix1 (0 : Fin 1)) = (((Finset.univ.filter fun j : S8192x80.Idx => binsOf x0 x1 j = 8#32).card : ℝ) : EReal) :=
  Cert.Lib.Hist.BinSum.bin_sum (binsOf x0 x1) 8#32 reduces_S8192x80_S8192 shapeCasts_S8192_S8192x1 reduces_S8192x1_S1 natLt_1_32

/-- The count of bin 9, which the body computes in line. -/
theorem count9_eq : (multiReduction (F := Ideal) .add [0] S1 (shapeCast S8192x1 (multiReduction (F := Ideal) .add [1] S8192 (sitofp .f32 (extui 32 (cmpi .eq (binsOf x0 x1) (k0_pay14 : IVec S8192x80 32)) natLt_1_32)) 0x00000000#32 reduces_S8192x80_S8192 (.inl rfl) rfl) shapeCasts_S8192_S8192x1) 0x00000000#32 reduces_S8192x1_S1 (.inl rfl) rfl) (ix1 (0 : Fin 1)) = (((Finset.univ.filter fun j : S8192x80.Idx => binsOf x0 x1 j = 9#32).card : ℝ) : EReal) :=
  Cert.Lib.Hist.BinSum.bin_sum (binsOf x0 x1) 9#32 reduces_S8192x80_S8192 shapeCasts_S8192_S8192x1 reduces_S8192x1_S1 natLt_1_32

end Counts

/-- The body's final value at entry `k`, over any nine count pieces: the held entry plus piece `k` for `k < 10`. -/
theorem k0_pay1_apply (v15 : IVec S8192x80 32) (v22 v29 v36 v43 v50 v57 v64 v71 v78 : FVec Ideal S1 .f32) (v79 : IVec S8192x80 32)
    (acc : Vec Ideal S16 .f32) (k : Fin 16) :
    k0_pay1 (F := Ideal) v15 v22 v29 v36 v43 v50 v57 v64 v71 v78 v79 acc (ix1 k)
      = acc (ix1 k) + (if hk : k.val < 10 then
          (![v22, v29, v36, v43, v50, v57, v64, v71, v78, (multiReduction (F := Ideal) .add [0] S1 (shapeCast S8192x1 (multiReduction (F := Ideal) .add [1] S8192 (sitofp .f32 (extui 32 (cmpi .eq v15 v79) natLt_1_32)) 0x00000000#32 reduces_S8192x80_S8192 (.inl rfl) rfl) shapeCasts_S8192_S8192x1) 0x00000000#32 reduces_S8192x1_S1 (.inl rfl) rfl)] : Fin 10 → S1.Idx → Ideal .f32) ⟨k.val, hk⟩ (ix1 (0 : Fin 1))
        else 0) := by
  unfold k0_pay1
  refine congrArg₂ (· + ·) (congrFun (shapeCast_self acc shapeCasts_S16_S16) (ix1 k)) ?_
  refine (Cert.Lib.Hist.Concat.concat2_apply _ _ concatenates_S10_S6_S16_d0 k).trans ?_
  by_cases hk : k.val < 10
  · rw [dif_pos hk, dif_pos hk]
    exact Cert.Lib.Hist.Concat.concat10_apply _ _ _ _ _ _ _ _ _ _ concatenates_S1_S1_S1_S1_S1_S1_S1_S1_S1_S1_S10_d0 ⟨k.val, hk⟩
  · rw [dif_neg hk, dif_neg hk]
    exact Ideal.ofBits_zero_f32

/-- Entry `i` of a ten-entry vector written out. -/
theorem vec10_at0 {β : Type} (v0 v1 v2 v3 v4 v5 v6 v7 v8 v9 : β) (h : 0 < 10) :
    (![v0, v1, v2, v3, v4, v5, v6, v7, v8, v9] : Fin 10 → β) ⟨0, h⟩ = v0 := rfl
theorem vec10_at1 {β : Type} (v0 v1 v2 v3 v4 v5 v6 v7 v8 v9 : β) (h : 1 < 10) :
    (![v0, v1, v2, v3, v4, v5, v6, v7, v8, v9] : Fin 10 → β) ⟨1, h⟩ = v1 := rfl
theorem vec10_at2 {β : Type} (v0 v1 v2 v3 v4 v5 v6 v7 v8 v9 : β) (h : 2 < 10) :
    (![v0, v1, v2, v3, v4, v5, v6, v7, v8, v9] : Fin 10 → β) ⟨2, h⟩ = v2 := rfl
theorem vec10_at3 {β : Type} (v0 v1 v2 v3 v4 v5 v6 v7 v8 v9 : β) (h : 3 < 10) :
    (![v0, v1, v2, v3, v4, v5, v6, v7, v8, v9] : Fin 10 → β) ⟨3, h⟩ = v3 := rfl
theorem vec10_at4 {β : Type} (v0 v1 v2 v3 v4 v5 v6 v7 v8 v9 : β) (h : 4 < 10) :
    (![v0, v1, v2, v3, v4, v5, v6, v7, v8, v9] : Fin 10 → β) ⟨4, h⟩ = v4 := rfl
theorem vec10_at5 {β : Type} (v0 v1 v2 v3 v4 v5 v6 v7 v8 v9 : β) (h : 5 < 10) :
    (![v0, v1, v2, v3, v4, v5, v6, v7, v8, v9] : Fin 10 → β) ⟨5, h⟩ = v5 := rfl
theorem vec10_at6 {β : Type} (v0 v1 v2 v3 v4 v5 v6 v7 v8 v9 : β) (h : 6 < 10) :
    (![v0, v1, v2, v3, v4, v5, v6, v7, v8, v9] : Fin 10 → β) ⟨6, h⟩ = v6 := rfl
theorem vec10_at7 {β : Type} (v0 v1 v2 v3 v4 v5 v6 v7 v8 v9 : β) (h : 7 < 10) :
    (![v0, v1, v2, v3, v4, v5, v6, v7, v8, v9] : Fin 10 → β) ⟨7, h⟩ = v7 := rfl
theorem vec10_at8 {β : Type} (v0 v1 v2 v3 v4 v5 v6 v7 v8 v9 : β) (h : 8 < 10) :
    (![v0, v1, v2, v3, v4, v5, v6, v7, v8, v9] : Fin 10 → β) ⟨8, h⟩ = v8 := rfl
theorem vec10_at9 {β : Type} (v0 v1 v2 v3 v4 v5 v6 v7 v8 v9 : β) (h : 9 < 10) :
    (![v0, v1, v2, v3, v4, v5, v6, v7, v8, v9] : Fin 10 → β) ⟨9, h⟩ = v9 := rfl

/-- ONE STEP AT AN ENTRY: the held entry plus, below 10, the number of the block's elements in that bin. -/
theorem step_apply (x0 : Vec Ideal S1x8192x80 .f32) (x1 : Vec Ideal S1x8192x80 .i32) (acc : Vec Ideal S16 .f32) (k : Fin 16) :
    step x0 x1 acc (ix1 k)
      = acc (ix1 k) + (if k.val < 10 then (((Finset.univ.filter fun j : S8192x80.Idx => binsOf x0 x1 j = BitVec.ofNat 32 k.val).card : ℝ) : EReal) else 0) := by
  unfold step
  rw [k0_pay1_apply]
  refine congrArg (fun y => acc (ix1 k) + y) ?_
  by_cases hk : k.val < 10
  · rw [dif_pos hk, if_pos hk]
    obtain ⟨kv, hkv⟩ := k
    dsimp only at hk ⊢
    interval_cases kv
    · rw [vec10_at0]; exact count0_eq x0 x1
    · rw [vec10_at1]; exact count1_eq x0 x1
    · rw [vec10_at2]; exact count2_eq x0 x1
    · rw [vec10_at3]; exact count3_eq x0 x1
    · rw [vec10_at4]; exact count4_eq x0 x1
    · rw [vec10_at5]; exact count5_eq x0 x1
    · rw [vec10_at6]; exact count6_eq x0 x1
    · rw [vec10_at7]; exact count7_eq x0 x1
    · rw [vec10_at8]; exact count8_eq x0 x1
    · rw [vec10_at9]; exact count9_eq x0 x1
  · rw [dif_neg hk, if_neg hk]

end Cert.KernelIdeal.KValue

end
-- ==== Proof.LibLiterals.lean ====
/-
  The float literals the two programs spell, as the extended reals their f32 patterns denote at the ideal instance:
  `0x00000000` is 0, `0x3F800000` is 1, `0x41200000` is 10, and `0x3F800008` is `1 + 2^-20`, which is above 1.
-/
import Idealize.ShloMosaic.PureOps.Ideal.Laws

noncomputable section

namespace Cert.Lib.Hist.Lit

open Idealize.ShloMosaic

/-- `+0.0` denotes `0`. -/
theorem ofBits_zero : Ideal.ofBits .f32 0x00000000#32 = 0 := Ideal.ofBits_zero_f32

/-- `1.0` denotes the real `1`. -/
theorem ofBits_one : Ideal.ofBits .f32 0x3F800000#32 = ((1 : ℝ) : EReal) := by
  simp [Ideal.ofBits, Ideal.ieee, -EReal.coe_mul]; norm_num

/-- `1.0` denotes the extended real `1`. -/
theorem ofBits_one' : Ideal.ofBits .f32 0x3F800000#32 = 1 := by
  rw [ofBits_one]; norm_cast

/-- `10.0` denotes the real `10`. -/
theorem ofBits_ten : Ideal.ofBits .f32 0x41200000#32 = ((10 : ℝ) : EReal) := by
  simp [Ideal.ofBits, Ideal.ieee, -EReal.coe_mul]; norm_num

/-- The pattern `0x3F800008` denotes the real `1 + 2^-20`. -/
theorem ofBits_one_plus : Ideal.ofBits .f32 0x3F800008#32 = ((1 + 1 / 1048576 : ℝ) : EReal) := by
  simp [Ideal.ofBits, Ideal.ieee, -EReal.coe_mul, -EReal.coe_add]; norm_num

/-- The pattern `0x3F800008` is above `1`. -/
theorem one_lt_ofBits_one_plus : (1 : EReal) < Ideal.ofBits .f32 0x3F800008#32 := by
  rw [ofBits_one_plus, show (1 : EReal) = ((1 : ℝ) : EReal) by norm_cast, EReal.coe_lt_coe_iff]
  norm_num

end Cert.Lib.Hist.Lit

end
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.LibCountSplit.lean ====
/-
  A count over a rank-3 index set split along its first coordinate: the number of indices `(t, b, c)` with a property is
  the sum over `t` of the number of `(b, c)` with the property at `(t, b, c)`. Counts are taken as extended reals (through
  the reals), where a count is the sum of the property's indicator and a sum over the index set is the nested sum over
  the coordinates.
-/
import proofs.«136895_j1932735283877_2_alg».proof.Proof.LibIndicator
import proofs.«136895_j1932735283877_2_alg».proof.Proof.LibIdxSums

noncomputable section

open scoped BigOperators

open Idealize.ShloMosaic Idealize.ShloMosaic.ValueIdx

namespace Cert.Lib.Hist.Split

/-- The count over the whole index set is the sum over the first coordinate of the counts over the other two. -/
theorem card_split {n0 n1 n2 : ℕ} (P : (⟨3, ![n0, n1, n2]⟩ : Shape).Idx → Prop) [DecidablePred P] :
    (((Finset.univ.filter P).card : ℝ) : EReal)
      = ∑ t : Fin n0,
          (((Finset.univ.filter fun j : (⟨2, ![n1, n2]⟩ : Shape).Idx => P (ix3 t (j 0) (j 1))).card : ℝ) : EReal) := by
  rw [← Cert.Lib.Hist.sum_indicator Finset.univ P, Cert.Lib.IdxSums.sum_idx3]
  refine Finset.sum_congr rfl fun t _ => ?_
  rw [← Cert.Lib.Hist.sum_indicator Finset.univ (fun j : (⟨2, ![n1, n2]⟩ : Shape).Idx => P (ix3 t (j 0) (j 1))),
    sum_idx2 (fun j : (⟨2, ![n1, n2]⟩ : Shape).Idx => if P (ix3 t (j 0) (j 1)) then (1 : EReal) else 0)]
  rfl

/-- The same with the outer sum over `Finset.range`. -/
theorem card_split_range {n0 n1 n2 : ℕ} (P : (⟨3, ![n0, n1, n2]⟩ : Shape).Idx → Prop) [DecidablePred P] :
    (((Finset.univ.filter P).card : ℝ) : EReal)
      = ∑ t ∈ Finset.range n0,
          (if h : t < n0 then
            (((Finset.univ.filter fun j : (⟨2, ![n1, n2]⟩ : Shape).Idx => P (ix3 ⟨t, h⟩ (j 0) (j 1))).card : ℝ) : EReal)
          else 0) := by
  rw [card_split P, Finset.sum_range]
  refine Finset.sum_congr rfl fun t _ => ?_
  rw [dif_pos t.isLt]

end Cert.Lib.Hist.Split

end
-- ==== Proof.KCounts.lean ====
/-
  Region 0's counts in closed form.

  Block `t` of the two input windows is the plane `[t, :, :]` of the prediction and target arrays, so the bins the body
  computes at point `t` are the bins of that plane, and the count it adds for bin `k` is the number of the plane's
  elements in bin `k`. By induction on the point, entry `k < 10` of the output buffer after point `n` is the sum of
  those counts over planes 0 … n, and the six padding entries stay zero. The 32 planes partition the index set, so
  what region 0 leaves is, entry by entry, the specification's count of each bin (as an extended real), then six zeros.
-/
import proofs.«136895_j1932735283877_2_alg».proof.Proof.KChain
import proofs.«136895_j1932735283877_2_alg».proof.Proof.KStepAt
import proofs.«136895_j1932735283877_2_alg».proof.Proof.LibLiterals
import proofs.«136895_j1932735283877_2_alg».proof.Proof.Spec
import proofs.«136895_j1932735283877_2_alg».proof.Proof.LibCountSplit

set_option maxRecDepth 16384

noncomputable section

open Idealize.ShloMosaic Idealize.ShloMosaic.TcCoe Idealize.SL.Sem Idealize.ShloMosaic.Tactic Idealize.ShloMosaic.ValueIdx
open Idealize.ShloMosaic.Pipeline (Dat)

namespace Cert.KernelIdeal.KValue

open Cert.KernelIdeal Cert.KernelIdeal.Gen

variable (V : (c : Dev nD) → (b : Ref sig .tc) → Buf (Elt Ideal) ((c : Thread nD τ).loc b))

/-- The printed index maps of region 0's two input windows, decided once over the grid: block `t` is the plane `[t, :, :]`. -/
theorem idx_facts0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A grid point of region 0 as the index of its plane. -/
abbrev plane (t : Fin cfg0.N) : Fin 32 := ⟨t.val, Nat.lt_of_lt_of_eq t.isLt (show cfg0.N = 32 from N_0)⟩

/-- How many elements of plane `t` fall in bin `k`. -/
def planeCount (x0 : S32x8192x80.Idx → Ideal .f32) (x1 : S32x8192x80.Idx → BitVec 32) (t : Fin 32) (k : ℕ) : ℕ :=
  (Finset.univ.filter fun j : S8192x80.Idx => Cert.Spec.binAt x0 x1 (ix3 t (j 0) (j 1)) = BitVec.ofNat 32 k).card

/-- The bins the body computes from block `t` are the bins of plane `t` of the whole arrays. -/
theorem block_bins (c : Dev nD) (t : Fin cfg0.N) (j : S8192x80.Idx) :
    binsOf (iblk0 V c 0 t) (iblk0 V c 1 t) j
      = Cert.Spec.binAt (V c main_arg0) (V c main_arg1) (ix3 (plane t) (j 0) (j 1)) := by
  obtain ⟨e00, e01, e02, e10, e11, e12⟩ := idx_facts0 t
  obtain ⟨r, l, rfl⟩ : ∃ (r : Fin 8192) (l : Fin 80), j = ix2 r l := ⟨j 0, j 1, eq_ix2 j⟩
  refine (binsOf_apply _ _ r l).trans ?_
  unfold Cert.Spec.binAt
  have h0 : ((cfg0.win 0).blk t).view.emb (ix3 (0 : Fin 1) r l) = ix3 (plane t) r l := by
    funext a; apply Fin.ext
    match a with
    | ⟨0, _⟩ => show win0_0.index t (0 : Fin 3) * 1 + 1 * ((ix3 (0 : Fin 1) r l) 0).val = t.val; rw [e00]; show t.val * 1 + 1 * 0 = t.val; omega
    | ⟨1, _⟩ => show win0_0.index t (1 : Fin 3) * 8192 + 1 * ((ix3 (0 : Fin 1) r l) 1).val = r.val; rw [e01]; show 0 * 8192 + 1 * r.val = r.val; omega
    | ⟨2, _⟩ => show win0_0.index t (2 : Fin 3) * 80 + 1 * ((ix3 (0 : Fin 1) r l) 2).val = l.val; rw [e02]; show 0 * 80 + 1 * l.val = l.val; omega
  have h1 : ((cfg0.win 1).blk t).view.emb (ix3 (0 : Fin 1) r l) = ix3 (plane t) r l := by
    funext a; apply Fin.ext
    match a with
    | ⟨0, _⟩ => show win0_1.index t (0 : Fin 3) * 1 + 1 * ((ix3 (0 : Fin 1) r l) 0).val = t.val; rw [e10]; show t.val * 1 + 1 * 0 = t.val; omega
    | ⟨1, _⟩ => show win0_1.index t (1 : Fin 3) * 8192 + 1 * ((ix3 (0 : Fin 1) r l) 1).val = r.val; rw [e11]; show 0 * 8192 + 1 * r.val = r.val; omega
    | ⟨2, _⟩ => show win0_1.index t (2 : Fin 3) * 80 + 1 * ((ix3 (0 : Fin 1) r l) 2).val = l.val; rw [e12]; show 0 * 80 + 1 * l.val = l.val; omega
  show Cert.Spec.bin (V c main_arg0 (((cfg0.win 0).blk t).view.emb (ix3 (0 : Fin 1) r l))) (V c main_arg1 (((cfg0.win 1).blk t).view.emb (ix3 (0 : Fin 1) r l))) = _
  rw [h0, h1]

/-- The count the body takes of block `t` for bin `k` is the count over plane `t`. -/
theorem inc_eq (c : Dev nD) (t : Fin cfg0.N) (k : ℕ) :
    (Finset.univ.filter fun j : S8192x80.Idx => binsOf (iblk0 V c 0 t) (iblk0 V c 1 t) j = BitVec.ofNat 32 k).card
      = planeCount (V c main_arg0) (V c main_arg1) (plane t) k := by
  unfold planeCount
  refine congrArg Finset.card (Finset.filter_congr fun j _ => ?_)
  rw [block_bins]

/-- One point's step at an entry: the buffer's entry plus, for the first ten entries, the plane's count. -/
theorem chain_step (c : Dev nD) (t : Fin cfg0.N) (acc : Vec Ideal S16 .f32) (k : Fin 16) :
    step (iblk0 V c 0 t) (iblk0 V c 1 t) acc (ix1 k)
      = acc (ix1 k) + (if k.val < 10 then ((planeCount (V c main_arg0) (V c main_arg1) (plane t) k.val : ℝ) : EReal) else 0) := by
  refine (step_apply _ _ acc k).trans ?_
  rw [inc_eq]

/-- Plane `t`'s count of bin `k` as an extended real, zero past the last plane. -/
def planeTerm (x0 : S32x8192x80.Idx → Ideal .f32) (x1 : S32x8192x80.Idx → BitVec 32) (k : ℕ) (t : ℕ) : EReal :=
  if h : t < 32 then ((planeCount x0 x1 ⟨t, h⟩ k : ℝ) : EReal) else 0

/-- The zero vector the first point stores reads zero. -/
theorem zero16_apply (k : Fin 16) : (k0_pay2 (F := Ideal)) (ix1 k) = 0 := Cert.Lib.Hist.Lit.ofBits_zero

/-- THE RUNNING COUNTS: after point `n` entry `k` of the output buffer holds, for `k < 10`, the sum of the counts of
    bin `k` over planes 0 … n, and zero for the six padding entries. By induction on the point. -/
theorem chain_apply (c : Dev nD) : ∀ (n : ℕ) (h : n < cfg0.N) (k : Fin 16),
    chain V c n h (ix1 k)
      = if k.val < 10 then ∑ t ∈ Finset.range (n + 1), planeTerm (V c main_arg0) (V c main_arg1) k.val t else 0
  | 0, h, k => by
    have hN : cfg0.N = 32 := N_0
    show step (iblk0 V c 0 ⟨0, h⟩) (iblk0 V c 1 ⟨0, h⟩) (k0_pay2 (F := Ideal)) (ix1 k) = _
    rw [chain_step, zero16_apply, zero_add, Finset.sum_range_one]
    by_cases hk : k.val < 10
    · rw [if_pos hk, if_pos hk]; unfold planeTerm; rw [dif_pos (by omega : (0 : ℕ) < 32)]
    · rw [if_neg hk, if_neg hk]
  | n + 1, h, k => by
    have hN : cfg0.N = 32 := N_0
    show step (iblk0 V c 0 ⟨n + 1, h⟩) (iblk0 V c 1 ⟨n + 1, h⟩) (chain V c n (Nat.lt_of_succ_lt h)) (ix1 k) = _
    rw [chain_step, chain_apply c n (Nat.lt_of_succ_lt h) k]
    by_cases hk : k.val < 10
    · rw [if_pos hk, if_pos hk, if_pos hk, Finset.sum_range_succ _ (n + 1)]
      unfold planeTerm
      rw [dif_pos (by omega : n + 1 < 32)]
    · rw [if_neg hk, if_neg hk, if_neg hk, add_zero]

/-- THE COUNTS region 0 leaves: entry `k < 10` is the number of elements of the whole arrays in bin `k`; the six
    padding entries are zero. The planes partition the index set. -/
theorem counts16_apply (c : Dev nD) (k : Fin 16) :
    counts16 V c (ix1 k) = if k.val < 10 then ((Cert.Spec.count (V c main_arg0) (V c main_arg1) k.val : ℝ) : EReal) else 0 := by
  show chain V c 31 _ (ix1 k) = _
  rw [chain_apply]
  by_cases hk : k.val < 10
  · rw [if_pos hk, if_pos hk]
    unfold Cert.Spec.count
    rw [Cert.Lib.Hist.Split.card_split_range (n0 := 32) (n1 := 8192) (n2 := 80)
      (fun i => Cert.Spec.binAt (V c main_arg0) (V c main_arg1) i = BitVec.ofNat 32 k.val)]
    rfl
  · rw [if_neg hk, if_neg hk]

end Cert.KernelIdeal.KValue

end
-- ==== Proof.KGlueAt.lean ====
/-
  The host operations between the two regions, read at a bin. With `C` the first ten counts and `H` the mask of the
  positive ones, the composed term `glue` at bin `k` is the specification's weight of bin `k`: the slice of the counts
  reads the same entries, every broadcast of a constant reads the constant, the broadcast of the number of occupied bins
  reads the one value it holds, and every other operation acts bin by bin.
-/
import proofs.«136895_j1932735283877_2_alg».proof.Proof.KTable
import proofs.«136895_j1932735283877_2_alg».proof.Proof.Spec
import Idealize.ShloMosaic.Lib.IdealHost

noncomputable section

open Idealize.ShloMosaic Idealize.ShloMosaic.ValueIdx

namespace Cert.KernelIdeal.KValue

open Cert.KernelIdeal Cert.KernelIdeal.Gen

/-- The first ten of the sixteen counts. -/
def cntC (cnt : FVec Ideal S16 .f32) : FVec Ideal Cert.Spec.SB .f32 :=
  fun j => cnt (ix1 ⟨(j 0).val, Nat.lt_of_lt_of_le (j 0).isLt (by decide : (10 : ℕ) ≤ 16)⟩)

/-- The mask of the positive counts. -/
def cntH (cnt : FVec Ideal S16 .f32) : IVec Cert.Spec.SB 1 :=
  fun j => FloatOps.cmpf .ogt (cntC cnt j) (Ideal.ofBits .f32 0x00000000#32)

/-- The slice of the first ten counts reads the same entries. -/
theorem slice_eq_cntC (cnt : FVec Ideal S16 .f32) :
    extractStridedSlice S10 ![0] cnt slices_S16_S10_0 = cntC cnt :=
  funext fun j => congrArg cnt (funext fun a => Fin.ext (by
    match a with
    | ⟨0, _⟩ => show 0 + (j 0).val = (j 0).val; omega))

/-- THE TABLE AT A BIN: the composed host operations give the specification's weight. -/
theorem glue_apply (cnt : FVec Ideal S16 .f32) (acc : FVec Ideal S10 .f32) (k : Fin 10) :
    glue cnt acc (ix1 k) = Cert.Spec.weight (cntH cnt) (cntC cnt) acc (ix1 k) := by
  unfold glue
  dsimp only
  rw [slice_eq_cntC]
  refine (congrArg (FloatOps.hostDivf _) (broadcastInDim_scalar_apply bcast_S_S10 _ (ix1 k))).trans ?_
  rfl

end Cert.KernelIdeal.KValue

end
-- ==== Proof.LibSelectSum.lean ====
/-
  A ten-way table lookup written as a sum of selects, on the extended reals: for a word `z` and entries `t0 … t9`, the
  left-nested sum from 0 of `select (z = b) t_b 0` over the literal words `b = 0 … 9` is `t_z` when `z` (read unsigned) is
  below 10 — exactly one select is taken and every other summand is 0 — and 0 otherwise.
-/
import Idealize.ShloMosaic.PureOps.Ideal

noncomputable section

open Idealize.ShloMosaic

namespace Cert.Lib.Hist.SelectSum

/-- One summand: the select on the word comparison with a literal below `2^32` asks whether `z` reads as that number. -/
theorem select_eq (z : BitVec 32) (m : ℕ) (hm : m < 2 ^ 32) (t : EReal) :
    Scalar.select (IntOp.cmpi .eq z (BitVec.ofNat 32 m)) t (0 : EReal) = if z.toNat = m then t else 0 := by
  show (if BitVec.ofBool (z == BitVec.ofNat 32 m) = 1 then t else 0) = _
  have hiff : z = BitVec.ofNat 32 m ↔ z.toNat = m := by
    constructor
    · intro e; rw [e, BitVec.toNat_ofNat]; exact Nat.mod_eq_of_lt hm
    · intro e; apply BitVec.eq_of_toNat_eq; rw [BitVec.toNat_ofNat, Nat.mod_eq_of_lt hm]; exact e
  by_cases h : z.toNat = m
  · have hz : (z == BitVec.ofNat 32 m) = true := by simpa using hiff.2 h
    rw [hz, if_pos h]; rfl
  · have hz : (z == BitVec.ofNat 32 m) = false := by simpa using fun e => h (hiff.1 e)
    rw [hz, if_neg h]; rfl

/-- THE LOOKUP, entries as ten variables and the compared words as literals. -/
theorem select_chain (z : BitVec 32) (t0 t1 t2 t3 t4 t5 t6 t7 t8 t9 : EReal) :
    (((((((((((0 : EReal) + Scalar.select (IntOp.cmpi .eq z 0#32) t0 (0 : EReal)) + Scalar.select (IntOp.cmpi .eq z 1#32) t1 (0 : EReal)) + Scalar.select (IntOp.cmpi .eq z 2#32) t2 (0 : EReal)) + Scalar.select (IntOp.cmpi .eq z 3#32) t3 (0 : EReal)) + Scalar.select (IntOp.cmpi .eq z 4#32) t4 (0 : EReal)) + Scalar.select (IntOp.cmpi .eq z 5#32) t5 (0 : EReal)) + Scalar.select (IntOp.cmpi .eq z 6#32) t6 (0 : EReal)) + Scalar.select (IntOp.cmpi .eq z 7#32) t7 (0 : EReal)) + Scalar.select (IntOp.cmpi .eq z 8#32) t8 (0 : EReal)) + Scalar.select (IntOp.cmpi .eq z 9#32) t9 (0 : EReal))
      = if h : z.toNat < 10 then (![t0, t1, t2, t3, t4, t5, t6, t7, t8, t9] : Fin 10 → EReal) ⟨z.toNat, h⟩ else 0 := by
  rw [select_eq z 0 (by norm_num), select_eq z 1 (by norm_num), select_eq z 2 (by norm_num), select_eq z 3 (by norm_num), select_eq z 4 (by norm_num), select_eq z 5 (by norm_num), select_eq z 6 (by norm_num), select_eq z 7 (by norm_num), select_eq z 8 (by norm_num), select_eq z 9 (by norm_num)]
  by_cases h : z.toNat < 10
  · rw [dif_pos h]
    generalize hn : z.toNat = n at h ⊢
    interval_cases n <;> simp <;> rfl
  · rw [dif_neg h]
    have h' : ∀ m, m < 10 → ¬ z.toNat = m := fun m hm e => h (by omega)
    rw [if_neg (h' 0 (by norm_num)), if_neg (h' 1 (by norm_num)), if_neg (h' 2 (by norm_num)), if_neg (h' 3 (by norm_num)), if_neg (h' 4 (by norm_num)), if_neg (h' 5 (by norm_num)), if_neg (h' 6 (by norm_num)), if_neg (h' 7 (by norm_num)), if_neg (h' 8 (by norm_num)), if_neg (h' 9 (by norm_num))]
    simp

/-- THE LOOKUP, entries as a function on `Fin 10`. -/
theorem select_chain_fn (z : BitVec 32) (T : Fin 10 → EReal) :
    (((((((((((0 : EReal) + Scalar.select (IntOp.cmpi .eq z (BitVec.ofNat 32 (0 : Fin 10).val)) (T 0) (0 : EReal)) + Scalar.select (IntOp.cmpi .eq z (BitVec.ofNat 32 (1 : Fin 10).val)) (T 1) (0 : EReal)) + Scalar.select (IntOp.cmpi .eq z (BitVec.ofNat 32 (2 : Fin 10).val)) (T 2) (0 : EReal)) + Scalar.select (IntOp.cmpi .eq z (BitVec.ofNat 32 (3 : Fin 10).val)) (T 3) (0 : EReal)) + Scalar.select (IntOp.cmpi .eq z (BitVec.ofNat 32 (4 : Fin 10).val)) (T 4) (0 : EReal)) + Scalar.select (IntOp.cmpi .eq z (BitVec.ofNat 32 (5 : Fin 10).val)) (T 5) (0 : EReal)) + Scalar.select (IntOp.cmpi .eq z (BitVec.ofNat 32 (6 : Fin 10).val)) (T 6) (0 : EReal)) + Scalar.select (IntOp.cmpi .eq z (BitVec.ofNat 32 (7 : Fin 10).val)) (T 7) (0 : EReal)) + Scalar.select (IntOp.cmpi .eq z (BitVec.ofNat 32 (8 : Fin 10).val)) (T 8) (0 : EReal)) + Scalar.select (IntOp.cmpi .eq z (BitVec.ofNat 32 (9 : Fin 10).val)) (T 9) (0 : EReal))
      = if h : z.toNat < 10 then T ⟨z.toNat, h⟩ else 0 := by
  refine (select_chain z (T 0) (T 1) (T 2) (T 3) (T 4) (T 5) (T 6) (T 7) (T 8) (T 9)).trans ?_
  have hT : ∀ k : Fin 10, (![T 0, T 1, T 2, T 3, T 4, T 5, T 6, T 7, T 8, T 9] : Fin 10 → EReal) k = T k := by
    intro k; fin_cases k <;> rfl
  by_cases h : z.toNat < 10
  · rw [dif_pos h, dif_pos h, hT]
  · rw [dif_neg h, dif_neg h]

end Cert.Lib.Hist.SelectSum

end
-- ==== Proof.KFinal.lean ====
/-
  The weighting kernel's result array is the specification's result, once its table holds the ten bin weights.

  At an element with bin `z` the kernel adds, from zero and in order, ten terms: entry `b` of the table where `z` is
  the word `b`, zero elsewhere. At most one term is not zero, so the sum is the table's entry at `z` when `z`, read
  unsigned, is below ten, and zero otherwise: the specification's lookup of the table at the bin.
-/
import proofs.«136895_j1932735283877_2_alg».proof.Proof.KWBlock
import proofs.«136895_j1932735283877_2_alg».proof.Proof.KWeights
import proofs.«136895_j1932735283877_2_alg».proof.Proof.LibSelectSum
import proofs.«136895_j1932735283877_2_alg».proof.Proof.LibLiterals
import proofs.«136895_j1932735283877_2_alg».proof.Proof.Spec

noncomputable section

open Idealize.ShloMosaic Idealize.ShloMosaic.ValueIdx

namespace Cert.KernelIdeal.KValue

open Cert.KernelIdeal

/-- The first ten entries of a 16-entry table. -/
def firstTen (T : FVec Ideal S16 .f32) : Fin 10 → EReal := fun b => T (ix1 ⟨b.val, by omega⟩)

/-- An element's weight is the table's entry at its bin when the bin, read unsigned, is below ten, zero otherwise. -/
theorem wAt_eq_lookup (T : FVec Ideal S16 .f32) (p : Ideal .f32) (t : BitVec 32) :
    wAt T p t = if h : (Cert.Spec.bin p t).toNat < 10 then firstTen T ⟨(Cert.Spec.bin p t).toNat, h⟩ else 0 := by
  unfold wAt term
  simp only [Ideal.ofBits_def, Cert.Lib.Hist.Lit.ofBits_zero]
  generalize Cert.Spec.bin p t = z
  exact Cert.Lib.Hist.SelectSum.select_chain_fn z (firstTen T)

/-- THE KERNEL'S RESULT: with the ten bin weights in the table's first ten entries, the result array is the
    specification's. -/
theorem weights_eq_result (x0 : FVec Ideal Cert.Spec.SA .f32) (x1 : IVec Cert.Spec.SA 32) (x2 : FVec Ideal Cert.Spec.SB .f32)
    (T : FVec Ideal Cert.KernelIdeal.S16 .f32)
    (hT : ∀ k : Fin 10, T (ix1 ⟨k.val, by omega⟩)
      = Cert.Spec.weight (Cert.Spec.occupied x0 x1) (Cert.Spec.countF x0 x1) x2 (ix1 k)) :
    weights x0 x1 T = Cert.Spec.result x0 x1 x2 := by
  funext i
  show wAt T (x0 i) (x1 i)
    = Cert.Spec.lookup (Cert.Spec.weight (Cert.Spec.occupied x0 x1) (Cert.Spec.countF x0 x1) x2)
        (Cert.Spec.bin (x0 i) (x1 i))
  generalize Cert.Spec.weight (Cert.Spec.occupied x0 x1) (Cert.Spec.countF x0 x1) x2 = W at hT ⊢
  rw [wAt_eq_lookup]
  unfold Cert.Spec.lookup
  by_cases h : (Cert.Spec.bin (x0 i) (x1 i)).toNat < 10
  · rw [dif_pos h, dif_pos h]
    exact hT ⟨_, h⟩
  · rw [dif_neg h, dif_neg h]
    exact Cert.Lib.Hist.Lit.ofBits_zero.symm

end Cert.KernelIdeal.KValue

end
-- ==== Proof.KBridge.lean ====
/-
  The kernel's result is the specification's.

  Region 0's first ten counts are the specification's counts, so their occupancy test is the specification's mask and
  the host operations' ten weights are the specification's weights; these are the first ten entries of the table
  region 1 reads; and an element's ten-term sum over that table is the table's entry at the element's bin.
-/
import proofs.«136895_j1932735283877_2_alg».proof.Proof.KResult
import proofs.«136895_j1932735283877_2_alg».proof.Proof.KCounts
import proofs.«136895_j1932735283877_2_alg».proof.Proof.KGlueAt
import proofs.«136895_j1932735283877_2_alg».proof.Proof.KFinal
import proofs.«136895_j1932735283877_2_alg».proof.Proof.LibConcatReads
import proofs.«136895_j1932735283877_2_alg».proof.Proof.LibIndicator

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The first ten counts region 0 leaves are the specification's counts, as extended reals. -/
theorem cntC_counts (c : Dev nD) :
    cntC (counts16 (V0 m ρ) c) = Cert.Spec.countF (m ((c : Thread nD τ).loc main_arg0)) (m ((c : Thread nD τ).loc main_arg1)) := by
  funext j
  unfold cntC Cert.Spec.countF
  rw [counts16_apply, if_pos (show (j 0).val < 10 from (j 0).isLt)]

/-- The occupancy test of those counts is the specification's occupancy mask. -/
theorem cntH_counts (c : Dev nD) :
    cntH (counts16 (V0 m ρ) c) = Cert.Spec.occupied (m ((c : Thread nD τ).loc main_arg0)) (m ((c : Thread nD τ).loc main_arg1)) := by
  funext j
  unfold cntH
  rw [cntC_counts]
  unfold Cert.Spec.countF Cert.Spec.occupied
  exact Cert.Lib.Hist.ogt_natCast _

/-- The table's first ten entries are the specification's weights. -/
theorem table_apply (c : Dev nD) (k : Fin 10) :
    table m ρ c (ix1 ⟨k.val, by omega⟩)
      = Cert.Spec.weight (Cert.Spec.occupied (m ((c : Thread nD τ).loc main_arg0)) (m ((c : Thread nD τ).loc main_arg1)))
          (Cert.Spec.countF (m ((c : Thread nD τ).loc main_arg0)) (m ((c : Thread nD τ).loc main_arg1))) (m ((c : Thread nD τ).loc main_arg2)) (ix1 k) := by
  unfold table
  refine (Cert.Lib.Hist.Concat.concat2_apply_left _ _ concatenates_S10_S6_S16_d0 ⟨k.val, by omega⟩ k.isLt).trans ?_
  refine (glue_apply _ _ k).trans ?_
  rw [cntH_counts, cntC_counts]

/-- THE KERNEL'S RESULT is the specification's. -/
theorem kernel_result (c : Dev nD) :
    weights (m ((c : Thread nD τ).loc main_arg0)) (m ((c : Thread nD τ).loc main_arg1)) (table m ρ c)
      = Cert.Spec.result (m ((c : Thread nD τ).loc main_arg0)) (m ((c : Thread nD τ).loc main_arg1)) (m ((c : Thread nD τ).loc main_arg2)) :=
  weights_eq_result _ _ _ _ (table_apply m ρ c)

end Cert.KernelIdeal.KValue

end
-- ==== Proof.LibAfter.lean ====
/-
  A general fact about a straight line of host operations: running one list of operations after another is
  running their concatenation.
-/
import Idealize.ShloMosaic.Lib.StableHlo.Run

namespace Idealize.ShloMosaic.StableHlo

variable {τ : Topo} {sig : RefSig} {Val : EltTy → Type}

/-- The buffer contents after the operations `l₁ ++ l₂` are the contents after `l₂`, started from the contents
    after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference program's run, read back one stretch of host operations at a time.

  The reference is a straight line of 69 host operations. Their effect on the buffers' contents is a fold, and the fold
  of a concatenation of lists is the composition of the folds. The line is cut into four stretches: up to and including
  the scatter that builds the histogram; from the slice of the histogram to the two pieces of the 11-entry table; the
  concatenation of those pieces; and the rest, through the gather, to the result. After each stretch the buffers a
  later stretch reads hold the corresponding stage of the program as a function of the three argument arrays; so the
  result buffer ends at the last stage, and every weakly fair execution of the reference ends there with the
  arguments unchanged.
-/
import proofs.«136895_j1932735283877_2_alg».proof.Proof.Gen.ReferenceIdeal
import proofs.«136895_j1932735283877_2_alg».proof.Proof.RefReadPatched
import proofs.«136895_j1932735283877_2_alg».proof.Proof.LibAfter
import Idealize.ShloMosaic.Lib.StableHlo.Run

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 69 operations, in order (a called function's operations stand in its call's place, spelt `TRef.…`). -/
abbrev ops : List (HloOp τ sig (Elt F)) :=
  [ unary main_arg1 main_v0 (sitofp .f32 : (⟨S32x8192x80, .i32⟩ : BufTy).Contents (Elt F) → (⟨S32x8192x80, .f32⟩ : BufTy).Contents (Elt F)),
    binary main_arg0 main_v0 main_v1 (subf : (⟨S32x8192x80, .f32⟩ : BufTy).Contents (Elt F) → (⟨S32x8192x80, .f32⟩ : BufTy).Contents (Elt F) → (⟨S32x8192x80, .f32⟩ : BufTy).Contents (Elt F)),
    unary main_v1 main_v2 (Host.absf : (⟨S32x8192x80, .f32⟩ : BufTy).Contents (Elt F) → (⟨S32x8192x80, .f32⟩ : BufTy).Contents (Elt F)),
    nullary main_cst (constant S_ .f32 0x41200000#32),
    unary main_cst main_v3 (broadcastInDim S32x8192x80 ![] bcast_S_S32x8192x80 : (⟨S_, .f32⟩ : BufTy).Contents (Elt F) → (⟨S32x8192x80, .f32⟩ : BufTy).Contents (Elt F)),
    binary main_v2 main_v3 main_v4 (mulf : (⟨S32x8192x80, .f32⟩ : BufTy).Contents (Elt F) → (⟨S32x8192x80, .f32⟩ : BufTy).Contents (Elt F) → (⟨S32x8192x80, .f32⟩ : BufTy).Contents (Elt F)),
    unary main_v4 main_v5 (Host.floor : (⟨S32x8192x80, .f32⟩ : BufTy).Contents (Elt F) → (⟨S32x8192x80, .f32⟩ : BufTy).Contents (Elt F)),
    unary main_v5 main_v6 (fptosi 32 : (⟨S32x8192x80, .f32⟩ : BufTy).Contents (Elt F) → (⟨S32x8192x80, .i32⟩ : BufTy).Contents (Elt F)),
    nullary main_cst_0 (constant S_ .f32 0x3F800008#32),
    unary main_cst_0 main_v7 (broadcastInDim S32x8192x80 ![] bcast_S_S32x8192x80 : (⟨S_, .f32⟩ : BufTy).Contents (Elt F) → (⟨S32x8192x80, .f32⟩ : BufTy).Contents (Elt F)),
    binary main_v2 main_v7 main_v8 (cmpf .olt : (⟨S32x8192x80, .f32⟩ : BufTy).Contents (Elt F) → (⟨S32x8192x80, .f32⟩ : BufTy).Contents (Elt F) → (⟨S32x8192x80, .i1⟩ : BufTy).Contents (Elt F)),
    nullary main_c (constantI S_ 32 9#32),
    unary main_c main_v9 (broadcastInDim S32x8192x80 ![] bcast_S_S32x8192x80 : (⟨S_, .i32⟩ : BufTy).Contents (Elt F) → (⟨S32x8192x80, .i32⟩ : BufTy).Contents (Elt F)),
    binary main_v6 main_v9 main_v10 (minsi : (⟨S32x8192x80, .i32⟩ : BufTy).Contents (Elt F) → (⟨S32x8192x80, .i32⟩ : BufTy).Contents (Elt F) → (⟨S32x8192x80, .i32⟩ : BufTy).Contents (Elt F)),
    nullary main_c_1 (constantI S_ 32 10#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S32x8192x80, .i32⟩) main_call0_v1) (broadcastInDim S32x8192x80 ![] bcast_S_S32x8192x80),
    TRef.ternary (TRef.of (T := ⟨S32x8192x80, .i1⟩) main_v8) (TRef.of (T := ⟨S32x8192x80, .i32⟩) main_v10) (TRef.of (T := ⟨S32x8192x80, .i32⟩) main_call0_v1) (TRef.of (T := ⟨S32x8192x80, .i32⟩) main_v11) select,
    reshape main_v11 main_v12 rfl shapeCasts_S32x8192x80_S20971520,
    nullary main_c_2 (constantI S_ 32 1#32),
    unary main_c_2 main_v13 (broadcastInDim S20971520 ![] bcast_S_S20971520 : (⟨S_, .i32⟩ : BufTy).Contents (Elt F) → (⟨S20971520, .i32⟩ : BufTy).Contents (Elt F)),
    nullary main_c_3 (constantI S_ 32 0#32),
    unary main_c_3 main_v14 (broadcastInDim S11 ![] bcast_S_S11 : (⟨S_, .i32⟩ : BufTy).Contents (Elt F) → (⟨S11, .i32⟩ : BufTy).Contents (Elt F)),
    unary main_v12 main_v15 (broadcastInDim S20971520x1 ![0] bcast_S20971520_S20971520x1_0 : (⟨S20971520, .i32⟩ : BufTy).Contents (Elt F) → (⟨S20971520x1, .i32⟩ : BufTy).Contents (Elt F)),
    ternary main_v14 main_v15 main_v13 main_v16 ((fun x i u => Host.scatter scatter_S11_S20971520x1_S20971520_n_0_0_1 IntOp.addi x i u) : (⟨S11, .i32⟩ : BufTy).Contents (Elt F) → (⟨S20971520x1, .i32⟩ : BufTy).Contents (Elt F) → (⟨S20971520, .i32⟩ : BufTy).Contents (Elt F) → (⟨S11, .i32⟩ : BufTy).Contents (Elt F)),
    unary main_v16 main_v17 ((extractStridedSlice S10 ![0] · slices_S11_S10_0) : (⟨S11, .i32⟩ : BufTy).Contents (Elt F) → (⟨S10, .i32⟩ : BufTy).Contents (Elt F)),
    nullary main_c_4 (constantI S_ 32 0#32),
    unary main_c_4 main_v18 (broadcastInDim S10 ![] bcast_S_S10 : (⟨S_, .i32⟩ : BufTy).Contents (Elt F) → (⟨S10, .i32⟩ : BufTy).Contents (Elt F)),
    binary main_v17 main_v18 main_v19 (cmpi .sgt : (⟨S10, .i32⟩ : BufTy).Contents (Elt F) → (⟨S10, .i32⟩ : BufTy).Contents (Elt F) → (⟨S10, .i1⟩ : BufTy).Contents (Elt F)),
    unary main_v17 main_v20 (sitofp .f32 : (⟨S10, .i32⟩ : BufTy).Contents (Elt F) → (⟨S10, .f32⟩ : BufTy).Contents (Elt F)),
    nullary main_cst_5 (constant S_ .f32 0x3DCCCCCD#32),
    unary main_cst_5 main_v21 (broadcastInDim S10 ![] bcast_S_S10 : (⟨S_, .f32⟩ : BufTy).Contents (Elt F) → (⟨S10, .f32⟩ : BufTy).Contents (Elt F)),
    binary main_v21 main_arg2 main_v22 (mulf : (⟨S10, .f32⟩ : BufTy).Contents (Elt F) → (⟨S10, .f32⟩ : BufTy).Contents (Elt F) → (⟨S10, .f32⟩ : BufTy).Contents (Elt F)),
    nullary main_cst_6 (constant S_ .f32 0x3F666666#32),
    unary main_cst_6 main_v23 (broadcastInDim S10 ![] bcast_S_S10 : (⟨S_, .f32⟩ : BufTy).Contents (Elt F) → (⟨S10, .f32⟩ : BufTy).Contents (Elt F)),
    binary main_v23 main_v20 main_v24 (mulf : (⟨S10, .f32⟩ : BufTy).Contents (Elt F) → (⟨S10, .f32⟩ : BufTy).Contents (Elt F) → (⟨S10, .f32⟩ : BufTy).Contents (Elt F)),
    binary main_v22 main_v24 main_v25 (addf : (⟨S10, .f32⟩ : BufTy).Contents (Elt F) → (⟨S10, .f32⟩ : BufTy).Contents (Elt F) → (⟨S10, .f32⟩ : BufTy).Contents (Elt F)),
    TRef.ternary (TRef.of (T := ⟨S10, .i1⟩) main_v19) (TRef.of (T := ⟨S10, .f32⟩) main_v25) (TRef.of (T := ⟨S10, .f32⟩) main_arg2) (TRef.of (T := ⟨S10, .f32⟩) main_v26) select,
    nullary main_cst_7 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v19) (TRef.of (T := ⟨S10, .f32⟩) main_v26) (TRef.of (T := ⟨S10, .f32⟩) main_call2_v1) (TRef.of (T := ⟨S10, .f32⟩) main_v27) select,
    nullary main_cst_8 (constant S_ .f32 0x49200000#32),
    unary main_cst_8 main_v28 (broadcastInDim S10 ![] bcast_S_S10 : (⟨S_, .f32⟩ : BufTy).Contents (Elt F) → (⟨S10, .f32⟩ : BufTy).Contents (Elt F)),
    binary main_v28 main_v27 main_v29 (Host.divf : (⟨S10, .f32⟩ : BufTy).Contents (Elt F) → (⟨S10, .f32⟩ : BufTy).Contents (Elt F) → (⟨S10, .f32⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S10, .f32⟩) main_call3_v1) (broadcastInDim S10 ![] bcast_S_S10),
    TRef.ternary (TRef.of (T := ⟨S10, .i1⟩) main_v19) (TRef.of (T := ⟨S10, .f32⟩) main_v29) (TRef.of (T := ⟨S10, .f32⟩) main_call3_v1) (TRef.of (T := ⟨S10, .f32⟩) main_v30) select,
    nullary main_cst_10 (constant S_ .f32 0x00000000#32),
    unary main_cst_10 main_v31 (broadcastInDim S1 ![] bcast_S_S1 : (⟨S_, .f32⟩ : BufTy).Contents (Elt F) → (⟨S1, .f32⟩ : BufTy).Contents (Elt F)),
    binary main_v30 main_v31 main_v32 ((fun a b => concatenate S11 0 [⟨S10, a⟩, ⟨S1, b⟩] concatenates_S10_S1_S11_d0) : (⟨S10, .f32⟩ : BufTy).Contents (Elt F) → (⟨S1, .f32⟩ : BufTy).Contents (Elt F) → (⟨S11, .f32⟩ : BufTy).Contents (Elt F)),
    unary main_v19 main_v33 ((extui 32 · natLt_1_32) : (⟨S10, .i1⟩ : BufTy).Contents (Elt F) → (⟨S10, .i32⟩ : BufTy).Contents (Elt F)),
    nullary main_c_11 (constantI S_ 32 0#32),
    binary main_v33 main_c_11 main_v34 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v34 main_v35 (sitofp .f32 : (⟨S_, .i32⟩ : BufTy).Contents (Elt F) → (⟨S_, .f32⟩ : BufTy).Contents (Elt F)),
    nullary main_c_12 (constantI S_ 32 0#32),
    unary main_c_12 main_v36 (broadcastInDim S32x8192x80 ![] bcast_S_S32x8192x80 : (⟨S_, .i32⟩ : BufTy).Contents (Elt F) → (⟨S32x8192x80, .i32⟩ : BufTy).Contents (Elt F)),
    binary main_v11 main_v36 main_v37 (cmpi .slt : (⟨S32x8192x80, .i32⟩ : BufTy).Contents (Elt F) → (⟨S32x8192x80, .i32⟩ : BufTy).Contents (Elt F) → (⟨S32x8192x80, .i1⟩ : BufTy).Contents (Elt F)),
    nullary main_c_13 (constantI S_ 32 11#32),
    unary main_c_13 main_v38 (broadcastInDim S32x8192x80 ![] bcast_S_S32x8192x80 : (⟨S_, .i32⟩ : BufTy).Contents (Elt F) → (⟨S32x8192x80, .i32⟩ : BufTy).Contents (Elt F)),
    binary main_v11 main_v38 main_v39 (addi : (⟨S32x8192x80, .i32⟩ : BufTy).Contents (Elt F) → (⟨S32x8192x80, .i32⟩ : BufTy).Contents (Elt F) → (⟨S32x8192x80, .i32⟩ : BufTy).Contents (Elt F)),
    ternary main_v37 main_v39 main_v11 main_v40 (select : (⟨S32x8192x80, .i1⟩ : BufTy).Contents (Elt F) → (⟨S32x8192x80, .i32⟩ : BufTy).Contents (Elt F) → (⟨S32x8192x80, .i32⟩ : BufTy).Contents (Elt F) → (⟨S32x8192x80, .i32⟩ : BufTy).Contents (Elt F)),
    unary main_v40 main_v41 (broadcastInDim S32x8192x80x1 ![0, 1, 2] bcast_S32x8192x80_S32x8192x80x1_0_1_2 : (⟨S32x8192x80, .i32⟩ : BufTy).Contents (Elt F) → (⟨S32x8192x80x1, .i32⟩ : BufTy).Contents (Elt F)),
    binary main_v32 main_v41 main_v42 ((fun x i => Host.gather gather_S11_S32x8192x80x1_S32x8192x80_n_0_n_n_0_3_1 x i) : (⟨S11, .f32⟩ : BufTy).Contents (Elt F) → (⟨S32x8192x80x1, .i32⟩ : BufTy).Contents (Elt F) → (⟨S32x8192x80, .f32⟩ : BufTy).Contents (Elt F)),
    nullary main_cst_14 (constant S_ .f32 0x3F800000#32),
    binary main_v35 main_cst_14 main_v43 (maximumf : (⟨S_, .f32⟩ : BufTy).Contents (Elt F) → (⟨S_, .f32⟩ : BufTy).Contents (Elt F) → (⟨S_, .f32⟩ : BufTy).Contents (Elt F)),
    unary main_v43 main_v44 (broadcastInDim S32x8192x80 ![] bcast_S_S32x8192x80 : (⟨S_, .f32⟩ : BufTy).Contents (Elt F) → (⟨S32x8192x80, .f32⟩ : BufTy).Contents (Elt F)),
    binary main_v42 main_v44 main_v45 (Host.divf : (⟨S32x8192x80, .f32⟩ : BufTy).Contents (Elt F) → (⟨S32x8192x80, .f32⟩ : BufTy).Contents (Elt F) → (⟨S32x8192x80, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., reshape_bufs_sub .., nullary_bufs_sub .., unary_bufs_sub .., nullary_bufs_sub .., unary_bufs_sub .., unary_bufs_sub .., ternary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., binary_bufs_sub ..⟩

/-- The first stretch: the 25 operations up to and including the scatter. -/
abbrev opsA : List (HloOp τ sig (Elt F)) :=
  [ unary main_arg1 main_v0 (sitofp .f32 : (⟨S32x8192x80, .i32⟩ : BufTy).Contents (Elt F) → (⟨S32x8192x80, .f32⟩ : BufTy).Contents (Elt F)),
    binary main_arg0 main_v0 main_v1 (subf : (⟨S32x8192x80, .f32⟩ : BufTy).Contents (Elt F) → (⟨S32x8192x80, .f32⟩ : BufTy).Contents (Elt F) → (⟨S32x8192x80, .f32⟩ : BufTy).Contents (Elt F)),
    unary main_v1 main_v2 (Host.absf : (⟨S32x8192x80, .f32⟩ : BufTy).Contents (Elt F) → (⟨S32x8192x80, .f32⟩ : BufTy).Contents (Elt F)),
    nullary main_cst (constant S_ .f32 0x41200000#32),
    unary main_cst main_v3 (broadcastInDim S32x8192x80 ![] bcast_S_S32x8192x80 : (⟨S_, .f32⟩ : BufTy).Contents (Elt F) → (⟨S32x8192x80, .f32⟩ : BufTy).Contents (Elt F)),
    binary main_v2 main_v3 main_v4 (mulf : (⟨S32x8192x80, .f32⟩ : BufTy).Contents (Elt F) → (⟨S32x8192x80, .f32⟩ : BufTy).Contents (Elt F) → (⟨S32x8192x80, .f32⟩ : BufTy).Contents (Elt F)),
    unary main_v4 main_v5 (Host.floor : (⟨S32x8192x80, .f32⟩ : BufTy).Contents (Elt F) → (⟨S32x8192x80, .f32⟩ : BufTy).Contents (Elt F)),
    unary main_v5 main_v6 (fptosi 32 : (⟨S32x8192x80, .f32⟩ : BufTy).Contents (Elt F) → (⟨S32x8192x80, .i32⟩ : BufTy).Contents (Elt F)),
    nullary main_cst_0 (constant S_ .f32 0x3F800008#32),
    unary main_cst_0 main_v7 (broadcastInDim S32x8192x80 ![] bcast_S_S32x8192x80 : (⟨S_, .f32⟩ : BufTy).Contents (Elt F) → (⟨S32x8192x80, .f32⟩ : BufTy).Contents (Elt F)),
    binary main_v2 main_v7 main_v8 (cmpf .olt : (⟨S32x8192x80, .f32⟩ : BufTy).Contents (Elt F) → (⟨S32x8192x80, .f32⟩ : BufTy).Contents (Elt F) → (⟨S32x8192x80, .i1⟩ : BufTy).Contents (Elt F)),
    nullary main_c (constantI S_ 32 9#32),
    unary main_c main_v9 (broadcastInDim S32x8192x80 ![] bcast_S_S32x8192x80 : (⟨S_, .i32⟩ : BufTy).Contents (Elt F) → (⟨S32x8192x80, .i32⟩ : BufTy).Contents (Elt F)),
    binary main_v6 main_v9 main_v10 (minsi : (⟨S32x8192x80, .i32⟩ : BufTy).Contents (Elt F) → (⟨S32x8192x80, .i32⟩ : BufTy).Contents (Elt F) → (⟨S32x8192x80, .i32⟩ : BufTy).Contents (Elt F)),
    nullary main_c_1 (constantI S_ 32 10#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S32x8192x80, .i32⟩) main_call0_v1) (broadcastInDim S32x8192x80 ![] bcast_S_S32x8192x80),
    TRef.ternary (TRef.of (T := ⟨S32x8192x80, .i1⟩) main_v8) (TRef.of (T := ⟨S32x8192x80, .i32⟩) main_v10) (TRef.of (T := ⟨S32x8192x80, .i32⟩) main_call0_v1) (TRef.of (T := ⟨S32x8192x80, .i32⟩) main_v11) select,
    reshape main_v11 main_v12 rfl shapeCasts_S32x8192x80_S20971520,
    nullary main_c_2 (constantI S_ 32 1#32),
    unary main_c_2 main_v13 (broadcastInDim S20971520 ![] bcast_S_S20971520 : (⟨S_, .i32⟩ : BufTy).Contents (Elt F) → (⟨S20971520, .i32⟩ : BufTy).Contents (Elt F)),
    nullary main_c_3 (constantI S_ 32 0#32),
    unary main_c_3 main_v14 (broadcastInDim S11 ![] bcast_S_S11 : (⟨S_, .i32⟩ : BufTy).Contents (Elt F) → (⟨S11, .i32⟩ : BufTy).Contents (Elt F)),
    unary main_v12 main_v15 (broadcastInDim S20971520x1 ![0] bcast_S20971520_S20971520x1_0 : (⟨S20971520, .i32⟩ : BufTy).Contents (Elt F) → (⟨S20971520x1, .i32⟩ : BufTy).Contents (Elt F)),
    ternary main_v14 main_v15 main_v13 main_v16 ((fun x i u => Host.scatter scatter_S11_S20971520x1_S20971520_n_0_0_1 IntOp.addi x i u) : (⟨S11, .i32⟩ : BufTy).Contents (Elt F) → (⟨S20971520x1, .i32⟩ : BufTy).Contents (Elt F) → (⟨S20971520, .i32⟩ : BufTy).Contents (Elt F) → (⟨S11, .i32⟩ : BufTy).Contents (Elt F)) ]
/-- The second stretch: the 26 operations from the histogram's slice to the two pieces of the table. -/
abbrev opsB : List (HloOp τ sig (Elt F)) :=
  [ unary main_v16 main_v17 ((extractStridedSlice S10 ![0] · slices_S11_S10_0) : (⟨S11, .i32⟩ : BufTy).Contents (Elt F) → (⟨S10, .i32⟩ : BufTy).Contents (Elt F)),
    nullary main_c_4 (constantI S_ 32 0#32),
    unary main_c_4 main_v18 (broadcastInDim S10 ![] bcast_S_S10 : (⟨S_, .i32⟩ : BufTy).Contents (Elt F) → (⟨S10, .i32⟩ : BufTy).Contents (Elt F)),
    binary main_v17 main_v18 main_v19 (cmpi .sgt : (⟨S10, .i32⟩ : BufTy).Contents (Elt F) → (⟨S10, .i32⟩ : BufTy).Contents (Elt F) → (⟨S10, .i1⟩ : BufTy).Contents (Elt F)),
    unary main_v17 main_v20 (sitofp .f32 : (⟨S10, .i32⟩ : BufTy).Contents (Elt F) → (⟨S10, .f32⟩ : BufTy).Contents (Elt F)),
    nullary main_cst_5 (constant S_ .f32 0x3DCCCCCD#32),
    unary main_cst_5 main_v21 (broadcastInDim S10 ![] bcast_S_S10 : (⟨S_, .f32⟩ : BufTy).Contents (Elt F) → (⟨S10, .f32⟩ : BufTy).Contents (Elt F)),
    binary main_v21 main_arg2 main_v22 (mulf : (⟨S10, .f32⟩ : BufTy).Contents (Elt F) → (⟨S10, .f32⟩ : BufTy).Contents (Elt F) → (⟨S10, .f32⟩ : BufTy).Contents (Elt F)),
    nullary main_cst_6 (constant S_ .f32 0x3F666666#32),
    unary main_cst_6 main_v23 (broadcastInDim S10 ![] bcast_S_S10 : (⟨S_, .f32⟩ : BufTy).Contents (Elt F) → (⟨S10, .f32⟩ : BufTy).Contents (Elt F)),
    binary main_v23 main_v20 main_v24 (mulf : (⟨S10, .f32⟩ : BufTy).Contents (Elt F) → (⟨S10, .f32⟩ : BufTy).Contents (Elt F) → (⟨S10, .f32⟩ : BufTy).Contents (Elt F)),
    binary main_v22 main_v24 main_v25 (addf : (⟨S10, .f32⟩ : BufTy).Contents (Elt F) → (⟨S10, .f32⟩ : BufTy).Contents (Elt F) → (⟨S10, .f32⟩ : BufTy).Contents (Elt F)),
    TRef.ternary (TRef.of (T := ⟨S10, .i1⟩) main_v19) (TRef.of (T := ⟨S10, .f32⟩) main_v25) (TRef.of (T := ⟨S10, .f32⟩) main_arg2) (TRef.of (T := ⟨S10, .f32⟩) main_v26) select,
    nullary main_cst_7 (constant S_ .f32 0x3F800000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v19) (TRef.of (T := ⟨S10, .f32⟩) main_v26) (TRef.of (T := ⟨S10, .f32⟩) main_call2_v1) (TRef.of (T := ⟨S10, .f32⟩) main_v27) select,
    nullary main_cst_8 (constant S_ .f32 0x49200000#32),
    unary main_cst_8 main_v28 (broadcastInDim S10 ![] bcast_S_S10 : (⟨S_, .f32⟩ : BufTy).Contents (Elt F) → (⟨S10, .f32⟩ : BufTy).Contents (Elt F)),
    binary main_v28 main_v27 main_v29 (Host.divf : (⟨S10, .f32⟩ : BufTy).Contents (Elt F) → (⟨S10, .f32⟩ : BufTy).Contents (Elt F) → (⟨S10, .f32⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S10, .f32⟩) main_call3_v1) (broadcastInDim S10 ![] bcast_S_S10),
    TRef.ternary (TRef.of (T := ⟨S10, .i1⟩) main_v19) (TRef.of (T := ⟨S10, .f32⟩) main_v29) (TRef.of (T := ⟨S10, .f32⟩) main_call3_v1) (TRef.of (T := ⟨S10, .f32⟩) main_v30) select,
    nullary main_cst_10 (constant S_ .f32 0x00000000#32),
    unary main_cst_10 main_v31 (broadcastInDim S1 ![] bcast_S_S1 : (⟨S_, .f32⟩ : BufTy).Contents (Elt F) → (⟨S1, .f32⟩ : BufTy).Contents (Elt F)) ]
/-- The third stretch: the concatenation of the two pieces. -/
abbrev opsC : List (HloOp τ sig (Elt F)) :=
  [ binary main_v30 main_v31 main_v32 ((fun a b => concatenate S11 0 [⟨S10, a⟩, ⟨S1, b⟩] concatenates_S10_S1_S11_d0) : (⟨S10, .f32⟩ : BufTy).Contents (Elt F) → (⟨S1, .f32⟩ : BufTy).Contents (Elt F) → (⟨S11, .f32⟩ : BufTy).Contents (Elt F)) ]
/-- The last stretch: the 17 operations from the occupancy count, through the gather, to the result. -/
abbrev opsD : List (HloOp τ sig (Elt F)) :=
  [ unary main_v19 main_v33 ((extui 32 · natLt_1_32) : (⟨S10, .i1⟩ : BufTy).Contents (Elt F) → (⟨S10, .i32⟩ : BufTy).Contents (Elt F)),
    nullary main_c_11 (constantI S_ 32 0#32),
    binary main_v33 main_c_11 main_v34 ((fun x v => Host.reduce IntOp.addi x v reducesTo_S10_S_d0 h_S_) : (⟨S10, .i32⟩ : BufTy).Contents (Elt F) → (⟨S_, .i32⟩ : BufTy).Contents (Elt F) → (⟨S_, .i32⟩ : BufTy).Contents (Elt F)),
    unary main_v34 main_v35 (sitofp .f32 : (⟨S_, .i32⟩ : BufTy).Contents (Elt F) → (⟨S_, .f32⟩ : BufTy).Contents (Elt F)),
    nullary main_c_12 (constantI S_ 32 0#32),
    unary main_c_12 main_v36 (broadcastInDim S32x8192x80 ![] bcast_S_S32x8192x80 : (⟨S_, .i32⟩ : BufTy).Contents (Elt F) → (⟨S32x8192x80, .i32⟩ : BufTy).Contents (Elt F)),
    binary main_v11 main_v36 main_v37 (cmpi .slt : (⟨S32x8192x80, .i32⟩ : BufTy).Contents (Elt F) → (⟨S32x8192x80, .i32⟩ : BufTy).Contents (Elt F) → (⟨S32x8192x80, .i1⟩ : BufTy).Contents (Elt F)),
    nullary main_c_13 (constantI S_ 32 11#32),
    unary main_c_13 main_v38 (broadcastInDim S32x8192x80 ![] bcast_S_S32x8192x80 : (⟨S_, .i32⟩ : BufTy).Contents (Elt F) → (⟨S32x8192x80, .i32⟩ : BufTy).Contents (Elt F)),
    binary main_v11 main_v38 main_v39 (addi : (⟨S32x8192x80, .i32⟩ : BufTy).Contents (Elt F) → (⟨S32x8192x80, .i32⟩ : BufTy).Contents (Elt F) → (⟨S32x8192x80, .i32⟩ : BufTy).Contents (Elt F)),
    ternary main_v37 main_v39 main_v11 main_v40 (select : (⟨S32x8192x80, .i1⟩ : BufTy).Contents (Elt F) → (⟨S32x8192x80, .i32⟩ : BufTy).Contents (Elt F) → (⟨S32x8192x80, .i32⟩ : BufTy).Contents (Elt F) → (⟨S32x8192x80, .i32⟩ : BufTy).Contents (Elt F)),
    unary main_v40 main_v41 (broadcastInDim S32x8192x80x1 ![0, 1, 2] bcast_S32x8192x80_S32x8192x80x1_0_1_2 : (⟨S32x8192x80, .i32⟩ : BufTy).Contents (Elt F) → (⟨S32x8192x80x1, .i32⟩ : BufTy).Contents (Elt F)),
    binary main_v32 main_v41 main_v42 ((fun x i => Host.gather gather_S11_S32x8192x80x1_S32x8192x80_n_0_n_n_0_3_1 x i) : (⟨S11, .f32⟩ : BufTy).Contents (Elt F) → (⟨S32x8192x80x1, .i32⟩ : BufTy).Contents (Elt F) → (⟨S32x8192x80, .f32⟩ : BufTy).Contents (Elt F)),
    nullary main_cst_14 (constant S_ .f32 0x3F800000#32),
    binary main_v35 main_cst_14 main_v43 (maximumf : (⟨S_, .f32⟩ : BufTy).Contents (Elt F) → (⟨S_, .f32⟩ : BufTy).Contents (Elt F) → (⟨S_, .f32⟩ : BufTy).Contents (Elt F)),
    unary main_v43 main_v44 (broadcastInDim S32x8192x80 ![] bcast_S_S32x8192x80 : (⟨S_, .f32⟩ : BufTy).Contents (Elt F) → (⟨S32x8192x80, .f32⟩ : BufTy).Contents (Elt F)),
    binary main_v42 main_v44 main_v45 (Host.divf : (⟨S32x8192x80, .f32⟩ : BufTy).Contents (Elt F) → (⟨S32x8192x80, .f32⟩ : BufTy).Contents (Elt F) → (⟨S32x8192x80, .f32⟩ : BufTy).Contents (Elt F)) ]

set_option maxRecDepth 8192 in
/-- The line is its four stretches in order. -/
theorem ops_split : (ops : List (HloOp τ sig (Elt F))) = opsA ++ (opsB ++ (opsC ++ opsD)) := rfl

/-- A two-piece concatenation depends only on its two pieces. -/
theorem concat2_congr {α : Type} (t : Shape) (ax : Fin t.rank) (s1 s2 : Shape) {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by
  subst ha hb; rfl

section Stretches

variable (m : (ℓ : Loc nD τ sig) → Buf (Elt F) ℓ) (c : Dev nD)

/-! ### After the first stretch -/

/-- The bin index (with the overflow bucket) after the first stretch. -/
theorem A_v11 : after opsA (launchContents m c) (Proc.devRef .tc main_v11)
    = val_main_v11 (F := F) (m ((c.tc : Thread nD τ).loc main_arg0)) (m ((c.tc : Thread nD τ).loc main_arg1)) := by
  after_results_simp <;> rfl

/-- The accumulator argument is not written by the first stretch. -/
theorem A_arg2 : after opsA (launchContents m c) (Proc.devRef .tc main_arg2) = m ((c.tc : Thread nD τ).loc main_arg2) := by
  after_results_simp <;> rfl

/-- The histogram after the first stretch: the scatter of ones at the bin indices; the equation is between the
    scatters' index arrays only. -/
theorem A_v16 : after opsA (launchContents m c) (Proc.devRef .tc main_v16)
    = val_main_v16 (F := F) (m ((c.tc : Thread nD τ).loc main_arg0)) (m ((c.tc : Thread nD τ).loc main_arg1)) := by
  after_results_simp
  exact congrArg (fun z => Host.scatter scatter_S11_S20971520x1_S20971520_n_0_0_1 IntOp.addi (broadcastInDim S11 ![] bcast_S_S11 (constantI S_ 32 0#32)) z
      (broadcastInDim S20971520 ![] bcast_S_S20971520 (constantI S_ 32 1#32)))
    (by rfl : _ = val_main_v15 (F := F) (m ((c.tc : Thread nD τ).loc main_arg0)) (m ((c.tc : Thread nD τ).loc main_arg1)))

end Stretches

section Later

variable (W : Valuation τ sig (Elt F))
variable (x0 : (⟨S32x8192x80, .f32⟩ : BufTy).Contents (Elt F)) (x1 : (⟨S32x8192x80, .i32⟩ : BufTy).Contents (Elt F)) (x2 : (⟨S10, .f32⟩ : BufTy).Contents (Elt F))

/-! ### Typed references at literal buffers: the two transports are the identity

An operation of an inlined function is stated at the value's type and moved to and from its buffer's type along the
equation between the two types; at a literal buffer the two types are the same, so each transport is the identity,
whatever the proofs the typed reference carries. -/
theorem ofBuf_main_v19 (p : main_v19.ty = (⟨S10, .i1⟩ : BufTy)) (q : main_v19.space ≠ .host) (r : main_v19.isScoped = false) (v : (⟨S10, .i1⟩ : BufTy).Contents (Elt F)) :
    (TRef.of (T := ⟨S10, .i1⟩) main_v19 p q r).ofBuf (Val := Elt F) v = v := rfl
theorem toBuf_main_v19 (p : main_v19.ty = (⟨S10, .i1⟩ : BufTy)) (q : main_v19.space ≠ .host) (r : main_v19.isScoped = false) (v : (⟨S10, .i1⟩ : BufTy).Contents (Elt F)) :
    (TRef.of (T := ⟨S10, .i1⟩) main_v19 p q r).toBuf (Val := Elt F) v = v := rfl
theorem ofBuf_main_v25 (p : main_v25.ty = (⟨S10, .f32⟩ : BufTy)) (q : main_v25.space ≠ .host) (r : main_v25.isScoped = false) (v : (⟨S10, .f32⟩ : BufTy).Contents (Elt F)) :
    (TRef.of (T := ⟨S10, .f32⟩) main_v25 p q r).ofBuf (Val := Elt F) v = v := rfl
theorem toBuf_main_v25 (p : main_v25.ty = (⟨S10, .f32⟩ : BufTy)) (q : main_v25.space ≠ .host) (r : main_v25.isScoped = false) (v : (⟨S10, .f32⟩ : BufTy).Contents (Elt F)) :
    (TRef.of (T := ⟨S10, .f32⟩) main_v25 p q r).toBuf (Val := Elt F) v = v := rfl
theorem ofBuf_main_arg2 (p : main_arg2.ty = (⟨S10, .f32⟩ : BufTy)) (q : main_arg2.space ≠ .host) (r : main_arg2.isScoped = false) (v : (⟨S10, .f32⟩ : BufTy).Contents (Elt F)) :
    (TRef.of (T := ⟨S10, .f32⟩) main_arg2 p q r).ofBuf (Val := Elt F) v = v := rfl
theorem toBuf_main_arg2 (p : main_arg2.ty = (⟨S10, .f32⟩ : BufTy)) (q : main_arg2.space ≠ .host) (r : main_arg2.isScoped = false) (v : (⟨S10, .f32⟩ : BufTy).Contents (Elt F)) :
    (TRef.of (T := ⟨S10, .f32⟩) main_arg2 p q r).toBuf (Val := Elt F) v = v := rfl
theorem ofBuf_main_v26 (p : main_v26.ty = (⟨S10, .f32⟩ : BufTy)) (q : main_v26.space ≠ .host) (r : main_v26.isScoped = false) (v : (⟨S10, .f32⟩ : BufTy).Contents (Elt F)) :
    (TRef.of (T := ⟨S10, .f32⟩) main_v26 p q r).ofBuf (Val := Elt F) v = v := rfl
theorem toBuf_main_v26 (p : main_v26.ty = (⟨S10, .f32⟩ : BufTy)) (q : main_v26.space ≠ .host) (r : main_v26.isScoped = false) (v : (⟨S10, .f32⟩ : BufTy).Contents (Elt F)) :
    (TRef.of (T := ⟨S10, .f32⟩) main_v26 p q r).toBuf (Val := Elt F) v = v := rfl
theorem ofBuf_main_cst_7 (p : main_cst_7.ty = (⟨S_, .f32⟩ : BufTy)) (q : main_cst_7.space ≠ .host) (r : main_cst_7.isScoped = false) (v : (⟨S_, .f32⟩ : BufTy).Contents (Elt F)) :
    (TRef.of (T := ⟨S_, .f32⟩) main_cst_7 p q r).ofBuf (Val := Elt F) v = v := rfl
theorem toBuf_main_cst_7 (p : main_cst_7.ty = (⟨S_, .f32⟩ : BufTy)) (q : main_cst_7.space ≠ .host) (r : main_cst_7.isScoped = false) (v : (⟨S_, .f32⟩ : BufTy).Contents (Elt F)) :
    (TRef.of (T := ⟨S_, .f32⟩) main_cst_7 p q r).toBuf (Val := Elt F) v = v := rfl
theorem ofBuf_main_call2_v0 (p : main_call2_v0.ty = (⟨S_, .f32⟩ : BufTy)) (q : main_call2_v0.space ≠ .host) (r : main_call2_v0.isScoped = false) (v : (⟨S_, .f32⟩ : BufTy).Contents (Elt F)) :
    (TRef.of (T := ⟨S_, .f32⟩) main_call2_v0 p q r).ofBuf (Val := Elt F) v = v := rfl
theorem toBuf_main_call2_v0 (p : main_call2_v0.ty = (⟨S_, .f32⟩ : BufTy)) (q : main_call2_v0.space ≠ .host) (r : main_call2_v0.isScoped = false) (v : (⟨S_, .f32⟩ : BufTy).Contents (Elt F)) :
    (TRef.of (T := ⟨S_, .f32⟩) main_call2_v0 p q r).toBuf (Val := Elt F) v = v := rfl
theorem ofBuf_main_call2_v1 (p : main_call2_v1.ty = (⟨S10, .f32⟩ : BufTy)) (q : main_call2_v1.space ≠ .host) (r : main_call2_v1.isScoped = false) (v : (⟨S10, .f32⟩ : BufTy).Contents (Elt F)) :
    (TRef.of (T := ⟨S10, .f32⟩) main_call2_v1 p q r).ofBuf (Val := Elt F) v = v := rfl
theorem toBuf_main_call2_v1 (p : main_call2_v1.ty = (⟨S10, .f32⟩ : BufTy)) (q : main_call2_v1.space ≠ .host) (r : main_call2_v1.isScoped = false) (v : (⟨S10, .f32⟩ : BufTy).Contents (Elt F)) :
    (TRef.of (T := ⟨S10, .f32⟩) main_call2_v1 p q r).toBuf (Val := Elt F) v = v := rfl
theorem ofBuf_main_v27 (p : main_v27.ty = (⟨S10, .f32⟩ : BufTy)) (q : main_v27.space ≠ .host) (r : main_v27.isScoped = false) (v : (⟨S10, .f32⟩ : BufTy).Contents (Elt F)) :
    (TRef.of (T := ⟨S10, .f32⟩) main_v27 p q r).ofBuf (Val := Elt F) v = v := rfl
theorem toBuf_main_v27 (p : main_v27.ty = (⟨S10, .f32⟩ : BufTy)) (q : main_v27.space ≠ .host) (r : main_v27.isScoped = false) (v : (⟨S10, .f32⟩ : BufTy).Contents (Elt F)) :
    (TRef.of (T := ⟨S10, .f32⟩) main_v27 p q r).toBuf (Val := Elt F) v = v := rfl
theorem ofBuf_main_v29 (p : main_v29.ty = (⟨S10, .f32⟩ : BufTy)) (q : main_v29.space ≠ .host) (r : main_v29.isScoped = false) (v : (⟨S10, .f32⟩ : BufTy).Contents (Elt F)) :
    (TRef.of (T := ⟨S10, .f32⟩) main_v29 p q r).ofBuf (Val := Elt F) v = v := rfl
theorem toBuf_main_v29 (p : main_v29.ty = (⟨S10, .f32⟩ : BufTy)) (q : main_v29.space ≠ .host) (r : main_v29.isScoped = false) (v : (⟨S10, .f32⟩ : BufTy).Contents (Elt F)) :
    (TRef.of (T := ⟨S10, .f32⟩) main_v29 p q r).toBuf (Val := Elt F) v = v := rfl
theorem ofBuf_main_cst_9 (p : main_cst_9.ty = (⟨S_, .f32⟩ : BufTy)) (q : main_cst_9.space ≠ .host) (r : main_cst_9.isScoped = false) (v : (⟨S_, .f32⟩ : BufTy).Contents (Elt F)) :
    (TRef.of (T := ⟨S_, .f32⟩) main_cst_9 p q r).ofBuf (Val := Elt F) v = v := rfl
theorem toBuf_main_cst_9 (p : main_cst_9.ty = (⟨S_, .f32⟩ : BufTy)) (q : main_cst_9.space ≠ .host) (r : main_cst_9.isScoped = false) (v : (⟨S_, .f32⟩ : BufTy).Contents (Elt F)) :
    (TRef.of (T := ⟨S_, .f32⟩) main_cst_9 p q r).toBuf (Val := Elt F) v = v := rfl
theorem ofBuf_main_call3_v0 (p : main_call3_v0.ty = (⟨S_, .f32⟩ : BufTy)) (q : main_call3_v0.space ≠ .host) (r : main_call3_v0.isScoped = false) (v : (⟨S_, .f32⟩ : BufTy).Contents (Elt F)) :
    (TRef.of (T := ⟨S_, .f32⟩) main_call3_v0 p q r).ofBuf (Val := Elt F) v = v := rfl
theorem toBuf_main_call3_v0 (p : main_call3_v0.ty = (⟨S_, .f32⟩ : BufTy)) (q : main_call3_v0.space ≠ .host) (r : main_call3_v0.isScoped = false) (v : (⟨S_, .f32⟩ : BufTy).Contents (Elt F)) :
    (TRef.of (T := ⟨S_, .f32⟩) main_call3_v0 p q r).toBuf (Val := Elt F) v = v := rfl
theorem ofBuf_main_call3_v1 (p : main_call3_v1.ty = (⟨S10, .f32⟩ : BufTy)) (q : main_call3_v1.space ≠ .host) (r : main_call3_v1.isScoped = false) (v : (⟨S10, .f32⟩ : BufTy).Contents (Elt F)) :
    (TRef.of (T := ⟨S10, .f32⟩) main_call3_v1 p q r).ofBuf (Val := Elt F) v = v := rfl
theorem toBuf_main_call3_v1 (p : main_call3_v1.ty = (⟨S10, .f32⟩ : BufTy)) (q : main_call3_v1.space ≠ .host) (r : main_call3_v1.isScoped = false) (v : (⟨S10, .f32⟩ : BufTy).Contents (Elt F)) :
    (TRef.of (T := ⟨S10, .f32⟩) main_call3_v1 p q r).toBuf (Val := Elt F) v = v := rfl
theorem ofBuf_main_v30 (p : main_v30.ty = (⟨S10, .f32⟩ : BufTy)) (q : main_v30.space ≠ .host) (r : main_v30.isScoped = false) (v : (⟨S10, .f32⟩ : BufTy).Contents (Elt F)) :
    (TRef.of (T := ⟨S10, .f32⟩) main_v30 p q r).ofBuf (Val := Elt F) v = v := rfl
theorem toBuf_main_v30 (p : main_v30.ty = (⟨S10, .f32⟩ : BufTy)) (q : main_v30.space ≠ .host) (r : main_v30.isScoped = false) (v : (⟨S10, .f32⟩ : BufTy).Contents (Elt F)) :
    (TRef.of (T := ⟨S10, .f32⟩) main_v30 p q r).toBuf (Val := Elt F) v = v := rfl

/-- The weight table's first piece as a function of the 11-entry histogram `Z` and the accumulator `x2`: the occupancy
    test, the accumulator update, and the weight `655360 / accumulator` where occupied, zero elsewhere. -/
def tail30 (Z : (⟨S11, .i32⟩ : BufTy).Contents (Elt F)) (x2 : (⟨S10, .f32⟩ : BufTy).Contents (Elt F)) : (⟨S10, .f32⟩ : BufTy).Contents (Elt F) :=
  select (cmpi .sgt (extractStridedSlice S10 ![0] Z slices_S11_S10_0) (broadcastInDim S10 ![] bcast_S_S10 (constantI S_ 32 0#32)))
    (Host.divf (broadcastInDim S10 ![] bcast_S_S10 (constant S_ .f32 0x49200000#32))
      (select (cmpi .sgt (extractStridedSlice S10 ![0] Z slices_S11_S10_0) (broadcastInDim S10 ![] bcast_S_S10 (constantI S_ 32 0#32)))
        (select (cmpi .sgt (extractStridedSlice S10 ![0] Z slices_S11_S10_0) (broadcastInDim S10 ![] bcast_S_S10 (constantI S_ 32 0#32)))
          (addf (mulf (broadcastInDim S10 ![] bcast_S_S10 (constant S_ .f32 0x3DCCCCCD#32)) x2)
            (mulf (broadcastInDim S10 ![] bcast_S_S10 (constant S_ .f32 0x3F666666#32)) (sitofp .f32 (extractStridedSlice S10 ![0] Z slices_S11_S10_0))))
          x2)
        (broadcastInDim S10 ![] bcast_S_S10 (id (constant S_ .f32 0x3F800000#32)))))
    (broadcastInDim S10 ![] bcast_S_S10 (id (constant S_ .f32 0x00000000#32)))

/-- The stage that holds the table's first piece is `tail30` of the histogram stage: by unfolding the stages between. -/
theorem v30_eq_tail30 (x0 : (⟨S32x8192x80, .f32⟩ : BufTy).Contents (Elt F)) (x1 : (⟨S32x8192x80, .i32⟩ : BufTy).Contents (Elt F)) (x2 : (⟨S10, .f32⟩ : BufTy).Contents (Elt F)) :
    val_main_v30 (F := F) x0 x1 x2 = tail30 (val_main_v16 (F := F) x0 x1) x2 := by
  simp only [val_main_v30, val_main_v29, val_main_v28, val_main_cst_8, val_main_v27, val_main_v26, val_main_v25, val_main_v24, val_main_v23, val_main_cst_6, val_main_v22, val_main_v21, val_main_cst_5, val_main_v20, val_main_v19, val_main_v18, val_main_c_4, val_main_v17, val_main_call2_v1, val_main_call2_v0, val_main_cst_7, val_main_call3_v1, val_main_call3_v0, val_main_cst_9, tail30]

/-! ### The second stretch, from any contents holding the histogram and the accumulator -/

/-- The occupancy mask after the second stretch. -/
theorem B_v19 (h16 : W (Proc.devRef .tc main_v16) = val_main_v16 (F := F) x0 x1) :
    after opsB W (Proc.devRef .tc main_v19) = val_main_v19 (F := F) x0 x1 := by
  after_results_simp
  simp only [h16]
  rfl

/-- The table's first piece after the second stretch: the transports at the inlined selects' buffers removed, the stage
    is `tail30` of the histogram, and with the histogram a variable the two sides are one term. -/
theorem B_v30 (h16 : W (Proc.devRef .tc main_v16) = val_main_v16 (F := F) x0 x1) (h2 : W (Proc.devRef .tc main_arg2) = x2) :
    after opsB W (Proc.devRef .tc main_v30) = val_main_v30 (F := F) x0 x1 x2 := by
  after_results_simp
  simp only [h16, h2, ofBuf_main_v19, toBuf_main_v19, ofBuf_main_v25, toBuf_main_v25, ofBuf_main_arg2, toBuf_main_arg2, ofBuf_main_v26, toBuf_main_v26, ofBuf_main_cst_7, toBuf_main_cst_7, ofBuf_main_call2_v0, toBuf_main_call2_v0, ofBuf_main_call2_v1, toBuf_main_call2_v1, ofBuf_main_v27, toBuf_main_v27, ofBuf_main_v29, toBuf_main_v29, ofBuf_main_cst_9, toBuf_main_cst_9, ofBuf_main_call3_v0, toBuf_main_call3_v0, ofBuf_main_call3_v1, toBuf_main_call3_v1, ofBuf_main_v30, toBuf_main_v30]
  refine Eq.trans ?_ (v30_eq_tail30 x0 x1 x2).symm
  generalize val_main_v16 (F := F) x0 x1 = Z
  rfl

/-- The table's second piece, one zero. -/
theorem B_v31 : after opsB W (Proc.devRef .tc main_v31) = val_main_v31 (F := F) := by
  after_results_simp <;> rfl

/-- The second stretch does not write the bin index. -/
theorem B_v11 : after opsB W (Proc.devRef .tc main_v11) = W (Proc.devRef .tc main_v11) := by
  after_results_simp <;> rfl

/-! ### The third stretch -/

/-- The 11-entry table: the concatenation of the two pieces. -/
theorem C_v32 (h30 : W (Proc.devRef .tc main_v30) = val_main_v30 (F := F) x0 x1 x2) (h31 : W (Proc.devRef .tc main_v31) = val_main_v31 (F := F)) :
    after opsC W (Proc.devRef .tc main_v32) = val_main_v32 (F := F) x0 x1 x2 := by
  after_results_simp
  exact concat2_congr S11 0 S10 S1 concatenates_S10_S1_S11_d0 h30 h31

/-- The concatenation writes neither the bin index nor the mask. -/
theorem C_v11 : after opsC W (Proc.devRef .tc main_v11) = W (Proc.devRef .tc main_v11) := by
  after_results_simp <;> rfl

theorem C_v19 : after opsC W (Proc.devRef .tc main_v19) = W (Proc.devRef .tc main_v19) := by
  after_results_simp <;> rfl

/-! ### The last stretch -/

/-- The result after the last stretch, from any contents holding the table, the bin index and the mask. -/
theorem D_v45 (h32 : W (Proc.devRef .tc main_v32) = val_main_v32 (F := F) x0 x1 x2) (h11 : W (Proc.devRef .tc main_v11) = val_main_v11 (F := F) x0 x1)
    (h19 : W (Proc.devRef .tc main_v19) = val_main_v19 (F := F) x0 x1) :
    after opsD W (Proc.devRef .tc main_v45) = val_main_v45 (F := F) x0 x1 x2 := by
  after_results_simp
  simp only [h32, h11, h19]
  rfl

end Later

/-- THE RESULT BUFFER after the whole line: the last stage of the arguments' launch contents. -/
theorem after_v45 (m : (ℓ : Loc nD τ sig) → Buf (Elt F) ℓ) (c : Dev nD) :
    after ops (launchContents m c) (Proc.devRef .tc main_v45)
      = val_main_v45 (F := F) (m ((c.tc : Thread nD τ).loc main_arg0)) (m ((c.tc : Thread nD τ).loc main_arg1)) (m ((c.tc : Thread nD τ).loc main_arg2)) := by
  rw [ops_split, after_append, after_append, after_append]
  refine D_v45 _ _ _ _ (C_v32 _ _ _ _ (B_v30 _ _ _ _ (A_v16 m c) (A_arg2 m c)) (B_v31 _)) ?_ ?_
  · exact (C_v11 _).trans ((B_v11 _).trans (A_v11 m c))
  · exact (C_v19 _).trans (B_v19 _ _ _ (A_v16 m c))

set_option maxRecDepth 8192 in
set_option maxHeartbeats 27600000 in
/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = val_main_v45 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v45).trans (after_v45 m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RunH

end
-- ==== Proof.LibBinRange.lean ====
/-
  The bin index of a value in the unit interval. For an extended real `g` with `0 ≤ g ≤ 1`, the word
  `fptosi (floor (g · 10))` is `ofNat k` for a natural `k ≤ 10` (the product is a real in `[0, 10]`, its floor an integer
  there, and the conversion's clamp to the 32-bit range does nothing); the signed minimum with the word 9 is then
  `ofNat k` for some `k < 10`. The multiplier enters as any `c` equal to the real 10, and again as the f32 pattern of 10.
-/
import Idealize.ShloMosaic.PureOps.Ideal

noncomputable section

namespace Cert.Lib.Hist.Bin

open Idealize.ShloMosaic

/-- A 32-bit word `ofNat n` below `2^31` reads, signed, as `n`. -/
theorem toInt_ofNat_small (n : ℕ) (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1]
  split <;> omega

/-- The converted floor of ten times a value of the unit interval is the word of a natural number at most 10. -/
theorem fptosi_floor_mul (g c : EReal) (hc : c = ((10 : ℝ) : EReal)) (h0 : 0 ≤ g) (h1 : g ≤ 1) :
    ∃ k : ℕ, k ≤ 10 ∧
      FloatOps.fptosi (F := Ideal) (φ := .f32) 32 (FloatOps.floor (F := Ideal) (φ := .f32) (FloatOps.mulf (F := Ideal) (φ := .f32) g c))
        = BitVec.ofNat 32 k := by
  subst hc
  induction g using EReal.rec with
  | bot => exact absurd h0 (by simp)
  | top => exact absurd h1 (by rw [top_le_iff]; exact EReal.coe_ne_top 1 |> fun h => by simpa using h)
  | coe r =>
    have hr0 : 0 ≤ r := by exact_mod_cast h0
    have hr1 : r ≤ 1 := by exact_mod_cast h1
    have hm0 : (0 : ℤ) ≤ ⌊r * 10⌋ := Int.floor_nonneg.mpr (by positivity)
    have hm1 : ⌊r * 10⌋ ≤ (10 : ℤ) := by
      have : (⌊r * 10⌋ : ℝ) ≤ 10 := le_trans (Int.floor_le _) (by linarith)
      exact_mod_cast this
    obtain ⟨k, hk⟩ := Int.eq_ofNat_of_zero_le hm0
    have hk10 : k ≤ 10 := by omega
    refine ⟨k, hk10, ?_⟩
    show Ideal.fptosi 32 (Ideal.liftRound Int.floor ((r : EReal) * ((10 : ℝ) : EReal))) = _
    rw [← EReal.coe_mul, Ideal.liftRound_coe, Ideal.fptosi, Ideal.toIntClamped_coe]
    have hnn : (0 : ℝ) ≤ ((⌊r * 10⌋ : ℤ) : ℝ) := by exact_mod_cast hm0
    rw [if_pos hnn, Int.floor_intCast, hk]
    have e1 : min (((2 ^ (32 - 1) : ℕ) : ℤ) - 1) (k : ℤ) = (k : ℤ) := min_eq_right (by norm_num <;> omega)
    have e2 : max (-((2 ^ (32 - 1) : ℕ) : ℤ)) (k : ℤ) = (k : ℤ) := max_eq_right (by norm_num <;> omega)
    rw [e1, e2, BitVec.ofInt_natCast]

/-- The f32 pattern of `10.0` denotes the real `10`. -/
theorem ofBits_ten : Ideal.ofBits .f32 0x41200000#32 = ((10 : ℝ) : EReal) := by
  simp [Ideal.ofBits, Ideal.ieee, -EReal.coe_mul]; norm_num

/-- The bin word before the minimum: a natural number at most 10, so between 0 and 10 read signed. -/
theorem bin_toInt (g c : EReal) (hc : c = ((10 : ℝ) : EReal)) (h0 : 0 ≤ g) (h1 : g ≤ 1) :
    0 ≤ (FloatOps.fptosi (F := Ideal) (φ := .f32) 32 (FloatOps.floor (F := Ideal) (φ := .f32) (FloatOps.mulf (F := Ideal) (φ := .f32) g c)) : BitVec 32).toInt
    ∧ (FloatOps.fptosi (F := Ideal) (φ := .f32) 32 (FloatOps.floor (F := Ideal) (φ := .f32) (FloatOps.mulf (F := Ideal) (φ := .f32) g c)) : BitVec 32).toInt ≤ 10 := by
  obtain ⟨k, hk, e⟩ := fptosi_floor_mul g c hc h0 h1
  rw [e, toInt_ofNat_small k (by omega)]
  omega

/-- The signed minimum of the word of a natural number with the word 9 is the word of the smaller. -/
theorem minsi_ofNat_nine (k : ℕ) (hk : k < 2 ^ 31) :
    IntOp.minsi (BitVec.ofNat 32 k) 9#32 = BitVec.ofNat 32 (min k 9) := by
  unfold IntOp.minsi
  rw [BitVec.slt, toInt_ofNat_small k hk]
  have e9 : (9#32 : BitVec 32).toInt = 9 := by decide
  rw [e9]
  by_cases h : k < 9
  · have : decide ((k : ℤ) < 9) = true := by rw [decide_eq_true_eq]; omega
    rw [this, if_pos rfl, Nat.min_eq_left (by omega)]
  · have : decide ((k : ℤ) < 9) = false := by rw [decide_eq_false_iff_not]; omega
    rw [this, if_neg (by simp), Nat.min_eq_right (by omega)]

/-- THE BIN INDEX: the minimum with 9 of the converted floor is the word of some `k < 10`. -/
theorem bin_index (g c : EReal) (hc : c = ((10 : ℝ) : EReal)) (h0 : 0 ≤ g) (h1 : g ≤ 1) :
    ∃ k : Fin 10,
      IntOp.minsi (FloatOps.fptosi (F := Ideal) (φ := .f32) 32 (FloatOps.floor (F := Ideal) (φ := .f32) (FloatOps.mulf (F := Ideal) (φ := .f32) g c))) 9#32
        = BitVec.ofNat 32 k.val := by
  obtain ⟨k, hk, e⟩ := fptosi_floor_mul g c hc h0 h1
  refine ⟨⟨min k 9, by omega⟩, ?_⟩
  rw [e, minsi_ofNat_nine k (by omega)]

/-- The bin index with the multiplier spelled as the f32 pattern of 10. -/
theorem bin_index_lit (g : EReal) (h0 : 0 ≤ g) (h1 : g ≤ 1) :
    ∃ k : Fin 10,
      IntOp.minsi (FloatOps.fptosi (F := Ideal) (φ := .f32) 32 (FloatOps.floor (F := Ideal) (φ := .f32)
          (FloatOps.mulf (F := Ideal) (φ := .f32) g (Ideal.ofBits .f32 0x41200000#32)))) 9#32
        = BitVec.ofNat 32 k.val :=
  bin_index g _ ofBits_ten h0 h1

/-- A bin word reads, signed, as its index. -/
theorem toInt_bin (k : Fin 10) : (BitVec.ofNat 32 k.val).toInt = (k.val : ℤ) :=
  toInt_ofNat_small k.val (by have := k.isLt; omega)

/-- A bin word is not negative. -/
theorem not_slt_zero_bin (k : Fin 10) : (BitVec.ofNat 32 k.val).slt 0#32 = false := by
  rw [BitVec.slt, toInt_bin]
  have e0 : (0#32 : BitVec 32).toInt = 0 := by decide
  rw [e0, decide_eq_false_iff_not]; omega

/-- A bin word is none of the words from 10 up. -/
theorem bin_ne_ofNat (k : Fin 10) (m : ℕ) (h10 : 10 ≤ m) (hm : m < 2 ^ 32) : BitVec.ofNat 32 k.val ≠ BitVec.ofNat 32 m := by
  intro e
  have := congrArg BitVec.toNat e
  rw [BitVec.toNat_ofNat, BitVec.toNat_ofNat, Nat.mod_eq_of_lt (by have := k.isLt; omega), Nat.mod_eq_of_lt hm] at this
  have := k.isLt
  omega

end Cert.Lib.Hist.Bin

end
-- ==== Proof.LibScatterRow.lean ====
/-
  Where an update lands in the one-index-axis scatter `x.at[idx].add(…)` on a one-axis operand: operand shape `[n]`,
  scatter indices `[N, 1]` (the index vector on axis 1), updates `[N]`, no window axes, the operand's axis inserted and
  named by the start-index map. Update `j` reads its start index at `idx[j, 0]` as a SIGNED integer, not clamped, the
  window coordinate is 0, and the update lands on operand index `i` exactly when that integer is `i`; outside `[0, n)`
  it is dropped. Stated for any dimension-number record with those list fields; the extents stay symbolic.
-/
import Idealize.ShloMosaic.PureOps.ShapeOps
import Idealize.ShloMosaic.Lib.ValueIdx

namespace Cert.Lib.Hist.Row

open Idealize.ShloMosaic

variable {n N w : Nat}

/-- The operand's, the scatter indices' and the updates' shapes. -/
abbrev Sop (n : Nat) : Shape := ⟨1, ![n]⟩
abbrev Sidx (N : Nat) : Shape := ⟨2, ![N, 1]⟩
abbrev Supd (N : Nat) : Shape := ⟨1, ![N]⟩

theorem fin_one_eq (x : Fin 1) : x = 0 := Fin.ext (by omega)

/-- No operand axis is a window axis: the window coordinate is 0. -/
theorem window_zero (d : ScatterDims (Sop n) (Sidx N) (Supd N)) (hi : d.insertedWindowDims = [0])
    (j : (Supd N).Idx) (a : Fin 1) : d.window j a = 0 := by
  have ha0 : a = 0 := fin_one_eq a
  subst ha0
  unfold ScatterDims.window
  have hn : (0 : Fin 1) ∉ d.sKept := by
    show (0 : Fin 1) ∉ (List.finRange 1).filter (· ∉ d.insertedWindowDims)
    rw [hi]; simp
  rw [dif_neg hn]

/-- The start on the operand's axis is the signed index word at `[j, 0]`. -/
theorem start_eq (d : ScatterDims (Sop n) (Sidx N) (Supd N)) (hs : d.scatterDimsToOperandDims = [0])
    (hv : d.indexVectorDim = 1) (j : (Supd N).Idx) (idx : IVec (Sidx N) w) (a : Fin 1) :
    d.start j idx a = (idx (ValueIdx.ix2 (n0 := N) (n1 := 1) (j 0) 0)).toInt := by
  have ha0 : a = 0 := fin_one_eq a
  subst ha0
  unfold ScatterDims.start
  have ha : (0 : Fin 1) ∈ d.scatterDimsToOperandDims := by rw [hs]; exact List.mem_singleton_self _
  rw [dif_pos ha]
  congr 2
  funext b
  apply Fin.ext
  by_cases hb : b.val = d.indexVectorDim
  · simp only [ScatterDims.siIdx, dif_pos hb]
    have hb1 : b = 1 := Fin.ext (by rw [hb, hv]; rfl)
    subst hb1
    show List.idxOf (0 : Fin 1) d.scatterDimsToOperandDims = 0
    rw [hs]; rfl
  · simp only [ScatterDims.siIdx, dif_neg hb]
    have hb0 : b = 0 := Fin.ext (by have hlt : b.val < 2 := b.isLt; rw [hv] at hb; show b.val = 0; omega)
    subst hb0
    unfold ScatterDims.siCoord
    show (j _).val = (j 0).val
    exact congrArg (fun a => (j a).val) (fin_one_eq _)

/-- THE LANDING INDEX: update `j` lands on `i` exactly when its signed index word is `i`. -/
theorem resultIdx?_eq_some_iff (d : ScatterDims (Sop n) (Sidx N) (Supd N)) (hi : d.insertedWindowDims = [0])
    (hs : d.scatterDimsToOperandDims = [0]) (hv : d.indexVectorDim = 1)
    (j : (Supd N).Idx) (idx : IVec (Sidx N) w) (i : (Sop n).Idx) :
    d.resultIdx? j idx = some i ↔ (idx (ValueIdx.ix2 (n0 := N) (n1 := 1) (j 0) 0)).toInt = ((i 0).val : Int) := by
  have hst : ∀ a, d.start j idx a + (d.window j a : Int) = (idx (ValueIdx.ix2 (n0 := N) (n1 := 1) (j 0) 0)).toInt := fun a => by
    rw [start_eq d hs hv, window_zero d hi]; simp
  unfold ScatterDims.resultIdx?
  constructor
  · intro h
    split at h
    · rename_i hall
      have h1 := Option.some.inj h
      have h0 : (d.start j idx 0 + (d.window j 0 : Int)).toNat = (i 0).val := congrArg (fun f => (f 0).val) h1
      have h2 := hall 0
      rw [hst] at h0 h2
      omega
    · exact absurd h (by simp)
  · intro h
    have hall : ∀ a, 0 ≤ d.start j idx a + (d.window j a : Int) ∧ d.start j idx a + (d.window j a : Int) < (Sop n).size a := fun a => by
      rw [hst a, h]
      have ha0 : a = 0 := fin_one_eq a
      subst ha0
      have := (i 0).isLt
      constructor
      · omega
      · exact_mod_cast this
    rw [dif_pos hall]
    congr 1
    funext a
    have ha0 : a = 0 := fin_one_eq a
    subst ha0
    apply Fin.ext
    show (d.start j idx 0 + (d.window j 0 : Int)).toNat = (i 0).val
    rw [hst, h]; simp

/-- The update indices landing on `i` are those whose signed index word is `i`. -/
theorem filter_landing (d : ScatterDims (Sop n) (Sidx N) (Supd N)) (hi : d.insertedWindowDims = [0])
    (hs : d.scatterDimsToOperandDims = [0]) (hv : d.indexVectorDim = 1) (idx : IVec (Sidx N) w) (i : (Sop n).Idx) :
    Finset.univ.filter (fun j : (Supd N).Idx => d.resultIdx? j idx = some i)
      = Finset.univ.filter (fun j : (Supd N).Idx =>
          (idx (ValueIdx.ix2 (n0 := N) (n1 := 1) (j 0) 0)).toInt = ((i 0).val : Int)) :=
  Finset.filter_congr (fun j _ => resultIdx?_eq_some_iff d hi hs hv j idx i)

end Cert.Lib.Hist.Row
-- ==== Proof.RefBin.lean ====
/-
  The reference program's bin of an element, on the domain where every gap is at most 1.

  The program tests the gap against the literal just above 1 and sends a failing element to an eleventh bin; on the
  domain the test always passes, so the program's bin is the specification's. Since that bin is one of 0..9 as a
  signed word, the program's later wrap of a negative table index (add 11 when below 0) leaves it unchanged.
-/
import proofs.«136895_j1932735283877_2_alg».proof.Proof.RefReadPatched
import proofs.«136895_j1932735283877_2_alg».proof.Proof.Spec

noncomputable section

namespace Cert.ReferenceIdeal.RefValue

open Cert.ReferenceIdeal Cert.ReferenceIdeal.ReadP Idealize.ShloMosaic Idealize.ShloMosaic.ValueIdx

/-- The program's gap is the specification's. -/
theorem v2_eq_gap (x0 : FVec Ideal Cert.Spec.SA .f32) (x1 : IVec Cert.Spec.SA 32) (i : Cert.Spec.SA.Idx) :
    val_main_v2 (F := Ideal) x0 x1 i = Cert.Spec.gap (x0 i) (x1 i) := rfl

/-- The program's capped bin, before the validity test, is the specification's bin. -/
theorem v10_eq_bin (x0 : FVec Ideal Cert.Spec.SA .f32) (x1 : IVec Cert.Spec.SA 32) (i : Cert.Spec.SA.Idx) :
    val_main_v10 (F := Ideal) x0 x1 i = Cert.Spec.binAt x0 x1 i := rfl

/-- On the domain the validity test passes everywhere. -/
theorem v8_eq_one (hlit : (1 : EReal) < Ideal.ofBits .f32 0x3F800008#32)
    (x0 : FVec Ideal Cert.Spec.SA .f32) (x1 : IVec Cert.Spec.SA 32) (hdom : Cert.Spec.InDomain x0 x1)
    (i : Cert.Spec.SA.Idx) : val_main_v8 (F := Ideal) x0 x1 i = 1#1 := by
  have hg : Cert.Spec.gap (x0 i) (x1 i) < Ideal.ofBits .f32 0x3F800008#32 :=
    lt_of_le_of_lt (hdom i) (by rw [show ((1 : ℝ) : EReal) = 1 by norm_cast]; exact hlit)
  show BitVec.ofBool (decide (Cert.Spec.gap (x0 i) (x1 i) < Ideal.ofBits .f32 0x3F800008#32)) = 1#1
  rw [decide_eq_true hg]; rfl

/-- On the domain the program's bin is the specification's. -/
theorem v11_eq_bin (hlit : (1 : EReal) < Ideal.ofBits .f32 0x3F800008#32)
    (x0 : FVec Ideal Cert.Spec.SA .f32) (x1 : IVec Cert.Spec.SA 32) (hdom : Cert.Spec.InDomain x0 x1)
    (i : Cert.Spec.SA.Idx) : val_main_v11 (F := Ideal) x0 x1 i = Cert.Spec.binAt x0 x1 i := by
  rw [val_main_v11_apply, v8_eq_one hlit x0 x1 hdom i, select_one, v10_eq_bin]

/-- A bin word that is one of 0..9 is left alone by the wrap of negative indices. -/
theorem wrap_small (z : BitVec 32) (k : ℕ) (hk : k < 10) (hz : z = BitVec.ofNat 32 k) :
    Scalar.select (IntOp.cmpi .slt z 0#32) (IntOp.addi z 11#32) z = z := by
  subst hz
  interval_cases k <;> rfl

/-- On the domain, with every bin one of 0..9, the wrapped table index is the specification's bin. -/
theorem v40_eq_bin (hlit : (1 : EReal) < Ideal.ofBits .f32 0x3F800008#32)
    (x0 : FVec Ideal Cert.Spec.SA .f32) (x1 : IVec Cert.Spec.SA 32) (hdom : Cert.Spec.InDomain x0 x1)
    (hbin : ∀ i, ∃ k : ℕ, k < 10 ∧ Cert.Spec.binAt x0 x1 i = BitVec.ofNat 32 k)
    (i : Cert.Spec.SA.Idx) : val_main_v40 (F := Ideal) x0 x1 i = Cert.Spec.binAt x0 x1 i := by
  obtain ⟨k, hk, hz⟩ := hbin i
  have h11 := v11_eq_bin hlit x0 x1 hdom i
  show Scalar.select (IntOp.cmpi .slt (val_main_v11 (F := Ideal) x0 x1 i) 0#32)
      (IntOp.addi (val_main_v11 (F := Ideal) x0 x1 i) 11#32) (val_main_v11 (F := Ideal) x0 x1 i) = _
  rw [h11]
  exact wrap_small _ k hk hz

end Cert.ReferenceIdeal.RefValue

end
-- ==== Proof.LibScatterCount.lean ====
/-
  The host's `scatter` whose body is the word addition, every update the word 1, on an operand of zeros: a histogram.

  The operation is a left fold over the update's indices in row-major order; update index `j` lands on the operand
  index `resultIdx? j` and adds the update there, or is dropped when that index is outside the operand. Adding the
  word 1 once per landing update, the element at `i` ends as the starting word plus the number of update indices
  that land on `i`, as a word. Stated for any dimension numbers, shapes and index width; nothing is evaluated.
-/
import Idealize.ShloMosaic.PureOps.ShapeOps

namespace Cert.Lib.Hist

open Idealize.ShloMosaic

variable {s si u : Shape} {w : Nat}

/-- One step of the fold: the update with row-major position `n` (the word `c`) added into `r` where it lands. -/
def bump (d : ScatterDims s si u) (idx : IVec si w) (c : BitVec 32) (r : s.Idx → BitVec 32) (n : Fin u.numel) :
    s.Idx → BitVec 32 :=
  match d.resultIdx? (u.rowMajor.symm n) idx with
  | some i => fun i' => if i' = i then IntOp.addi (r i) c else r i'
  | none => r

/-- The adding scatter of a constant update is the fold of that step over all positions. -/
theorem scatter_addi_eq_foldl (d : ScatterDims s si u) (x : s.Idx → BitVec 32) (idx : IVec si w) (c : BitVec 32) :
    Host.scatter d IntOp.addi x idx (fun _ => c) = (List.finRange u.numel).foldl (bump d idx c) x := rfl

/-- One step read at `i`: the word 1 is added exactly when the update lands on `i`. -/
theorem bump_apply (d : ScatterDims s si u) (idx : IVec si w) (r : s.Idx → BitVec 32) (n : Fin u.numel) (i : s.Idx) :
    bump d idx 1#32 r n i = r i + (if d.resultIdx? (u.rowMajor.symm n) idx = some i then 1#32 else 0#32) := by
  unfold bump
  generalize d.resultIdx? (u.rowMajor.symm n) idx = o
  cases o with
  | none => simp
  | some k =>
    by_cases hik : i = k
    · subst hik; simp [IntOp.addi]
    · have hne : ¬ (some k = some i) := fun e => hik (Option.some.inj e).symm
      simp [hik, hne]

/-- The fold over a list of positions, read at `i`: the start plus the number of listed positions landing on `i`. -/
theorem foldl_bump (d : ScatterDims s si u) (idx : IVec si w) (L : List (Fin u.numel)) (x : s.Idx → BitVec 32)
    (i : s.Idx) :
    L.foldl (bump d idx 1#32) x i
      = x i + BitVec.ofNat 32 (L.countP (fun n => d.resultIdx? (u.rowMajor.symm n) idx = some i)) := by
  induction L generalizing x with
  | nil => simp
  | cons a L ih =>
    rw [List.foldl_cons, ih, bump_apply, List.countP_cons]
    by_cases h : d.resultIdx? (u.rowMajor.symm a) idx = some i
    · simp only [h, if_true, decide_true]
      rw [BitVec.add_assoc, BitVec.ofNat_add]
      congr 1
      rw [BitVec.add_comm]
    · simp [h]

/-- Counting the positions of `List.finRange` with a property is the cardinality of the filtered universe. -/
theorem countP_finRange (n : Nat) (p : Fin n → Prop) [DecidablePred p] :
    (List.finRange n).countP (fun k => p k) = (Finset.univ.filter p).card := by
  rw [Fin.univ_def, Finset.card, Finset.filter_val]
  simp [List.countP_eq_length_filter]

/-- The positions landing on `i` are as many as the update indices landing on `i` (row-major order is a bijection). -/
theorem card_positions (d : ScatterDims s si u) (idx : IVec si w) (i : s.Idx) :
    (Finset.univ.filter (fun n : Fin u.numel => d.resultIdx? (u.rowMajor.symm n) idx = some i)).card
      = (Finset.univ.filter (fun j : u.Idx => d.resultIdx? j idx = some i)).card := by
  refine Finset.card_bij (fun n _ => u.rowMajor.symm n) ?_ ?_ ?_
  · intro n hn
    simpa using hn
  · intro a _ b _ e
    exact u.rowMajor.symm.injective e
  · intro j hj
    refine ⟨u.rowMajor j, ?_, by simp⟩
    simpa using hj

/-- THE HISTOGRAM, from any starting array: the element at `i` is the start plus the number of update indices that
    land on `i`, as a word. -/
theorem scatter_addi_ones_from (d : ScatterDims s si u) (x : s.Idx → BitVec 32) (idx : IVec si w) (i : s.Idx) :
    Host.scatter d IntOp.addi x idx (fun _ => (1#32 : BitVec 32)) i
      = x i + BitVec.ofNat 32 (Finset.univ.filter (fun j : u.Idx => d.resultIdx? j idx = some i)).card := by
  rw [scatter_addi_eq_foldl, foldl_bump, countP_finRange, card_positions]

/-- THE HISTOGRAM from zeros: the element at `i` is the number of update indices that land on `i`, as a word. -/
theorem scatter_addi_ones (d : ScatterDims s si u) (idx : IVec si w) (i : s.Idx) :
    Host.scatter d IntOp.addi (fun _ => (0#32 : BitVec 32)) idx (fun _ => (1#32 : BitVec 32)) i
      = BitVec.ofNat 32 (Finset.univ.filter (fun j : u.Idx => d.resultIdx? j idx = some i)).card := by
  rw [scatter_addi_ones_from]; simp

/-- A rank-0 word constant broadcast to any shape is the constant function. -/
theorem broadcast_const (T : Shape) (hb : (⟨0, ![]⟩ : Shape).BroadcastsInDim T ![]) (c : BitVec 32) :
    broadcastInDim T ![] hb (constantI ⟨0, ![]⟩ 32 c) = fun _ => c := rfl

/-- THE HISTOGRAM as the program prints it: the operand a broadcast zero, the update a broadcast one. -/
theorem scatter_addi_ones_printed (d : ScatterDims s si u) (idx : IVec si w)
    (hb : (⟨0, ![]⟩ : Shape).BroadcastsInDim s ![]) (hb' : (⟨0, ![]⟩ : Shape).BroadcastsInDim u ![]) (i : s.Idx) :
    Host.scatter d IntOp.addi (broadcastInDim s ![] hb (constantI ⟨0, ![]⟩ 32 0#32)) idx
        (broadcastInDim u ![] hb' (constantI ⟨0, ![]⟩ 32 1#32)) i
      = BitVec.ofNat 32 (Finset.univ.filter (fun j : u.Idx => d.resultIdx? j idx = some i)).card := by
  rw [broadcast_const, broadcast_const]; exact scatter_addi_ones d idx i

end Cert.Lib.Hist
-- ==== Proof.RefHist.lean ====
/-
  The reference program's histogram, its occupancy mask and its real counts.

  The program flattens the bins of all elements, scatters the word 1 once per element into an array of eleven zeros at
  the element's bin, and keeps the first ten entries. Entry k is therefore the number of flat positions whose bin, read
  as a signed word, is k; the flattening is a bijection of index sets (row-major position), so this is the number of
  elements whose bin is the word k: the specification's count. There are 20971520 elements, fewer than 2^31, so the
  count word is positive exactly when the count is, and converts to the count as a real number.
-/
import proofs.«136895_j1932735283877_2_alg».proof.Proof.RefReadPatched
import proofs.«136895_j1932735283877_2_alg».proof.Proof.Spec
import proofs.«136895_j1932735283877_2_alg».proof.Proof.LibScatterCount

noncomputable section

namespace Cert.ReferenceIdeal.RefValue

open Cert.ReferenceIdeal Cert.ReferenceIdeal.Gen Cert.ReferenceIdeal.ReadP Idealize.ShloMosaic Idealize.ShloMosaic.ValueIdx

/-- A 32-bit word reads, signed, as a number below 2^31 exactly when it is that number's word. -/
theorem toInt_eq_natCast_iff (z : BitVec 32) (n : ℕ) (h : n < 2 ^ 31) :
    z.toInt = (n : Int) ↔ z = BitVec.ofNat 32 n := by
  constructor
  · intro e
    have hz := BitVec.ofInt_toInt (x := z)
    rw [e] at hz
    rw [← hz]
    exact BitVec.ofInt_natCast 32 n
  · rintro rfl
    have h1 : (BitVec.ofNat 32 n).toNat = n := by
      rw [BitVec.toNat_ofNat]; exact Nat.mod_eq_of_lt (by omega)
    rw [BitVec.toInt_eq_toNat_cond, h1]
    split <;> omega

/-- The array has 20971520 elements. -/
theorem card_SA : Fintype.card Cert.Spec.SA.Idx = 20971520 := by
  rw [Fintype.card_congr Cert.Spec.SA.rowMajor, Fintype.card_fin]
  decide

/-- Every count is below 2^31. -/
theorem count_lt (x0 : FVec Ideal Cert.Spec.SA .f32) (x1 : IVec Cert.Spec.SA 32) (k : ℕ) :
    Cert.Spec.count x0 x1 k < 2 ^ 31 := by
  unfold Cert.Spec.count
  have h1 := Finset.card_filter_le (Finset.univ : Finset Cert.Spec.SA.Idx)
    (fun i => Cert.Spec.binAt x0 x1 i = BitVec.ofNat 32 k)
  rw [Finset.card_univ, card_SA] at h1
  omega

/-- The scattered array at an entry: the word of the number of updates landing there. -/
theorem v16_eq_card (x0 : FVec Ideal Cert.Spec.SA .f32) (x1 : IVec Cert.Spec.SA 32) (i : S11.Idx) :
    val_main_v16 (F := Ideal) x0 x1 i
      = BitVec.ofNat 32 (Finset.univ.filter (fun j : S20971520.Idx =>
          scatter_S11_S20971520x1_S20971520_n_0_0_1.resultIdx? j (val_main_v15 (F := Ideal) x0 x1) = some i)).card := by
  unfold val_main_v16 val_main_v14 val_main_v13 val_main_c_3 val_main_c_2
  exact Cert.Lib.Hist.scatter_addi_ones_printed _ _ _ _ i

/-- THE HISTOGRAM: entry k of the scattered array is the word of the specification's count of bin k.
    `hland` is the landing condition of this one-index-axis scatter: update j lands on entry i exactly when the index
    word of row j, read signed, is i's coordinate. `h11`: the program's bin is the specification's. -/
theorem v16_eq_count
    (hland : ∀ (idx : IVec S20971520x1 32) (j : S20971520.Idx) (i : S11.Idx),
      scatter_S11_S20971520x1_S20971520_n_0_0_1.resultIdx? j idx = some i
        ↔ (idx (ix2 (n0 := 20971520) (n1 := 1) (j 0) 0)).toInt = ((i 0).val : Int))
    (x0 : FVec Ideal Cert.Spec.SA .f32) (x1 : IVec Cert.Spec.SA 32)
    (h11 : ∀ i, val_main_v11 (F := Ideal) x0 x1 i = Cert.Spec.binAt x0 x1 i) (i : S11.Idx) :
    val_main_v16 (F := Ideal) x0 x1 i = BitVec.ofNat 32 (Cert.Spec.count x0 x1 (i 0).val) := by
  rw [v16_eq_card]
  refine congrArg (BitVec.ofNat 32) ?_
  unfold Cert.Spec.count
  refine Finset.card_equiv (Shape.reshapeEquiv shapeCasts_S32x8192x80_S20971520) ?_
  intro j
  simp only [Finset.mem_filter, Finset.mem_univ, true_and]
  rw [hland]
  have hv : val_main_v15 (F := Ideal) x0 x1 (ix2 (n0 := 20971520) (n1 := 1) (j 0) 0)
      = Cert.Spec.binAt x0 x1 (Shape.reshapeEquiv shapeCasts_S32x8192x80_S20971520 j) := by
    rw [val_main_v15_apply]
    have hj : idx_main_v15 (ix2 (n0 := 20971520) (n1 := 1) (j 0) 0) = j := by
      funext a; match a with | ⟨0, _⟩ => rfl
    rw [hj]
    exact h11 _
  rw [hv]
  have hi : (i 0).val < 11 := (i 0).isLt
  exact toInt_eq_natCast_iff _ _ (by omega)

/-- The first ten entries: the count words of the ten bins. -/
theorem v17_eq_count
    (hland : ∀ (idx : IVec S20971520x1 32) (j : S20971520.Idx) (i : S11.Idx),
      scatter_S11_S20971520x1_S20971520_n_0_0_1.resultIdx? j idx = some i
        ↔ (idx (ix2 (n0 := 20971520) (n1 := 1) (j 0) 0)).toInt = ((i 0).val : Int))
    (x0 : FVec Ideal Cert.Spec.SA .f32) (x1 : IVec Cert.Spec.SA 32)
    (h11 : ∀ i, val_main_v11 (F := Ideal) x0 x1 i = Cert.Spec.binAt x0 x1 i) (i : Cert.Spec.SB.Idx) :
    val_main_v17 (F := Ideal) x0 x1 i = BitVec.ofNat 32 (Cert.Spec.count x0 x1 (i 0).val) := by
  rw [val_main_v17_apply, v16_eq_count hland x0 x1 h11]

/-- The occupancy mask is the specification's. `hsgt`: the signed test of a small count word against zero. -/
theorem v19_eq_occupied
    (hsgt : ∀ n : ℕ, n < 2 ^ 31 → IntOp.cmpi .sgt (BitVec.ofNat 32 n) 0#32 = if 0 < n then 1#1 else 0#1)
    (hland : ∀ (idx : IVec S20971520x1 32) (j : S20971520.Idx) (i : S11.Idx),
      scatter_S11_S20971520x1_S20971520_n_0_0_1.resultIdx? j idx = some i
        ↔ (idx (ix2 (n0 := 20971520) (n1 := 1) (j 0) 0)).toInt = ((i 0).val : Int))
    (x0 : FVec Ideal Cert.Spec.SA .f32) (x1 : IVec Cert.Spec.SA 32)
    (h11 : ∀ i, val_main_v11 (F := Ideal) x0 x1 i = Cert.Spec.binAt x0 x1 i) :
    val_main_v19 (F := Ideal) x0 x1 = Cert.Spec.occupied x0 x1 := by
  funext i
  rw [val_main_v19_apply, v17_eq_count hland x0 x1 h11]
  show IntOp.cmpi .sgt (BitVec.ofNat 32 (Cert.Spec.count x0 x1 (i 0).val)) 0#32 = _
  rw [hsgt _ (count_lt x0 x1 _)]
  rfl

/-- The real counts are the specification's. `hsitofp`: the conversion of a small count word. -/
theorem v20_eq_countF
    (hsitofp : ∀ n : ℕ, n < 2 ^ 31 → FloatOps.sitofp (F := Ideal) .f32 (BitVec.ofNat 32 n) = ((n : ℝ) : EReal))
    (hland : ∀ (idx : IVec S20971520x1 32) (j : S20971520.Idx) (i : S11.Idx),
      scatter_S11_S20971520x1_S20971520_n_0_0_1.resultIdx? j idx = some i
        ↔ (idx (ix2 (n0 := 20971520) (n1 := 1) (j 0) 0)).toInt = ((i 0).val : Int))
    (x0 : FVec Ideal Cert.Spec.SA .f32) (x1 : IVec Cert.Spec.SA 32)
    (h11 : ∀ i, val_main_v11 (F := Ideal) x0 x1 i = Cert.Spec.binAt x0 x1 i) :
    val_main_v20 (F := Ideal) x0 x1 = Cert.Spec.countF x0 x1 := by
  funext i
  rw [val_main_v20_apply, v17_eq_count hland x0 x1 h11, hsitofp _ (count_lt x0 x1 _)]
  rfl

end Cert.ReferenceIdeal.RefValue

end
-- ==== Proof.RefTable.lean ====
/-
  The reference program's per-bin stages and its table read.

  The updated accumulators, the bin weights and the number of occupied bins are the specification's functions of the
  occupancy mask, the real counts and the old accumulators: the program spells the same operations in the same order.
  The table read is a gather of the eleven-entry table (the ten weights, then one zero) at the bin of each element:
  the gather reads the start index signed and clamps it into 0..10, a bin word that is one of 0..9 is its own value,
  and entry k of the table for k below ten is weight k.
-/
import proofs.«136895_j1932735283877_2_alg».proof.Proof.RefReadPatched
import proofs.«136895_j1932735283877_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The updated accumulators are the specification's, of the program's mask and real counts. -/
theorem v26_eq_newAcc (x0 : FVec Ideal Cert.Spec.SA .f32) (x1 : IVec Cert.Spec.SA 32) (x2 : FVec Ideal Cert.Spec.SB .f32) :
    val_main_v26 (F := Ideal) x0 x1 x2
      = Cert.Spec.newAcc (val_main_v19 (F := Ideal) x0 x1) (val_main_v20 (F := Ideal) x0 x1) x2 := by
  funext k
  rw [val_main_v26_apply, val_main_v25_apply, val_main_v22_apply, val_main_v24_apply, val_main_v21_apply,
    val_main_cst_5_apply, val_main_v23_apply, val_main_cst_6_apply]
  unfold Cert.Spec.newAcc
  generalize val_main_v19 (F := Ideal) x0 x1 = H
  generalize val_main_v20 (F := Ideal) x0 x1 = C
  rfl

/-- The bin weights are the specification's, of the program's mask and real counts. -/
theorem v30_eq_binW (x0 : FVec Ideal Cert.Spec.SA .f32) (x1 : IVec Cert.Spec.SA 32) (x2 : FVec Ideal Cert.Spec.SB .f32) :
    val_main_v30 (F := Ideal) x0 x1 x2
      = Cert.Spec.binW (val_main_v19 (F := Ideal) x0 x1) (val_main_v20 (F := Ideal) x0 x1) x2 := by
  funext k
  rw [val_main_v30_apply, val_main_v29_apply, val_main_v28_apply, val_main_cst_8_apply, val_main_v27_apply,
    val_main_call2_v1_apply, val_main_call2_v0_apply, val_main_cst_7_apply, val_main_call3_v1_apply,
    val_main_call3_v0_apply, val_main_cst_9_apply, v26_eq_newAcc]
  unfold Cert.Spec.binW
  generalize val_main_v19 (F := Ideal) x0 x1 = H
  generalize val_main_v20 (F := Ideal) x0 x1 = C
  rfl

/-- The number of occupied bins, at least one, is the specification's, of the program's mask. -/
theorem v43_eq_nOcc (x0 : FVec Ideal Cert.Spec.SA .f32) (x1 : IVec Cert.Spec.SA 32) (j : S_.Idx) :
    val_main_v43 (F := Ideal) x0 x1 j = Cert.Spec.nOcc (val_main_v19 (F := Ideal) x0 x1) := by
  rw [val_main_v43_apply, val_main_v35_apply, val_main_cst_14_apply, eq_ix0 j]
  unfold val_main_v34 val_main_v33 val_main_c_11 Cert.Spec.nOcc
  generalize val_main_v19 (F := Ideal) x0 x1 = H
  rfl

/-- The divisor array holds that number everywhere. -/
theorem v44_eq_nOcc (x0 : FVec Ideal Cert.Spec.SA .f32) (x1 : IVec Cert.Spec.SA 32) (i : Cert.Spec.SA.Idx) :
    val_main_v44 (F := Ideal) x0 x1 i = Cert.Spec.nOcc (val_main_v19 (F := Ideal) x0 x1) := by
  rw [val_main_v44_apply, v43_eq_nOcc]

section Gather
variable {α : Type}

/-- The start-indices index `[a, b, c, 0]` of result index `(a, b, c)`. -/
abbrev takeIdx3 (y : S32x8192x80.Idx) : S32x8192x80x1.Idx :=
  fun a => match a with
    | ⟨0, _⟩ => ⟨(y 0).val, (y 0).isLt⟩ | ⟨1, _⟩ => ⟨(y 1).val, (y 1).isLt⟩ | ⟨2, _⟩ => ⟨(y 2).val, (y 2).isLt⟩
    | ⟨3, _⟩ => ⟨0, Nat.one_pos⟩

/-- THE GATHER READ AT AN ELEMENT: the table at the element's start index, read signed and clamped into 0..10. -/
theorem gather_table_apply {w : Nat} (x : S11.Idx → α) (idx : IVec S32x8192x80x1 w) (y : S32x8192x80.Idx) :
    Host.gather gather_S11_S32x8192x80x1_S32x8192x80_n_0_n_n_0_3_1 x idx y
      = x (ix1 ⟨min (idx (takeIdx3 y)).toInt.toNat 10, by omega⟩) := by
  unfold Host.gather
  congr 1
  funext a
  obtain rfl : a = 0 := Subsingleton.elim _ _
  refine Fin.ext ?_
  show gather_S11_S32x8192x80x1_S32x8192x80_n_0_n_n_0_3_1.start y idx 0
      + gather_S11_S32x8192x80x1_S32x8192x80_n_0_n_n_0_3_1.batchCoord y 0
      + gather_S11_S32x8192x80x1_S32x8192x80_n_0_n_n_0_3_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S11_S32x8192x80x1_S32x8192x80_n_0_n_n_0_3_1.startIndexMap from
    List.mem_singleton.mpr rfl)]
  have hsi : gather_S11_S32x8192x80x1_S32x8192x80_n_0_n_n_0_3_1.siIdx y
      ⟨List.idxOf (0 : Fin 1) gather_S11_S32x8192x80x1_S32x8192x80_n_0_n_n_0_3_1.startIndexMap,
        List.idxOf_lt_length_iff.2 (List.mem_singleton.mpr rfl)⟩ = takeIdx3 y := by
    funext b; refine Fin.ext ?_
    match b with
    | ⟨0, _⟩ => rfl
    | ⟨1, _⟩ => rfl
    | ⟨2, _⟩ => rfl
    | ⟨3, _⟩ => rfl
  rw [hsi]
  rfl

end Gather

/-- A word that is `ofNat k` for k below ten reads signed, and unsigned, as k. -/
theorem small_word (z : BitVec 32) (k : ℕ) (hk : k < 10) (hz : z = BitVec.ofNat 32 k) :
    z.toInt.toNat = k ∧ z.toNat = k := by
  subst hz
  interval_cases k <;> exact ⟨by decide, by decide⟩

/-- THE TABLE READ: on elements whose wrapped index is the specification's bin, one of 0..9, the gathered value is the
    weight of that bin. -/
theorem v42_eq_weight (x0 : FVec Ideal Cert.Spec.SA .f32) (x1 : IVec Cert.Spec.SA 32) (x2 : FVec Ideal Cert.Spec.SB .f32)
    (h40 : ∀ i, val_main_v40 (F := Ideal) x0 x1 i = Cert.Spec.binAt x0 x1 i)
    (i : Cert.Spec.SA.Idx) (h : (Cert.Spec.binAt x0 x1 i).toNat < 10)
    (hbin : ∃ k : ℕ, k < 10 ∧ Cert.Spec.binAt x0 x1 i = BitVec.ofNat 32 k) :
    val_main_v42 (F := Ideal) x0 x1 x2 i
      = val_main_v30 (F := Ideal) x0 x1 x2 (ix1 ⟨(Cert.Spec.binAt x0 x1 i).toNat, h⟩) := by
  obtain ⟨k, hk, hz⟩ := hbin
  obtain ⟨hk1, hk2⟩ := small_word _ k hk hz
  show Host.gather gather_S11_S32x8192x80x1_S32x8192x80_n_0_n_n_0_3_1 (val_main_v32 (F := Ideal) x0 x1 x2)
      (val_main_v41 (F := Ideal) x0 x1) i = _
  rw [gather_table_apply]
  have hidx : val_main_v41 (F := Ideal) x0 x1 (takeIdx3 i) = Cert.Spec.binAt x0 x1 i := by
    rw [val_main_v41_apply]
    have hj : idx_main_v41 (takeIdx3 i) = i := by
      funext a; match a with | ⟨0, _⟩ => rfl | ⟨1, _⟩ => rfl | ⟨2, _⟩ => rfl
    rw [hj]; exact h40 i
  have hm : min (val_main_v41 (F := Ideal) x0 x1 (takeIdx3 i)).toInt.toNat 10 = (Cert.Spec.binAt x0 x1 i).toNat := by
    rw [hidx, hk1, hk2]; omega
  have hix : (ix1 (n := 11) ⟨min (val_main_v41 (F := Ideal) x0 x1 (takeIdx3 i)).toInt.toNat 10, by omega⟩ : S11.Idx)
      = ix1 (n := 11) ⟨(Cert.Spec.binAt x0 x1 i).toNat, by omega⟩ := by
    congr 1; exact Fin.ext hm
  rw [hix]
  show concatenate S11 0 [⟨S10, val_main_v30 (F := Ideal) x0 x1 x2⟩, ⟨S1, val_main_v31 (F := Ideal)⟩]
      concatenates_S10_S1_S11_d0 _ = _
  refine concatenate_pair_apply_left 0 _ _ concatenates_S10_S1_S11_d0 _ rfl _ ?_
  intro b
  obtain rfl : b = 0 := Subsingleton.elim _ _
  rfl

end Cert.ReferenceIdeal.RefValue

end
-- ==== Proof.RefValue.lean ====
/-
  THE REFERENCE PROGRAM COMPUTES THE SPECIFICATION on the domain where every gap is at most 1.

  A gap is an absolute value, so it lies in [0, 1] on the domain and its bin is one of 0..9. Hence the program's
  validity test passes, its bin is the specification's, its histogram holds the specification's counts, its mask,
  real counts, accumulators, weights and number of occupied bins are the specification's, and its table read at the
  bin returns the weight of the bin; the quotient of the two is the specification's result.
-/
import proofs.«136895_j1932735283877_2_alg».proof.Proof.RefReadPatched
import proofs.«136895_j1932735283877_2_alg».proof.Proof.Spec
import proofs.«136895_j1932735283877_2_alg».proof.Proof.LibIndicator
import proofs.«136895_j1932735283877_2_alg».proof.Proof.LibLiterals
import proofs.«136895_j1932735283877_2_alg».proof.Proof.LibBinRange
import proofs.«136895_j1932735283877_2_alg».proof.Proof.LibScatterRow
import proofs.«136895_j1932735283877_2_alg».proof.Proof.RefBin
import proofs.«136895_j1932735283877_2_alg».proof.Proof.RefHist
import proofs.«136895_j1932735283877_2_alg».proof.Proof.RefTable

noncomputable section

namespace Cert.ReferenceIdeal.RefValue

open Cert.ReferenceIdeal Cert.ReferenceIdeal.Gen Cert.ReferenceIdeal.ReadP Idealize.ShloMosaic Idealize.ShloMosaic.ValueIdx

/-- A gap is an absolute value: it is not negative. -/
theorem gap_nonneg (p : Ideal .f32) (t : BitVec 32) : (0 : EReal) ≤ Cert.Spec.gap p t := by
  show (0 : EReal) ≤ max (p - ((t.toInt : ℝ) : EReal)) (-(p - ((t.toInt : ℝ) : EReal)))
  generalize p - ((t.toInt : ℝ) : EReal) = x
  rcases le_total 0 x with h | h
  · exact le_trans h (le_max_left _ _)
  · refine le_trans ?_ (le_max_right _ _)
    have := EReal.neg_le_neg_iff.2 h
    simpa using this

/-- On the domain every bin is one of 0..9. -/
theorem bin_small (x0 : FVec Ideal Cert.Spec.SA .f32) (x1 : IVec Cert.Spec.SA 32) (hdom : Cert.Spec.InDomain x0 x1)
    (i : Cert.Spec.SA.Idx) : ∃ k : ℕ, k < 10 ∧ Cert.Spec.binAt x0 x1 i = BitVec.ofNat 32 k := by
  have h1 : Cert.Spec.gap (x0 i) (x1 i) ≤ 1 := by
    have := hdom i
    rwa [show ((1 : ℝ) : EReal) = 1 by norm_cast] at this
  obtain ⟨k, hk⟩ := Cert.Lib.Hist.Bin.bin_index_lit (Cert.Spec.gap (x0 i) (x1 i)) (gap_nonneg _ _) h1
  exact ⟨k.val, k.isLt, hk⟩

/-- THE REFERENCE'S RESULT is the specification's on the domain. -/
theorem ref_result (x0 : FVec Ideal Cert.Spec.SA .f32) (x1 : IVec Cert.Spec.SA 32) (x2 : FVec Ideal Cert.Spec.SB .f32)
    (hdom : Cert.Spec.InDomain x0 x1) :
    Cert.ReferenceIdeal.ReadP.val_main_v45 (F := Ideal) x0 x1 x2 = Cert.Spec.result x0 x1 x2 := by
  have hlit := Cert.Lib.Hist.Lit.one_lt_ofBits_one_plus
  have hbin := bin_small x0 x1 hdom
  have h11 := v11_eq_bin hlit x0 x1 hdom
  have h40 := v40_eq_bin hlit x0 x1 hdom hbin
  have hland : ∀ (idx : IVec S20971520x1 32) (j : S20971520.Idx) (i : S11.Idx),
      scatter_S11_S20971520x1_S20971520_n_0_0_1.resultIdx? j idx = some i
        ↔ (idx (ix2 (n0 := 20971520) (n1 := 1) (j 0) 0)).toInt = ((i 0).val : Int) :=
    fun idx j i => Cert.Lib.Hist.Row.resultIdx?_eq_some_iff scatter_S11_S20971520x1_S20971520_n_0_0_1 rfl rfl rfl j idx i
  have h19 := v19_eq_occupied Cert.Lib.Hist.sgt_ofNat hland x0 x1 h11
  have h20 := v20_eq_countF Cert.Lib.Hist.sitofp_ofNat hland x0 x1 h11
  funext i
  obtain ⟨k, hk, hz⟩ := hbin i
  have hlt : (Cert.Spec.binAt x0 x1 i).toNat < 10 := by rw [(small_word _ k hk hz).2]; exact hk
  rw [val_main_v45_apply, v42_eq_weight x0 x1 x2 h40 i hlt ⟨k, hk, hz⟩, v44_eq_nOcc, v30_eq_binW, h19, h20]
  unfold Cert.Spec.result Cert.Spec.lookup
  rw [dif_pos hlt]
  unfold Cert.Spec.weight
  generalize Cert.Spec.occupied x0 x1 = H
  generalize Cert.Spec.countF x0 x1 = C
  rfl

end Cert.ReferenceIdeal.RefValue

end
-- ==== Proof.PreBound.lean ====
/-
  The precondition read back at the ideal instance. The printed predicate is a conjunction of three `all`s; its third
  conjunct says that `|pred − float(target)| ≤ 1.0` at every index. If the predicate is the word 1, every element of the
  third comparison array is 1, which at the ideal instance is the inequality between extended reals.
-/
import proofs.«136895_j1932735283877_2_alg».proof.Proof.Gen.Pre_finite_inputs
import Idealize.ShloMosaic.Lib.ReduceAll
import Idealize.ShloMosaic.Lib.IdealHost

noncomputable section

namespace Cert.Lib.Hist.Pre

open Idealize.ShloMosaic
open Cert.Pre_finite_inputs

/-- The rank-0 index set has one element. -/
instance : Subsingleton S_.Idx := ⟨fun a b => funext fun d => d.elim0⟩

/-- An ordered `≤` comparison that is the word 1 is the inequality. -/
theorem le_of_cmp_ole (x y : EReal) (h : Ideal.cmp .ole x y = 1#1) : x ≤ y := by
  by_contra hn
  have : Ideal.cmp .ole x y = 0#1 := by
    show BitVec.ofBool (decide (x ≤ y)) = 0#1
    rw [decide_eq_false hn]; rfl
  rw [this] at h
  exact absurd h (by decide)

/-- THE THIRD CONJUNCT: under the precondition, prediction and target differ by at most one everywhere. -/
theorem abs_sub_le_one [Facts] (a0 : FVec Ideal S32x8192x80 .f32) (a1 : IVec S32x8192x80 32) (a2 : FVec Ideal S10 .f32)
    (h : Cert.Pre_finite_inputs.fn (F := Ideal) a0 a1 a2 = fun _ => 1#1) (i : S32x8192x80.Idx) :
    FloatOps.absf (F := Ideal) (φ := .f32) (FloatOps.subf (a0 i) (FloatOps.sitofp .f32 (a1 i))) ≤ ((1 : ℝ) : EReal) := by
  have h0 := congrFun h (fun d => d.elim0)
  dsimp only [Cert.Pre_finite_inputs.fn] at h0
  have h14 := (IntOp.andi_eq_one.1 h0).2
  have e := Host.reduce_andi_all _ _ _ _ _ h14 i
  have e' : Ideal.cmp .ole (FloatOps.absf (F := Ideal) (φ := .f32) (FloatOps.subf (a0 i) (FloatOps.sitofp .f32 (a1 i))))
      (Ideal.ofBits .f32 0x3F800000#32) = 1#1 := e
  have := le_of_cmp_ole _ _ e'
  rw [Ideal.ofBits_one_f32] at this
  exact_mod_cast this

end Cert.Lib.Hist.Pre

end
-- ==== Proof.lean ====
/-
  The certificate: the histogram-reweighting kernel against its reference, on the extended reals.

  Both programs bin every element by its gap `g = |prediction - target|` (bin `min ⌊10 g⌋ 9`), count the elements of each
  of the ten bins, turn the counts into per-bin weights (occupied bins only, an accumulator update, a division by the
  number of occupied bins) and give every element the weight of its bin. The kernel counts with two pipelined regions
  — a histogram accumulated over 32 grid points, then a table lookup written as ten selects — around host operations
  on ten-element vectors; the reference scatters ones at the bin indices and gathers from an 11-entry table whose last
  entry, an overflow bucket for gaps of `1 + 2^-20` or more, is zero. Under the precondition every gap is at most 1, so
  the overflow bucket is empty and the two results are the same function of the three arguments, `Spec.result`: the
  kernel's by reading its two regions and the host operations between them, the reference's by reading its run one
  operation at a time. Counts are finite sums of zeros and ones, so no law used needs the inputs' finiteness.

  The three frames: the two kernel programs' are the generated frame theorems; the reference's is its run with the
  result dropped. The idealization rewrote nothing, so its conjunct is `True`.
-/
import proofs.«136895_j1932735283877_2_alg».proof.Defs
import proofs.«136895_j1932735283877_2_alg».proof.Proof.Gen.Kernel
import proofs.«136895_j1932735283877_2_alg».proof.Proof.Gen.Kernel.Skeleton
import proofs.«136895_j1932735283877_2_alg».proof.Proof.Gen.Kernel.Launch
import proofs.«136895_j1932735283877_2_alg».proof.Proof.Gen.Kernel.Points
import proofs.«136895_j1932735283877_2_alg».proof.Proof.Gen.Kernel.Frame
import proofs.«136895_j1932735283877_2_alg».proof.Proof.Gen.KernelIdeal
import proofs.«136895_j1932735283877_2_alg».proof.Proof.Gen.KernelIdeal.Skeleton
import proofs.«136895_j1932735283877_2_alg».proof.Proof.Gen.KernelIdeal.Launch
import proofs.«136895_j1932735283877_2_alg».proof.Proof.Gen.KernelIdeal.Points
import proofs.«136895_j1932735283877_2_alg».proof.Proof.Gen.KernelIdeal.Frame
import proofs.«136895_j1932735283877_2_alg».proof.Proof.Gen.ReferenceIdeal
import proofs.«136895_j1932735283877_2_alg».proof.Proof.Gen.Pre_finite_inputs
import proofs.«136895_j1932735283877_2_alg».proof.Proof.KResult
import proofs.«136895_j1932735283877_2_alg».proof.Proof.KBridge
import proofs.«136895_j1932735283877_2_alg».proof.Proof.RefRun
import proofs.«136895_j1932735283877_2_alg».proof.Proof.RefValue
import proofs.«136895_j1932735283877_2_alg».proof.Proof.PreBound
import Idealize.ShloMosaic.Adequacy
import Idealize.ShloMosaic.Init

noncomputable section

namespace Cert.Proof

open Idealize.ShloMosaic Idealize.SL.Sem

/-- The word-level kernel runs and leaves its arguments: the generated frame. -/
theorem frame_k : Cert.frame_Kernel := fun m ρ _ => Cert.Kernel.Gen.frame m ρ

/-- The idealized kernel runs and leaves its arguments: the generated frame. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- Under the precondition every gap is at most one. -/
theorem inDomain_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InDomain (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) :=
  fun i => Cert.Lib.Hist.Pre.abs_sub_le_one _ _ _ (hpre c) i

/-- From memories agreeing on the arguments both idealized programs end with the specification's result of those
    arguments: the kernel whatever the arguments, the reference where every gap is at most one. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KValue.kernel_result m ρ c), (h c).2⟩)
      (Cert.KernelIdeal.KValue.run_weights m ρ)
  · refine (θ_run Cert.ReferenceIdeal.defs _ _).mono (fun _ h c => ⟨(h c).1.trans ?_, (h c).2⟩)
      (Cert.ReferenceIdeal.RunH.run (F := Ideal) m' ρ')
    rw [(hagree c).1, (hagree c).2.1, (hagree c).2.2]
    exact Cert.ReferenceIdeal.RefValue.ref_result _ _ _ (inDomain_of_pre m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
